-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x64x64x128 : Shape := ⟨4, ![4, 64, 64, 128]⟩
abbrev S128x128 : Shape := ⟨2, ![128, 128]⟩
abbrev S128 : Shape := ⟨1, ![128]⟩
abbrev S_ : Shape := ⟨0, ![]⟩

class Facts : Prop where
  bcast_S_S4x64x64x128 : S_.BroadcastsInDim S4x64x64x128 (![] : Fin 0 → Fin S4x64x64x128.rank)
  reducesTo_S4x64x64x128_S_d0_1_2_3 : S4x64x64x128.ReducesTo [0, 1, 2, 3] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S4x64x64x128 .f32) (main_arg1 : FVec F S4x64x64x128 .f32) (main_arg2 : FVec F S128x128 .f32) (main_arg3 : FVec F S128 .f32) (main_arg4 : FVec F S128x128 .f32) (main_arg5 : FVec F S128 .f32) : IVec S_ 1 :=
  let main_v0 : FVec F S4x64x64x128 .f32 := Host.absf main_arg0
  let main_cst : FVec F S_ .f32 := constant S_ .f32 0x7F800000#32
  let main_v1 : FVec F S4x64x64x128 .f32 := broadcastInDim S4x64x64x128 ![] bcast_S_S4x64x64x128 main_cst
  let main_v2 : IVec S4x64x64x128 1 := cmpf .olt main_v0 main_v1
  let main_c : IVec S_ 1 := constantI S_ 1 1#1
  let main_v3 : IVec S_ 1 := (fun x v => Host.reduce IntOp.andi x v reducesTo_S4x64x64x128_S_d0_1_2_3 h_S_) main_v2 main_c
  let main_v4 : FVec F S4x64x64x128 .f32 := Host.absf main_arg1
  let main_cst_0 : FVec F S_ .f32 := constant S_ .f32 0x7F800000#32
  let main_v5 : FVec F S4x64x64x128 .f32 := broadcastInDim S4x64x64x128 ![] bcast_S_S4x64x64x128 main_cst_0
  let main_v6 : IVec S4x64x64x128 1 := cmpf .olt main_v4 main_v5
  let main_c_1 : IVec S_ 1 := constantI S_ 1 1#1
  let main_v7 : IVec S_ 1 := (fun x v => Host.reduce IntOp.andi x v reducesTo_S4x64x64x128_S_d0_1_2_3 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S4x64x64x128 : Shape := ⟨4, ![4, 64, 64, 128]⟩
abbrev S128x128 : Shape := ⟨2, ![128, 128]⟩
abbrev S128 : Shape := ⟨1, ![128]⟩
abbrev S4x4096x128 : Shape := ⟨3, ![4, 4096, 128]⟩
abbrev S1x128 : Shape := ⟨2, ![1, 128]⟩
abbrev S1x1024x128 : Shape := ⟨3, ![1, 1024, 128]⟩
abbrev S1024x128 : Shape := ⟨2, ![1024, 128]⟩
abbrev S128x1024 : Shape := ⟨2, ![128, 1024]⟩
abbrev S1024x1024 : Shape := ⟨2, ![1024, 1024]⟩

abbrev nBuf : Space → Nat
  | .hbm => 14
  | .vmem => 23
  | .smem => 0
  | _ => 0

abbrev bufTy : (tb : Table) → Fin (tcTables nBuf tb) → BufTy
  | .hbm, ⟨0, _⟩ => ⟨S4x64x64x128, .f32⟩
  | .hbm, ⟨1, _⟩ => ⟨S4x64x64x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S4x4096x128, .f32⟩
  | .hbm, ⟨7, _⟩ => ⟨S4x4096x128, .f32⟩
  | .hbm, ⟨8, _⟩ => ⟨S1x128, .f32⟩
  | .hbm, ⟨9, _⟩ => ⟨S1x128, .f32⟩
  | .hbm, ⟨10, _⟩ => ⟨S4x4096x128, .f32⟩
  | .hbm, ⟨11, _⟩ => ⟨S4x4096x128, .f32⟩
  | .hbm, ⟨12, _⟩ => ⟨S4x4096x128, .f32⟩
  | .hbm, ⟨13, _⟩ => ⟨S4x64x64x128, .f32⟩
  | .local _ .vmem, ⟨0, _⟩ => ⟨S1x1024x128, .f32⟩
  | .local _ .vmem, ⟨1, _⟩ => ⟨S1x1024x128, .f32⟩
  | .local _ .vmem, ⟨2, _⟩ => ⟨S1x1024x128, .f32⟩
  | .local _ .vmem, ⟨3, _⟩ => ⟨S1x1024x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S1x1024x128, .f32⟩
  | .local _ .vmem, ⟨9, _⟩ => ⟨S1x1024x128, .f32⟩
  | .local _ .vmem, ⟨10, _⟩ => ⟨S1x1024x128, .f32⟩
  | .local _ .vmem, ⟨11, _⟩ => ⟨S1x1024x128, .f32⟩
  | .local _ .vmem, ⟨12, _⟩ => ⟨S1x1024x128, .f32⟩
  | .local _ .vmem, ⟨13, _⟩ => ⟨S1x1024x128, .f32⟩
  | .local _ .vmem, ⟨14, _⟩ => ⟨S1x1024x128, .f32⟩
  | .local _ .vmem, ⟨15, _⟩ => ⟨S1x1024x128, .f32⟩
  | .local _ .vmem, ⟨16, _⟩ => ⟨S1x1024x128, .f32⟩
  | .local _ .vmem, ⟨17, _⟩ => ⟨S1x1024x128, .f32⟩
  | .local _ .vmem, ⟨18, _⟩ => ⟨S1x1024x128, .f32⟩
  | .local _ .vmem, ⟨19, _⟩ => ⟨S1x1024x128, .f32⟩
  | .local _ .vmem, ⟨20, _⟩ => ⟨S1x1024x128, .f32⟩
  | .local _ .vmem, ⟨21, _⟩ => ⟨S1x1024x128, .f32⟩
  | .local _ .vmem, ⟨22, _⟩ => ⟨S1024x128, .f32⟩
  | _, _ => ⟨S4x64x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev grid1 : Pipeline.Grid := ⟨3, ![4, 4, 4], ![false, false, false]⟩

def k1_cond2 (i : grid1.Coords) : BitVec 1 :=
  let arg2 : BitVec 32 := BitVec.ofNat 32 (i 2).val
  let c3_i32 : BitVec 32 := 3#32
  let v22 : BitVec 1 := Scalar.cmpi .eq arg2 c3_i32
  let v23 : BitVec 32 := Scalar.extui v22
  let c0_i32_14 : BitVec 32 := 0#32
  let v24 : BitVec 1 := Scalar.cmpi .ne v23 c0_i32_14
  v24

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x1024x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev stage1_4 : Fin 2 → Memref sig .tc .vmem S1x1024x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

class Facts₀ : Prop where
  shapeCasts_S4x64x64x128_S4x4096x128 : S4x64x64x128.ShapeCasts S4x4096x128
  shapeCasts_S128_S1x128 : S128.ShapeCasts S1x128
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  shapeCasts_S1024x128_S1x1024x128 : S1024x128.ShapeCasts S1x1024x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  transposes_S1024x128_p1_0_S128x1024 : S1024x128.Transposes [1, 0] S128x1024
  shapeCasts_S4x4096x128_S4x64x64x128 : S4x4096x128.ShapeCasts S4x64x64x128
  dot_S1024x128_S128x128_S1024x128_1_0_0_1_n_n_wf : DotDims.WF S1024x128 S128x128 S1024x128 [1] [0] [0] [1] [] []
  dot_S1024x128_S128x1024_S1024x1024_1_0_0_1_n_n_wf : DotDims.WF S1024x128 S128x1024 S1024x1024 [1] [0] [0] [1] [] []
  dot_S1024x1024_S1024x128_S1024x128_1_0_0_1_n_n_wf : DotDims.WF S1024x1024 S1024x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x128.size a ≤ S4x4096x128.size a
  hwx0_0 : ∀ i : grid0.Coords, EltTy.bits .f32 = 32 ∨ (Rect.block (s := S4x4096x128) S1x1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x128.size a ≤ S4x4096x128.size a
  hwx0_1 : ∀ i : grid0.Coords, EltTy.bits .f32 = 32 ∨ (Rect.block (s := S4x4096x128) S1x1024x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024x128.size a ≤ S4x4096x128.size a
  hwx0_6 : ∀ i : grid0.Coords, EltTy.bits .f32 = 32 ∨ (Rect.block (s := S4x4096x128) S1x1024x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1024x128.size a ≤ S4x4096x128.size a
  hwx0_7 : ∀ i : grid0.Coords, EltTy.bits .f32 = 32 ∨ (Rect.block (s := S4x4096x128) S1x1024x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x128.size a ≤ S4x4096x128.size a
  hwx1_0 : ∀ i : grid1.Coords, EltTy.bits .f32 = 32 ∨ (Rect.block (s := S4x4096x128) S1x1024x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x128.size a ≤ S4x4096x128.size a
  hwx1_1 : ∀ i : grid1.Coords, EltTy.bits .f32 = 32 ∨ (Rect.block (s := S4x4096x128) S1x1024x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x128.size a ≤ S4x4096x128.size a
  hwx1_2 : ∀ i : grid1.Coords, EltTy.bits .f32 = 32 ∨ (Rect.block (s := S4x4096x128) S1x1024x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x128.size a ≤ S4x4096x128.size a
  hwx1_3 : ∀ i : grid1.Coords, EltTy.bits .f32 = 32 ∨ (Rect.block (s := S4x4096x128) S1x1024x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1024x128.size a ≤ S4x4096x128.size a
  hwx1_4 : ∀ i : grid1.Coords, EltTy.bits .f32 = 32 ∨ (Rect.block (s := S4x4096x128) S1x1024x128.size (cc1_transform_4 i) (hinb1_4 i)).WholeWords (EltTy.packing .f32)

variable [Facts₀]

def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf

abbrev win0_0 : Pipeline.Window sig grid0 :=
  Pipeline.Window.ofSpec (Memref.whole main_v0) S1x1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4_0) S1x1024x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v4_1) S1x1024x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v4_1) S1x1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4_0) S1x1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4_1) S1x1024x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4_0) S1x1024x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v5) S1x1024x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S4x64x64x128 : Shape := ⟨4, ![4, 64, 64, 128]⟩
abbrev S128x128 : Shape := ⟨2, ![128, 128]⟩
abbrev S128 : Shape := ⟨1, ![128]⟩
abbrev S1x1x1x128 : Shape := ⟨4, ![1, 1, 1, 128]⟩
abbrev S4x4096x128 : Shape := ⟨3, ![4, 4096, 128]⟩
abbrev S4x4096x4096 : Shape := ⟨3, ![4, 4096, 4096]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S4x64x64x128, .f32⟩
  | .hbm, ⟨1, _⟩ => ⟨S4x64x64x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S4x64x64x128, .f32⟩
  | .hbm, ⟨7, _⟩ => ⟨S1x1x1x128, .f32⟩
  | .hbm, ⟨8, _⟩ => ⟨S4x64x64x128, .f32⟩
  | .hbm, ⟨9, _⟩ => ⟨S4x64x64x128, .f32⟩
  | .hbm, ⟨10, _⟩ => ⟨S4x64x64x128, .f32⟩
  | .hbm, ⟨11, _⟩ => ⟨S1x1x1x128, .f32⟩
  | .hbm, ⟨12, _⟩ => ⟨S4x64x64x128, .f32⟩
  | .hbm, ⟨13, _⟩ => ⟨S4x64x64x128, .f32⟩
  | .hbm, ⟨14, _⟩ => ⟨S4x4096x128, .f32⟩
  | .hbm, ⟨15, _⟩ => ⟨S4x4096x128, .f32⟩
  | .hbm, ⟨16, _⟩ => ⟨S4x4096x4096, .f32⟩
  | .hbm, ⟨17, _⟩ => ⟨S4x4096x4096, .f32⟩
  | .hbm, ⟨18, _⟩ => ⟨S4x4096x4096, .f32⟩
  | .hbm, ⟨19, _⟩ => ⟨S_, .f32⟩
  | .hbm, ⟨20, _⟩ => ⟨S4x4096x4096, .f32⟩
  | .hbm, ⟨21, _⟩ => ⟨S4x4096x4096, .f32⟩
  | .hbm, ⟨22, _⟩ => ⟨S_, .f32⟩
  | .hbm, ⟨23, _⟩ => ⟨S4x4096x4096, .f32⟩
  | .hbm, ⟨24, _⟩ => ⟨S4x4096x4096, .f32⟩
  | .hbm, ⟨25, _⟩ => ⟨S4x4096x128, .f32⟩
  | .hbm, ⟨26, _⟩ => ⟨S4x64x64x128, .f32⟩
  | .hbm, ⟨27, _⟩ => ⟨S4x64x64x128, .f32⟩
  | _, _ => ⟨S4x64x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]

class Facts₀ : Prop where
  bcast_S128_S1x1x1x128_3 : S128.BroadcastsInDim S1x1x1x128 (![3] : Fin 1 → Fin S1x1x1x128.rank)
  bcast_S1x1x1x128_S4x64x64x128_0_1_2_3 : S1x1x1x128.BroadcastsInDim S4x64x64x128 (![0, 1, 2, 3] : Fin 4 → Fin S4x64x64x128.rank)
  shapeCasts_S4x64x64x128_S4x4096x128 : S4x64x64x128.ShapeCasts S4x4096x128
  bcast_S_S4x4096x4096 : S_.BroadcastsInDim S4x4096x4096 (![] : Fin 0 → Fin S4x4096x4096.rank)
  shapeCasts_S4x4096x128_S4x64x64x128 : S4x4096x128.ShapeCasts S4x64x64x128
  dot_S4x64x64x128_S128x128_S4x64x64x128_3_0_012_1_n_n_wf : DotDims.WF S4x64x64x128 S128x128 S4x64x64x128 [3] [0] [0, 1, 2] [1] [] []
  dot_S4x4096x128_S4x4096x128_S4x4096x4096_2_2_1_1_0_0_wf : DotDims.WF S4x4096x128 S4x4096x128 S4x4096x4096 [2] [2] [1] [1] [0] [0]
  dot_S4x4096x4096_S4x4096x128_S4x4096x128_2_1_1_2_0_0_wf : DotDims.WF S4x4096x4096 S4x4096x128 S4x4096x128 [2] [1] [1] [2] [0] [0]

variable [Facts₀]

def dot_S4x64x64x128_S128x128_S4x64x64x128_3_0_012_1_n_n : DotDims S4x64x64x128 S128x128 S4x64x64x128 where
  lhsContracting := [3]
  rhsContracting := [0]
  lhsNonContracting := [0, 1, 2]
  rhsNonContracting := [1]
  lhsBatch := []
  rhsBatch := []
  wf := dot_S4x64x64x128_S128x128_S4x64x64x128_3_0_012_1_n_n_wf
def dot_S4x4096x128_S4x4096x128_S4x4096x4096_2_2_1_1_0_0 : DotDims S4x4096x128 S4x4096x128 S4x4096x4096 where
  lhsContracting := [2]
  rhsContracting := [2]
  lhsNonContracting := [1]
  rhsNonContracting := [1]
  lhsBatch := [0]
  rhsBatch := [0]
  wf := dot_S4x4096x128_S4x4096x128_S4x4096x4096_2_2_1_1_0_0_wf
def dot_S4x4096x4096_S4x4096x128_S4x4096x128_2_1_1_2_0_0 : DotDims S4x4096x4096 S4x4096x128 S4x4096x128 where
  lhsContracting := [2]
  rhsContracting := [1]
  lhsNonContracting := [1]
  rhsNonContracting := [2]
  lhsBatch := [0]
  rhsBatch := [0]
  wf := dot_S4x4096x4096_S4x4096x128_S4x4096x128_2_1_1_2_0_0_wf

class Facts : Prop extends Facts₀ where

variable [Facts]
-- ==== Proof.K.Data.lean ====
/-
  The proof data of the two kernel launches, shared by every module about them.

  Launch 0 (the projections) runs over a 4 × 4 grid: at point (n, i) it reads rows 1024·i … 1024·i + 1023 of image n of
  x and of y, the two weight matrices and the two bias rows, and writes the same rows of xq and yk.  Its outputs'
  staging buffers after the body are therefore one whole-buffer store each, of the body's arithmetic on the blocks read.

  Launch 1 (the attention) runs over a 4 × 4 × 4 grid: at point (n, i, j) it reads query rows i of yk, key rows j of xq,
  value rows j of yk and residual rows i of xq.  A scratch accumulator is zeroed at j = 0, receives the block's
  contribution at every j, and at j = 3 the output block is the accumulator plus the residual rows.  `acc1` is the
  accumulator after each grid position, by recursion on the position; the region invariant carries it from one
  position to the next.  The arrays xq and yk are each read through two windows, so each window holds half a share.
-/
import proofs.«140727_j37993280700496_1_alg».proof.Proof.Gen.Kernel.Skeleton
import proofs.«140727_j37993280700496_1_alg».proof.Proof.Gen.Kernel.Launch
import proofs.«140727_j37993280700496_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- The TensorCore's buffer contents when a launch is entered: the parameter everything here is stated at.
variable (V : (c : Dev nD) → (b : Ref sig .tc) → Buf (Elt F) ((c : Thread nD τ).loc b))

/-! ## The whole-buffer rectangles the bodies load and store through -/

/-- A whole [1, 1024, 128] staging buffer. -/
abbrev rB : Rect S1x1024x128 := Rect.unit (s := S1x1024x128) ![0, 0, 0] S1x1024x128.size inb_S1x1024x128_S1x1024x128_0_0_0
/-- A whole [128, 128] weight buffer. -/
abbrev rW : Rect S128x128 := Rect.unit (s := S128x128) ![0, 0] S128x128.size inb_S128x128_S128x128_0_0
/-- A whole [1, 128] bias buffer. -/
abbrev rV : Rect S1x128 := Rect.unit (s := S1x128) ![0, 0] S1x128.size inb_S1x128_S1x128_0_0
/-- The whole [1024, 128] accumulator. -/
abbrev rA : Rect S1024x128 := Rect.unit (s := S1024x128) ![0, 0] S1024x128.size inb_S1024x128_S1024x128_0_0

/-! ## The windows' blocks -/

/-- Launch 0: window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Launch 1: window `w`'s block at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## Launch 0: what the body leaves in the output windows' buffers -/

/-- The xq block: one whole-buffer store of the projection of the x block by W1 and b1. -/
def out0_6 (x0 : Vec F S1x1024x128 .f32) (x2 : Vec F S128x128 .f32) (x3 : Vec F S1x128 .f32) : Vec F S1x1024x128 .f32 :=
  View.canon [⟨rB, k0_pay1 (View.ld x0 rB) (View.ld x2 rW) (View.ld x3 rV)⟩]

/-- The yk block: one whole-buffer store of the projection of the y block by W2 and b2. -/
def out0_7 (x1 : Vec F S1x1024x128 .f32) (x4 : Vec F S128x128 .f32) (x5 : Vec F S1x128 .f32) : Vec F S1x1024x128 .f32 :=
  View.canon [⟨rB, k0_pay2 (View.ld x1 rB) (View.ld x4 rW) (View.ld x5 rV)⟩]

/-- Launch 0's proof data on core `c`: the arrays as found; after the body each input buffer still at its block,
    the two outputs at the projections of the blocks; nothing carried between points. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 2 t) (iblk0 V c 3 t)
    | ⟨7, _⟩ => out0_7 (iblk0 V c 1 t) (iblk0 V c 4 t) (iblk0 V c 5 t)
  Φ _ := Pipeline.ΦA spec0 c
  q _ := fullShare
  owed _ := 0

/-! ## Launch 1: the accumulator, point by point -/

/-- The accumulator after one run of the body: the blocks' contribution added to what it held — zero when the
    body has just cleared it (`none`), else the contents carried from the point before. -/
def accStep (x0 x1 x2 : Vec F S1x1024x128 .f32) (prev : Option (Vec F S1024x128 .f32)) : Vec F S1024x128 .f32 :=
  View.canon [⟨rA, k1_pay2 (View.ld x0 rB) (View.ld x1 rB) (View.ld x2 rB)
    (View.ld (match prev with
      | none => View.canon [⟨rA, k1_pay1 (F := F)⟩]
      | some s => s) rA)⟩]

/-- The accumulator after the body at grid position `n`: cleared first where the key-block coordinate is zero
    (`n % 4 = 0`), carried from position `n - 1` elsewhere. -/
def acc1 (c : Dev nD) : (n : ℕ) → n < cfg1.N → Vec F S1024x128 .f32
  | 0, hn => accStep (iblk1 V c 0 ⟨0, hn⟩) (iblk1 V c 1 ⟨0, hn⟩) (iblk1 V c 2 ⟨0, hn⟩) none
  | n + 1, hn => accStep (iblk1 V c 0 ⟨n + 1, hn⟩) (iblk1 V c 1 ⟨n + 1, hn⟩) (iblk1 V c 2 ⟨n + 1, hn⟩)
      (if (n + 1) % 4 = 0 then none else some (acc1 c n (Nat.lt_of_succ_lt hn)))

/-- The output block at a point that stores it: the accumulator plus the residual rows. -/
def out1_4 (s : Vec F S1024x128 .f32) (x3 : Vec F S1x1024x128 .f32) : Vec F S1x1024x128 .f32 :=
  View.canon [⟨rB, k1_pay3 (View.ld s rA) (View.ld x3 rB)⟩]

/-- The accumulator as a memref: a whole scoped buffer of the kernel's own. -/
abbrev scM : Memref sig .tc .vmem S1024x128 .f32 := Memref.whole cc1_scratch0

/-- The region invariant of launch 1 before grid position `n`: before the first point every scoped buffer that is no
    staging buffer of this launch at some contents; afterwards the same with the accumulator at what the point before
    left in it; the generator register at some state throughout. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ owns (c : Thread nD τ) scM fullShare (acc1 V c n hn)) ∗ (∃ r, prngReg c r))

/-- Launch 1's proof data on core `c`: the arrays as found; after the body each input buffer still at its block and
    the output at the accumulator plus the residual; the invariant carries the accumulator; the two arrays read
    through two windows each are held at half a share per window. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (acc1 V c t.val t.isLt) (iblk1 V c 3 t)
  Φ t := PhiS V c t.val (Nat.le_of_lt_succ t.isLt)
  q w := match w with
    | ⟨0, _⟩ => fullShare.left
    | ⟨1, _⟩ => fullShare.left
    | ⟨2, _⟩ => fullShare.right
    | ⟨3, _⟩ => fullShare.right
    | ⟨4, _⟩ => fullShare
  owed _ := 0

end Cert.Kernel.Hand

end
-- ==== Proof.K.Run.lean ====
/-
  The run of the whole program from the two launches' body obligations: the buffer contents at each boundary
  between the host reshapes and the two launches, each launch as a segment entered from the contents before it and
  left at the contents after it, and the launch of the program over these segments.
-/
import proofs.«140727_j37993280700496_1_alg».proof.Proof.K.Data
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Core `c`'s buffers at launch. -/
abbrev W0 : Dev nD → Valuation τ sig (Elt F) := fun c b => m (c, b)
/-- After the four reshapes before launch 0. -/
abbrev W1 : Dev nD → Valuation τ sig (Elt F) := fun c => StableHlo.after hostOps0 (W0 m c)
/-- The same read at the TensorCore's references. -/
abbrev V1 : (c : Dev nD) → (b : Ref sig .tc) → Buf (Elt F) ((c : Thread nD τ).loc b) := fun c b => W1 m c b
/-- After launch 0: its arrays at what its write-backs leave, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- After launch 1: the output array at what its write-backs leave, every other buffer as entered. -/
def W3 (c : Dev nD) : Valuation τ sig (Elt F) :=
  Function.update (W2 m c) (Proc.devRef .tc main_v5) ((dat1 (V2 m) c).arrAt 4 cfg1.N)
abbrev V3 : (c : Dev nD) → (b : Ref sig .tc) → Buf (Elt F) ((c : Thread nD τ).loc b) := fun c b => W3 m c b
/-- After the closing reshape. -/
abbrev W4 : Dev nD → Valuation τ sig (Elt F) := fun c => StableHlo.after hostOps2 (W3 m c)

/-! ## The proof data family and the thread state -/

/-- No launch prefetches a table. -/
abbrev adm : (p : Fin 2) → (pcfgs (F := F) p).Adm := fun p => (cfgs p).toPCfg_adm
/-- Each launch's proof data at the contents it is entered from. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
/-- A stretch of host operations as a segment over every unscoped buffer. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh : (hostOps0 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The launches as segments -/

/-- What the two launches' bodies owe, at the contents each launch is entered from: the body obligations, and launch
    1's invariant entered from and returned to the scoped buffers at some contents. -/
structure Obl : Prop where
  hb0 : ∀ c, BodyObligation (dat0 (F := F) (V1 m) c) (defs₀ (F := F)) Variants.none () Set.univ
  hb1 : ∀ c, BodyObligation (dat1 (F := F) (V2 m) c) (defs₀ (F := F)) Variants.none () Set.univ
  hin1 : ∀ c, (Pipeline.ΦA spec1 c : sProp 𝕄) ⊢ (dat1 (F := F) (V2 m) c).Φ 0
  hout1 : ∀ c, (dat1 (F := F) (V2 m) c).Φ (Fin.last cfg1.N) ⊢ (Pipeline.ΦA spec1 c : sProp 𝕄)

variable (O : Obl m)

set_option backward.isDefEq.respectTransparency.types false in
/-- Launch 0 between the contents `W1` and `W2`: its eight arrays are distinct buffers, split out of the unscoped
    buffers at entry and put back at what the write-backs leave at exit. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (O.hb0 c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Launch 1's arrays: three distinct buffers behind five windows -/

theorem img1 : Finset.univ.image (Pipeline.arrRef spec1) = ({main_v4_0, main_v4_1, main_v5} : Finset (Ref sig .tc)) := by decide

/-- The distinct buffers behind launch 1's windows, one by one. -/
theorem arrBufs1_eq (c : Dev nD) (Vv : (b : Ref sig .tc) → Buf (Elt F) ((c : Thread nD τ).loc b)) :
    (Pipeline.arrBufs (Ix := Unit) (Name := ℕ) (U := UR sig nD τ) (Lvl := ℕ) spec1 c Vv : sProp 𝕄)
      = iprop((((c : Thread nD τ).loc main_v4_0) ↦{fullShare} Vv main_v4_0) ∗ (((c : Thread nD τ).loc main_v4_1) ↦{fullShare} Vv main_v4_1)
          ∗ (((c : Thread nD τ).loc main_v5) ↦{fullShare} Vv main_v5)) := by
  unfold Pipeline.arrBufs
  rw [img1, BI.bigSep_insert (by decide), BI.bigSep_insert (by decide), BI.bigSep_singleton]
  rfl

/-- Launch 1's windowed arrays, window by window: xq and yk at half a share per window, the output whole. -/
theorem arrays1_eq (Vv : (c : Dev nD) → (b : Ref sig .tc) → Buf (Elt F) ((c : Thread nD τ).loc b)) (c : Dev nD)
    (Fc : (w : Fin cfg1.W) → Buf (Elt F) ((cfg1.win w).arr.view.loc (c : Thread nD τ))) :
    ((dat1 Vv c).arrays Fc : sProp 𝕄)
      = iprop((((c : Thread nD τ).loc main_v4_1) ↦{fullShare.left} Fc 0) ∗ (((c : Thread nD τ).loc main_v4_0) ↦{fullShare.left} Fc 1)
          ∗ (((c : Thread nD τ).loc main_v4_1) ↦{fullShare.right} Fc 2) ∗ (((c : Thread nD τ).loc main_v4_0) ↦{fullShare.right} Fc 3)
          ∗ (((c : Thread nD τ).loc main_v5) ↦{fullShare} Fc 4)) := by
  unfold Dat.arrays
  rw [bigSep_W1, (arr_whole1 0).set_eq_univ, (arr_whole1 1).set_eq_univ, (arr_whole1 4).set_eq_univ]
  rfl

/-- A core's unscoped buffers are the three buffers behind launch 1's windows and the rest. -/
theorem split1 (c : Dev nD) (Vv : (b : Ref sig .tc) → Buf (Elt F) ((c : Thread nD τ).loc b)) :
    (unscopedBufs c Vv : sProp 𝕄) = iprop(Pipeline.arrBufs (Ix := Unit) (Name := ℕ) (U := UR sig nD τ) (Lvl := ℕ) spec1 c Vv
      ∗ Pipeline.unscopedRest (Ix := Unit) (Name := ℕ) (U := UR sig nD τ) (Lvl := ℕ) spec1 c Vv) :=
  Pipeline.unscopedBufs_split₀ cfgs (1 : Fin 2) winFacts₀1.arr_unscoped c Vv

/-- ENTRY of launch 1: the unscoped buffers at the contents launch 0 left are launch 1's windowed arrays — xq and yk
    split into two half shares each, one per window that reads them — beside every other unscoped buffer. -/
theorem entry1 (c : Dev nD) :
    (StableHlo.held (c : Thread nD τ) (Pipeline.ucRefs τ sig) (W2 m c) : sProp 𝕄)
      ⊢ iprop((dat1 (V2 m) c).arrays ((dat1 (V2 m) c).arrAt · 0)
          ∗ Pipeline.unscopedRest (Ix := Unit) (Name := ℕ) (U := UR sig nD τ) (Lvl := ℕ) spec1 c (V2 m c)) := by
  have h : (unscopedBufs c (V2 m c) : sProp 𝕄)
      ⊢ iprop((dat1 (V2 m) c).arrays ((dat1 (V2 m) c).arrAt · 0)
          ∗ Pipeline.unscopedRest (Ix := Unit) (Name := ℕ) (U := UR sig nD τ) (Lvl := ℕ) spec1 c (V2 m c)) := by
    rw [split1, arrBufs1_eq, arrays1_eq]
    iintro ⟨⟨H0, H1, H5⟩, Hrest⟩
    ihave H0 := (pointsTo_share (PosShare.mem_left_op_right fullShare)).1 $$ H0
    icases H0 with ⟨H0l, H0r⟩
    ihave H1 := (pointsTo_share (PosShare.mem_left_op_right fullShare)).1 $$ H1
    icases H1 with ⟨H1l, H1r⟩
    isplitr [Hrest]
    · isplitl [H1l]; · iexact H1l
      isplitl [H0l]; · iexact H0l
      isplitl [H1r]; · iexact H1r
      isplitl [H0r]; · iexact H0r
      iexact H5
    · iexact Hrest
  rw [Pipeline.unscopedBufs_held] at h
  exact h

/-- EXIT of launch 1: the half shares rejoined at the unchanged xq and yk, the output array at what the write-backs
    leave, every other buffer as entered: the unscoped buffers at the contents `W3`. -/
theorem exit1 (c : Dev nD) :
    iprop((dat1 (V2 m) c).arrays ((dat1 (V2 m) c).arrAt · cfg1.N)
          ∗ Pipeline.unscopedRest (Ix := Unit) (Name := ℕ) (U := UR sig nD τ) (Lvl := ℕ) spec1 c (V2 m c))
      ⊢ (StableHlo.held (c : Thread nD τ) (Pipeline.ucRefs τ sig) (W3 m c) : sProp 𝕄) := by
  have hr : (Pipeline.unscopedRest (Ix := Unit) (Name := ℕ) (U := UR sig nD τ) (Lvl := ℕ) spec1 c (V2 m c) : sProp 𝕄)
      = Pipeline.unscopedRest (Ix := Unit) (Name := ℕ) (U := UR sig nD τ) (Lvl := ℕ) spec1 c (V3 m c) := by
    unfold Pipeline.unscopedRest
    refine bigSep_congr fun b hb => ?_
    have hne : b ≠ main_v5 := fun e => (Finset.mem_sdiff.mp hb).2 (by rw [e, img1]; decide)
    rw [show V3 m c b = V2 m c b from Function.update_of_ne (StableHlo.devRef_ne_of_ne hne) _ _]
  have h : iprop((dat1 (V2 m) c).arrays ((dat1 (V2 m) c).arrAt · cfg1.N)
          ∗ Pipeline.unscopedRest (Ix := Unit) (Name := ℕ) (U := UR sig nD τ) (Lvl := ℕ) spec1 c (V2 m c))
      ⊢ (unscopedBufs c (V3 m c) : sProp 𝕄) := by
    rw [split1, arrBufs1_eq, arrays1_eq, hr, (dat1 (V2 m) c).arrAt_in 0 rfl _, (dat1 (V2 m) c).arrAt_in 1 rfl _,
      (dat1 (V2 m) c).arrAt_in 2 rfl _, (dat1 (V2 m) c).arrAt_in 3 rfl _,
      show V3 m c main_v4_0 = V2 m c main_v4_0 from Function.update_of_ne (StableHlo.devRef_ne_of_ne (by decide)) _ _,
      show V3 m c main_v4_1 = V2 m c main_v4_1 from Function.update_of_ne (StableHlo.devRef_ne_of_ne (by decide)) _ _,
      show V3 m c main_v5 = (dat1 (V2 m) c).arrAt 4 cfg1.N from Function.update_self _ _ _]
    iintro ⟨⟨H1l, H0l, H1r, H0r, H5⟩, Hrest⟩
    isplitr [Hrest]
    · isplitl [H0l H0r]
      · iapply (pointsTo_share (PosShare.mem_left_op_right fullShare)).2; isplitl [H0l]; · iexact H0l
        iexact H0r
      isplitl [H1l H1r]
      · iapply (pointsTo_share (PosShare.mem_left_op_right fullShare)).2; isplitl [H1l]; · iexact H1l
        iexact H1r
      iexact H5
    · iexact Hrest
  rw [Pipeline.unscopedBufs_held] at h
  exact h

theorem r1_hentry (c : Dev nD) : iprop(iprop(StableHlo.held (c : Thread nD τ) (Pipeline.ucRefs τ sig) (W2 m c) ∗ R c) ∗ Pipeline.ownSems0 (fun k : PEmpty => k.elim) c ∗ levAts L lv)
    ⊢ |={Set.univ}=> iprop((dat1 (V2 m) c).arrays ((dat1 (V2 m) c).arrAt · 0) ∗ Pipeline.prefHeld (pcfgs (F := F) 1).pre c (fun _ => fullShare) (adm (F := F) 1).1
        ∗ (dat1 (V2 m) c).owesAt () 0 ∗ iprop(∃ r, prngReg c r) ∗ Pipeline.unscopedRest (Ix := Unit) (Name := ℕ) (U := UR sig nD τ) (Lvl := ℕ) spec1 c (V2 m c)) := by
  rw [Pipeline.ownSems0_none]
  iintro ⟨⟨Hub, Hp, HO⟩, -, -⟩
  ihave H := (entry1 m c) $$ Hub
  icases H with ⟨Ha, Hrest⟩
  imodintro
  isplitl [Ha]; · iexact Ha
  isplitr; · unfold Pipeline.prefHeld; rw [show (Finset.univ : Finset (Fin 0)) = ∅ from rfl, BI.bigSep_empty]; iempintro
  isplitl [HO]
  · unfold Pipeline.Dat.owesAt Pipeline.owesWithin
    icases HO with ⟨%W, HO⟩; iexists W; isplitr; · ipureintro; exact fun _ _ => Or.inl trivial
    iexact HO
  isplitl [Hp]; · iexact Hp
  iexact Hrest

theorem r1_hexit (c : Dev nD) : iprop((dat1 (V2 m) c).arrays ((dat1 (V2 m) c).arrAt · cfg1.N) ∗ (dat1 (V2 m) c).owesAt () (Fin.last cfg1.N) ∗ iprop(∃ r, prngReg c r)
      ∗ Pipeline.unscopedRest (Ix := Unit) (Name := ℕ) (U := UR sig nD τ) (Lvl := ℕ) spec1 c (V2 m c))
    ⊢ |={Set.univ}=> iprop(StableHlo.held (c : Thread nD τ) (Pipeline.ucRefs τ sig) (W3 m c) ∗ R c) := by
  iintro ⟨Ha, HO, HY, Hrest⟩
  imodintro
  isplitl [Ha Hrest]
  · iapply (exit1 m c); isplitl [Ha]; · iexact Ha
    iexact Hrest
  isplitl [HY]; · iexact HY
  unfold Pipeline.Dat.owesAt Pipeline.owesWithin
  icases HO with ⟨%W, -, HO⟩; iexists W; iexact HO

theorem PhiA_of (c : Dev nD) : iprop(iprop(∃ r, prngReg c r) ∗ Pipeline.prefHeld (pcfgs (F := F) 1).pre c (fun _ => fullShare) (adm (F := F) 1).1 ∗ Pipeline.scopedRest (Ix := Unit) (Name := ℕ) (U := UR sig nD τ) (Lvl := ℕ) (Val := Elt F) spec1 c) ⊢ (Pipeline.ΦA spec1 c : sProp 𝕄) := by
  unfold Pipeline.ΦA
  iintro ⟨Hp, -, Hr⟩
  isplitl [Hr]; · iexact Hr
  iexact Hp

theorem r1_hin (O : Obl m) (c : Dev nD) : iprop(iprop(∃ r, prngReg c r) ∗ Pipeline.prefHeld (pcfgs (F := F) 1).pre c (fun _ => fullShare) (adm (F := F) 1).1 ∗ Pipeline.scopedRest (Ix := Unit) (Name := ℕ) (U := UR sig nD τ) (Lvl := ℕ) (Val := Elt F) spec1 c) ⊢ (dat1 (V2 m) c).Φ 0 :=
  (PhiA_of c).trans (O.hin1 c)

theorem PhiA_to (c : Dev nD) : (Pipeline.ΦA spec1 c : sProp 𝕄) ⊢ iprop(iprop(∃ r, prngReg c r) ∗ Pipeline.ownSems0 (fun k : PEmpty => k.elim) c ∗ Pipeline.scopedRest (Ix := Unit) (Name := ℕ) (U := UR sig nD τ) (Lvl := ℕ) (Val := Elt F) spec1 c) := by
  rw [Pipeline.ownSems0_none]
  unfold Pipeline.ΦA
  iintro ⟨Hr, Hp⟩
  isplitl [Hp]; · iexact Hp
  isplitr; · iempintro
  iexact Hr

theorem r1_hout (O : Obl m) (c : Dev nD) : (dat1 (V2 m) c).Φ (Fin.last cfg1.N) ⊢ iprop(iprop(∃ r, prngReg c r) ∗ Pipeline.ownSems0 (fun k : PEmpty => k.elim) c ∗ Pipeline.scopedRest (Ix := Unit) (Name := ℕ) (U := UR sig nD τ) (Lvl := ℕ) (Val := Elt F) spec1 c) :=
  (O.hout1 c).trans (PhiA_to c)

set_option backward.isDefEq.respectTransparency.types false in
/-- Launch 1 between the contents `W2` and `W3`: the arrays by `entry1` / `exit1`, the region invariant entered
    from and returned to the scoped buffers at some contents. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (O.hb1 c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := r1_hentry m c
  hin c := r1_hin m O c
  hout c := r1_hout m O c
  hexit c := r1_hexit m c

/-! ## The program as segments, and its launch -/

/-- The program's four segments: the reshapes before, the two launches, the reshape after. -/
abbrev segs : List (Pipeline.Seg (pcfgs (F := F)) adm (pdats m) () defs₀ 𝒱₀ L lv) :=
  [ .host (hseg hostOps0 hostOps0_sub hostOps0_fresh (W0 m)),
    .region (reg0 m O),
    .region (reg1 m O),
    .host (hseg hostOps2 hostOps2_sub hostOps2_fresh (W3 m)) ]

theorem main_run (O : Obl m) (c : Dev nD) : main (F := F) c = Pipeline.Seg.run (segs m O) := (main_chain c).trans (by chain_rfl)

/-- The last thread state without what is owed: every unscoped buffer at the last contents, the generator register. -/
abbrev Tₙ (c : Dev nD) : sProp 𝕄 := iprop(StableHlo.held (c : Thread nD τ) (Pipeline.ucRefs τ sig) (W4 m c) ∗ ∃ r, prngReg c r)

variable (ρ : Dev nD → PrngReg)

set_option backward.isDefEq.respectTransparency.types false in
/-- From any memory with zero counters every weakly fair execution of the program terminates, nothing faulting, and
    every unscoped buffer of every core ends at the contents `W4`: the launch memory carried through the reshapes and
    the two launches' write-backs. -/
theorem run_all (O : Obl m) : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m O)
    (fun c Q => by rw [main_run m O c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show iprop(StableHlo.held (c : Thread nD τ) (Pipeline.ucRefs τ sig) (StableHlo.after hostOps2 (W3 m c)) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

end Cert.Kernel.Hand

end
-- ==== Proof.K.R0.lean ====
/-
  Launch 0 (the two projections): the body obligation.

  At every grid point the body reads eight whole staging buffers: the x block and the y block ([1, 1024, 128]), the two
  weight matrices ([128, 128]) and the two bias rows ([1, 128]); it stores the projection of the x block by the first
  weight and bias over the whole xq buffer, and the projection of the y block by the second weight and bias over the
  whole yk buffer.  Before each store it loads the output buffer it is about to overwrite; the value loaded is not
  used, so the output buffers may hold anything when the body starts.

  Three facts make up the obligation.
  * Each input window's current staging buffer holds that window's block of its array at every point.  The x and y
    windows are fetched at every point.  The weight and bias windows have a constant block index: they are fetched at
    the first point only, and at a later point the block index has not moved and the body left the buffer as it found
    it, so the buffer still holds the block.
  * The body, run on whole staging memrefs whose inputs read `x0 … x5`, ends with the inputs unchanged and each output
    buffer at the single whole-buffer store of its projection: a one-piece list of writes whose rectangle is the whole
    shape covers the shape, so what is read back is the canonical contents of that list whatever was there before.
  * The region invariant and the core's debts are not touched by the body and pass through.
-/
import proofs.«140727_j37993280700496_1_alg».proof.Proof.K.Data

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- The TensorCore's buffer contents when the launch is entered.
variable (V : (c : Dev nD) → (b : Ref sig .tc) → Buf (Elt F) ((c : Thread nD τ).loc b))

/-! ## The proof data projected -/

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) :
    (dat0 V c).after 6 t = out0_6 (iblk0 V c 0 t) (iblk0 V c 2 t) (iblk0 V c 3 t) := by dsimp only [dat0]
theorem after0_7 (c : Dev nD) (t : Fin cfg0.N) :
    (dat0 V c).after 7 t = out0_7 (iblk0 V c 1 t) (iblk0 V c 4 t) (iblk0 V c 5 t) := by dsimp only [dat0]

/-! ## Every input window's current staging buffer holds its block

An input window's buffer holds the window's block of the array at every point, whether the block was fetched
there or not: where it was not fetched the block index has not moved since the previous point and the body
leaves the buffer as it found it. The two activation windows are fetched at every point; the weight and bias
windows only at the first. -/

theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

theorem before0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)

theorem before0_3 (c : Dev nD) (t : Fin cfg0.N) (d) : (dat0 V c).before 3 t d = iblk0 V c 3 t :=
  ((dat0 V c).before_in_eq_fetched 3 rfl (fun _ => rfl) (fun _ _ _ => rfl)
      (fun t => by rw [after0_3]; unfold Dat.blockOf iblk0; rw [A_eq0]; try rfl) t d).trans
    (by unfold Dat.fetched Dat.blockOf iblk0; rw [A_eq0]; try rfl)

theorem before0_4 (c : Dev nD) (t : Fin cfg0.N) (d) : (dat0 V c).before 4 t d = iblk0 V c 4 t :=
  ((dat0 V c).before_in_eq_fetched 4 rfl (fun _ => rfl) (fun _ _ _ => rfl)
      (fun t => by rw [after0_4]; unfold Dat.blockOf iblk0; rw [A_eq0]; try rfl) t d).trans
    (by unfold Dat.fetched Dat.blockOf iblk0; rw [A_eq0]; try rfl)

theorem before0_5 (c : Dev nD) (t : Fin cfg0.N) (d) : (dat0 V c).before 5 t d = iblk0 V c 5 t :=
  ((dat0 V c).before_in_eq_fetched 5 rfl (fun _ => rfl) (fun _ _ _ => rfl)
      (fun t => by rw [after0_5]; unfold Dat.blockOf iblk0; rw [A_eq0]; try rfl) t d).trans
    (by unfold Dat.fetched Dat.blockOf iblk0; rw [A_eq0]; try rfl)

/-! ## The body's triple -/

/-- One whole-buffer store covers the buffer. -/
theorem cover0 (p0 : Vec F S1x1024x128 .f32) (y : S1x1024x128.Idx) :
    ∃ pc ∈ ([⟨rB, p0⟩] : List (View.Piece (Elt F) S1x1024x128 .f32)), y ∈ pc.1.set :=
  View.cover_of_tiled [⟨rB, p0⟩] S1x1024x128.size (by rfl) y

set_option maxHeartbeats 1000000 in
/-- The projection body on whole staging memrefs: the six inputs' at read contents `x0 … x5`, the two outputs' at
    anything. It runs to the continuation holding the inputs' as they were and the outputs' at the two
    projections `x0·x2 + x3` and `x1·x4 + x5` (as `out0_6`, `out0_7` name them). -/
theorem sound_kernel0 (c : Dev nD) (E : Set ℕ) (i : grid0.Coords)
    (arg2 : Memref sig .tc .vmem S1x1024x128 .f32) (harg2 : arg2.IsWhole) (arg3 : Memref sig .tc .vmem S1x1024x128 .f32) (harg3 : arg3.IsWhole)
    (arg4 : Memref sig .tc .vmem S128x128 .f32) (harg4 : arg4.IsWhole) (arg5 : Memref sig .tc .vmem S1x128 .f32) (harg5 : arg5.IsWhole)
    (arg6 : Memref sig .tc .vmem S128x128 .f32) (harg6 : arg6.IsWhole) (arg7 : Memref sig .tc .vmem S1x128 .f32) (harg7 : arg7.IsWhole)
    (arg8 : Memref sig .tc .vmem S1x1024x128 .f32) (harg8 : arg8.IsWhole) (arg9 : Memref sig .tc .vmem S1x1024x128 .f32) (harg9 : arg9.IsWhole)
    (x0 x1 : Vec F S1x1024x128 .f32) (x2 : Vec F S128x128 .f32) (x3 : Vec F S1x128 .f32) (x4 : Vec F S128x128 .f32) (x5 : Vec F S1x128 .f32)
    (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare x4 ∗ owns (c : Thread nD τ) arg7 fullShare x5
        ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare x4 ∗ owns (c : Thread nD τ) arg7 fullShare x5
            ∗ owns (c : Thread nD τ) arg8 fullShare (out0_6 x0 x2 x3)
            ∗ owns (c : Thread nD τ) arg9 fullShare (out0_7 x1 x4 x5)) -∗ K ⟨⟩))
      ⊢ wp frame (wpE (defs₀ (F := F)) Variants.none c none) E
          (cc0__proj_kernel i arg2 harg2 arg3 harg3 arg4 harg4 arg5 harg5 arg6 harg6 arg7 harg7 arg8 harg8 arg9 harg9) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover0 _)
  iexists _; isplitr
  swap; · iexact H7
  ipureintro
  exact View.read_writes_eq_canon _ _ _ (cover0 _)

/-! ## The body obligation, at a generic point -/

/-- What the body is called with at point `t`: the region's invariant, the core's debts, and each window's current
    staging buffer at what it then holds. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- What it returns: the same at the next point, each buffer at what the body leaves in it. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 1000000 in
/-- The body at any point: every input's buffer holds its block, so the body's triple applies; the invariant and the
    core's debts pass through unread, and the outputs' buffers are handed over at whatever they held. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _
    (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation for the projection call, at every point. -/
theorem body_obligation0 (c : Dev nD) :
    BodyObligation (dat0 (F := F) V c) (defs₀ (F := F)) Variants.none () Set.univ := fun t => by
  rw [bigSep_W0, bigSep_W0]
  exact sound_body0 V c t

end Cert.Kernel.Hand

end
-- ==== Proof.K.R1.lean ====
/-
  The body of the attention launch, at every grid position.

  At position t = (n, i, j) of the 4 × 4 × 4 grid (j = t mod 4 the innermost coordinate) the body
    * clears the accumulator when j = 0,
    * adds to it logistic(q · kᵀ) · v for the query rows i, key rows j and value rows j it was handed,
    * and, when j = 3, stores accumulator + residual rows i into the output block.
  Every store is through the rectangle of the whole buffer, so what a buffer holds after a store is the stored
  value, whatever it held before.  Three cases follow (j = 0; j = 1, 2; j = 3); in each the accumulator ends at
  `acc1` of the position, the four input buffers are unchanged, and the output buffer is either untouched or holds
  `out1_4` of the accumulator and the residual block.  The region invariant carries the accumulator from one
  position to the next; before the first position, and after the last, it is the plain "every scoped buffer at some
  contents".
-/
import proofs.«140727_j37993280700496_1_alg».proof.Proof.K.Data

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The two conditions of the body, over the grid -/

/-- "The key-block coordinate is zero", as the body computes it. -/
abbrev cond1_0 (i : grid1.Coords) : Prop := (Scalar.cmpi .ne (Scalar.extui (Scalar.cmpi .eq (BitVec.ofNat 32 (i 2).val) 0#32)) 0#32) = 1#1
/-- It holds exactly at the positions ≡ 0 (mod 4): checked at each of the 64 positions. -/
theorem hcond1_0 : ∀ t : Fin cfg1.N, cond1_0 (grid1.coords t) ↔ t.val % 4 = 0 :=
  (by decide +kernel : ∀ t : Fin grid1.N, cond1_0 (grid1.coords t) ↔ t.val % 4 = 0)

/-- "The key-block coordinate is the last one", as the body computes it. -/
abbrev cond1_1 (i : grid1.Coords) : Prop := k1_cond2 i = 1#1
/-- It holds exactly at the positions ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the output window is idle -/

/-- The output window is idle exactly where the second condition fails. -/
theorem idle1_4_eq (i : grid1.Coords) : cfg1.idle 4 i = !(k1_cond2 i == 1#1) := rfl
theorem liveAt1_4 (i : grid1.Coords) (h : cond1_1 i) : cfg1.idle 4 i = false := by
  rw [idle1_4_eq, show k1_cond2 i = 1#1 from h]; rfl
theorem idleAt1_4 (i : grid1.Coords) (h : ¬cond1_1 i) : cfg1.idle 4 i = true := by
  rw [idle1_4_eq, beq_eq_false_iff_ne.mpr h]; rfl
/-- Where the position is not ≡ 3 (mod 4) the output block is not written back. -/
theorem noFlush1_4 (t : Fin cfg1.N) (h : ¬t.val % 4 = 3) : (cfg1.win 4).flush t = false :=
  Bool.eq_false_iff.mpr fun hf => h ((flush1_4 t).mp hf)
/-- The four input windows are never idle. -/
theorem liveAt1_0 (i : grid1.Coords) : cfg1.idle 0 i = false := rfl
theorem liveAt1_1 (i : grid1.Coords) : cfg1.idle 1 i = false := rfl
theorem liveAt1_2 (i : grid1.Coords) : cfg1.idle 2 i = false := rfl
theorem liveAt1_3 (i : grid1.Coords) : cfg1.idle 3 i = false := rfl

/-! ## Whole-buffer stores -/

/-- The accumulator's rectangle is the whole accumulator: one store through it covers every index. -/
theorem cover1_acc (p0 : Vec F S1024x128 .f32) (y : S1024x128.Idx) :
    ∃ pc ∈ ([⟨rA, p0⟩] : List (View.Piece (Elt F) S1024x128 .f32)), y ∈ pc.1.set :=
  View.cover_of_tiled [⟨rA, p0⟩] S1024x128.size (by rfl) y
/-- Likewise for a [1, 1024, 128] staging buffer. -/
theorem cover1_blk (p0 : Vec F S1x1024x128 .f32) (y : S1x1024x128.Idx) :
    ∃ pc ∈ ([⟨rB, p0⟩] : List (View.Piece (Elt F) S1x1024x128 .f32)), y ∈ pc.1.set :=
  View.cover_of_tiled [⟨rB, p0⟩] S1x1024x128.size (by rfl) y

theorem mem1_rA (p0 : Vec F S1024x128 .f32) (y : S1024x128.Idx) : y ∈ (rA).set := by
  obtain ⟨pc, hm, hy⟩ := cover1_acc p0 y
  rw [List.mem_singleton] at hm; subst hm; exact hy

/-- A store through the whole accumulator hides every earlier store. -/
theorem canon1_rA_cons (w : Vec F S1024x128 .f32) (L : List (View.Piece (Elt F) S1024x128 .f32)) :
    View.canon (⟨rA, w⟩ :: L) = View.canon [⟨rA, w⟩] := by
  funext y
  obtain ⟨x, rfl⟩ := (rA).exists_idx_of_mem (mem1_rA w y)
  exact (View.canon_cons_emb rA w L x).trans (View.canon_cons_emb rA w [] x).symm

/-! ## What the stores leave, in closed form

The runs below leave each buffer as "the stores written over what it held".  Since every store is through the whole
buffer's rectangle, reading that back gives the last stored value; these lemmas say so in the vocabulary of the proof
data (`accStep`, `out1_4`), for any views of the buffers. -/

section Closers
variable (v3 v4 v5 v6 v7 : View sig .tc .vmem S1x1024x128 .f32) (v8 : View sig .tc .vmem S1024x128 .f32)
variable (f0 : v3.ty.Contents (Elt F)) (f1 : v4.ty.Contents (Elt F)) (f2 : v5.ty.Contents (Elt F))
  (f3 : v6.ty.Contents (Elt F)) (f4 : v7.ty.Contents (Elt F)) (fs : v8.ty.Contents (Elt F))

/-- The stored value when the accumulator is carried: `accStep` over what it held. -/
theorem accStep_some_eq :
    View.canon [⟨(Rect.unit (s := S1024x128) ![0, 0] S1024x128.size inb_S1024x128_S1024x128_0_0),
        k1_pay2 (View.readAt (Elt F) v3 (Rect.unit (s := S1x1024x128) ![0, 0, 0] S1x1024x128.size inb_S1x1024x128_S1x1024x128_0_0_0).toLoadRect f0) (View.readAt (Elt F) v4 (Rect.unit (s := S1x1024x128) ![0, 0, 0] S1x1024x128.size inb_S1x1024x128_S1x1024x128_0_0_0).toLoadRect f1)
          (View.readAt (Elt F) v5 (Rect.unit (s := S1x1024x128) ![0, 0, 0] S1x1024x128.size inb_S1x1024x128_S1x1024x128_0_0_0).toLoadRect f2) (View.readAt (Elt F) v8 (Rect.unit (s := S1024x128) ![0, 0] S1024x128.size inb_S1024x128_S1024x128_0_0).toLoadRect fs)⟩]
      = accStep (View.read (Elt F) v3 f0) (View.read (Elt F) v4 f1) (View.read (Elt F) v5 f2) (some (View.read (Elt F) v8 fs)) := by
  unfold accStep
  simp only [View.readAt_eq_ld]

/-- The stored value when the accumulator has just been cleared: `accStep` over nothing. -/
theorem accStep_none_eq :
    View.canon [⟨(Rect.unit (s := S1024x128) ![0, 0] S1024x128.size inb_S1024x128_S1024x128_0_0),
        k1_pay2 (View.readAt (Elt F) v3 (Rect.unit (s := S1x1024x128) ![0, 0, 0] S1x1024x128.size inb_S1x1024x128_S1x1024x128_0_0_0).toLoadRect f0) (View.readAt (Elt F) v4 (Rect.unit (s := S1x1024x128) ![0, 0, 0] S1x1024x128.size inb_S1x1024x128_S1x1024x128_0_0_0).toLoadRect f1)
          (View.readAt (Elt F) v5 (Rect.unit (s := S1x1024x128) ![0, 0, 0] S1x1024x128.size inb_S1x1024x128_S1x1024x128_0_0_0).toLoadRect f2)
          (v8.readCov [⟨(Rect.unit (s := S1024x128) ![0, 0] S1024x128.size inb_S1024x128_S1024x128_0_0), k1_pay1 (F := F)⟩] (Rect.unit (s := S1024x128) ![0, 0] S1024x128.size inb_S1024x128_S1024x128_0_0).toLoadRect)⟩]
      = accStep (View.read (Elt F) v3 f0) (View.read (Elt F) v4 f1) (View.read (Elt F) v5 f2) none := by
  rw [View.readCov_eq_canon_ld _ _ rA (cover1_acc _)]
  unfold accStep
  simp only [View.readAt_eq_ld]

/-- One store into the accumulator: it holds the stored value. -/
theorem close1_acc (P : Vec F S1024x128 .f32) (acc : Vec F S1024x128 .f32) (hacc : View.canon [⟨(Rect.unit (s := S1024x128) ![0, 0] S1024x128.size inb_S1024x128_S1024x128_0_0), P⟩] = acc) :
    View.read (Elt F) v8 (v8.writes (Elt F) fs [⟨(Rect.unit (s := S1024x128) ![0, 0] S1024x128.size inb_S1024x128_S1024x128_0_0), P⟩]) = acc :=
  (View.read_writes_eq_canon _ _ _ (cover1_acc _)).trans hacc

omit v3 v4 v5 v6 v7 v8 f0 f1 f2 f3 f4 fs in
/-- Two stores through the whole accumulator cover it, as the later one alone does. -/
theorem cover1_acc2 (P Z : Vec F S1024x128 .f32) (y : S1024x128.Idx) :
    ∃ pc ∈ ([⟨rA, P⟩, ⟨rA, Z⟩] : List (View.Piece (Elt F) S1024x128 .f32)), y ∈ pc.1.set := by
  obtain ⟨pc, hm, hy⟩ := cover1_acc P y
  exact ⟨pc, List.mem_cons.mpr (Or.inl (List.mem_singleton.mp hm)), hy⟩

/-- Two stores into the accumulator, the clearing one first: it holds the second stored value. -/
theorem close1_acc2 (P Z : Vec F S1024x128 .f32) (acc : Vec F S1024x128 .f32) (hacc : View.canon [⟨(Rect.unit (s := S1024x128) ![0, 0] S1024x128.size inb_S1024x128_S1024x128_0_0), P⟩] = acc) :
    View.read (Elt F) v8 (v8.writes (Elt F) fs [⟨(Rect.unit (s := S1024x128) ![0, 0] S1024x128.size inb_S1024x128_S1024x128_0_0), P⟩, ⟨(Rect.unit (s := S1024x128) ![0, 0] S1024x128.size inb_S1024x128_S1024x128_0_0), Z⟩]) = acc :=
  (View.read_writes_eq_canon _ _ _ (cover1_acc2 P Z)).trans ((canon1_rA_cons P _).trans hacc)

/-- The store into the output buffer, of the accumulator read back after its store and the residual block. -/
theorem close1_out (P : Vec F S1024x128 .f32) (acc : Vec F S1024x128 .f32) (hacc : View.canon [⟨(Rect.unit (s := S1024x128) ![0, 0] S1024x128.size inb_S1024x128_S1024x128_0_0), P⟩] = acc) :
    View.read (Elt F) v7 (v7.writes (Elt F) f4
        [⟨(Rect.unit (s := S1x1024x128) ![0, 0, 0] S1x1024x128.size inb_S1x1024x128_S1x1024x128_0_0_0), k1_pay3 (v8.readCov [⟨(Rect.unit (s := S1024x128) ![0, 0] S1024x128.size inb_S1024x128_S1024x128_0_0), P⟩] (Rect.unit (s := S1024x128) ![0, 0] S1024x128.size inb_S1024x128_S1024x128_0_0).toLoadRect) (View.readAt (Elt F) v6 (Rect.unit (s := S1x1024x128) ![0, 0, 0] S1x1024x128.size inb_S1x1024x128_S1x1024x128_0_0_0).toLoadRect f3)⟩])
      = out1_4 acc (View.read (Elt F) v6 f3) := by
  subst hacc
  refine (View.read_writes_eq_canon _ _ _ (cover1_blk _)).trans ?_
  rw [View.readCov_eq_canon_ld _ _ rA (cover1_acc _)]
  unfold out1_4
  simp only [View.readAt_eq_ld]

end Closers

/-! ## The body's three runs -/

set_option maxHeartbeats 4000000 in
/-- Key-block coordinate 0: the accumulator, whatever it held, is cleared and then receives the blocks'
    contribution; the output buffer is untouched. -/
theorem run1_first (c : Dev nD) (E : Set ℕ) (i : grid1.Coords) (arg3 : Memref sig .tc .vmem S1x1024x128 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x1024x128 .f32) (harg6 : arg6.IsWhole) (arg7 : Memref sig .tc .vmem S1x1024x128 .f32) (harg7 : arg7.IsWhole) (arg8 : Memref sig .tc .vmem S1024x128 .f32) (harg8 : arg8.IsWhole)
    (hc0 : cond1_0 i) (hc1 : ¬cond1_1 i)
    (x0 x1 x2 x3 xi4 : Vec F S1x1024x128 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare xi4 ∗ (∃ d, owns (c : Thread nD τ) arg8 fullShare d)
        ∗ (iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare xi4
            ∗ owns (c : Thread nD τ) arg8 fullShare (accStep x0 x1 x2 none)) -∗ K ⟨⟩))
      ⊢ wp frame (wpE (defs₀ (F := F)) Variants.none c none) E (cc1__attn_kernel i arg3 harg3 arg4 harg4 arg5 harg5 arg6 harg6 arg7 harg7 arg8 harg8) K := by
  simp only [cc1__attn_kernel_eq_skeleton]; unfold cc1__attn_kernel_skel
  unfold owns
  iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
  subst hf0; subst hf1; subst hf2; subst hf3; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact HS
  ipureintro
  sl_unfold_run_names
  exact close1_acc2 _ _ _ _ _ (accStep_none_eq _ _ _ _ _ _ _)

set_option maxHeartbeats 4000000 in
/-- Key-block coordinates 1 and 2: the accumulator receives the blocks' contribution on top of what the position
    before left; the output buffer is untouched. -/
theorem run1_mid (c : Dev nD) (E : Set ℕ) (i : grid1.Coords) (arg3 : Memref sig .tc .vmem S1x1024x128 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x1024x128 .f32) (harg6 : arg6.IsWhole) (arg7 : Memref sig .tc .vmem S1x1024x128 .f32) (harg7 : arg7.IsWhole) (arg8 : Memref sig .tc .vmem S1024x128 .f32) (harg8 : arg8.IsWhole)
    (hc0 : ¬cond1_0 i) (hc1 : ¬cond1_1 i)
    (x0 x1 x2 x3 xi4 : Vec F S1x1024x128 .f32) (s : Vec F S1024x128 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare xi4 ∗ owns (c : Thread nD τ) arg8 fullShare s
        ∗ (iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare xi4
            ∗ owns (c : Thread nD τ) arg8 fullShare (accStep x0 x1 x2 (some s))) -∗ K ⟨⟩))
      ⊢ wp frame (wpE (defs₀ (F := F)) Variants.none c none) E (cc1__attn_kernel i arg3 harg3 arg4 harg4 arg5 harg5 arg6 harg6 arg7 harg7 arg8 harg8) K := by
  simp only [cc1__attn_kernel_eq_skeleton]; unfold cc1__attn_kernel_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  subst hf0; subst hf1; subst hf2; subst hf3; subst hf4; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact HS
  ipureintro
  sl_unfold_run_names
  exact close1_acc _ _ _ _ (accStep_some_eq _ _ _ _ _ _ _ _)

set_option maxHeartbeats 4000000 in
/-- Key-block coordinate 3: the accumulator receives the last contribution, and the output buffer, whatever it
    held, is stored the accumulator plus the residual block. -/
theorem run1_last (c : Dev nD) (E : Set ℕ) (i : grid1.Coords) (arg3 : Memref sig .tc .vmem S1x1024x128 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x1024x128 .f32) (harg6 : arg6.IsWhole) (arg7 : Memref sig .tc .vmem S1x1024x128 .f32) (harg7 : arg7.IsWhole) (arg8 : Memref sig .tc .vmem S1024x128 .f32) (harg8 : arg8.IsWhole)
    (hc0 : ¬cond1_0 i) (hc1 : cond1_1 i)
    (x0 x1 x2 x3 : Vec F S1x1024x128 .f32) (s : Vec F S1024x128 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ (∃ d, owns (c : Thread nD τ) arg7 fullShare d) ∗ owns (c : Thread nD τ) arg8 fullShare s
        ∗ (iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare (out1_4 (accStep x0 x1 x2 (some s)) x3)
            ∗ owns (c : Thread nD τ) arg8 fullShare (accStep x0 x1 x2 (some s))) -∗ K ⟨⟩))
      ⊢ wp frame (wpE (defs₀ (F := F)) Variants.none c none) E (cc1__attn_kernel i arg3 harg3 arg4 harg4 arg5 harg5 arg6 harg6 arg7 harg7 arg8 harg8) K := by
  simp only [cc1__attn_kernel_eq_skeleton]; unfold cc1__attn_kernel_skel
  unfold owns
  iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
  subst hf0; subst hf1; subst hf2; subst hf3; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_run_names
    exact close1_out _ _ _ _ _ _ _ (accStep_some_eq _ _ _ _ _ _ _ _)
  iexists _; isplitr
  swap; · iexact HS
  ipureintro
  sl_unfold_run_names
  exact close1_acc _ _ _ _ (accStep_some_eq _ _ _ _ _ _ _ _)

/-! ## The proof data, projected -/

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (acc1 V c t.val t.isLt) (iblk1 V c 3 t) := by dsimp only [dat1]

/-- The invariant before a position (the proof data at `t.castSucc`) and after it (`t.succ`), by the position's number. -/
theorem Phi1_eq (c : Dev nD) (x : Fin (cfg1.N + 1)) :
    (dat1 V c).Φ x = PhiS V c x.val (Nat.le_of_lt_succ x.isLt) := by dsimp only [dat1]
theorem Phi1_castSucc (c : Dev nD) (t : Fin cfg1.N) :
    (dat1 V c).Φ t.castSucc = PhiS V c t.val (Nat.le_of_lt t.isLt) := by
  dsimp only [dat1]; simp only [Fin.coe_castSucc]
theorem Phi1_succ (c : Dev nD) (t : Fin cfg1.N) :
    (dat1 V c).Φ t.succ = PhiS V c (t.val + 1) t.isLt := by
  dsimp only [dat1]; simp only [Fin.val_succ]

/-! ## What the body finds in the input windows' buffers -/

/-- Each input window's current buffer holds the window's block at every position, fetched there or not: where it
    is not fetched the block index has not moved since the position before. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

/-- An input window's buffer is left at its block. -/
theorem leaves1_0 (c : Dev nD) (t : Fin cfg1.N) :
    (dat1 V c).leavesExact 0 t = owns (c : Thread nD τ) (st1_0 t) fullShare (iblk1 V c 0 t) := by
  unfold Dat.leavesExact; rw [liveAt1_0 (grid1.coords t), after1_0]
theorem leaves1_1 (c : Dev nD) (t : Fin cfg1.N) :
    (dat1 V c).leavesExact 1 t = owns (c : Thread nD τ) (st1_1 t) fullShare (iblk1 V c 1 t) := by
  unfold Dat.leavesExact; rw [liveAt1_1 (grid1.coords t), after1_1]
theorem leaves1_2 (c : Dev nD) (t : Fin cfg1.N) :
    (dat1 V c).leavesExact 2 t = owns (c : Thread nD τ) (st1_2 t) fullShare (iblk1 V c 2 t) := by
  unfold Dat.leavesExact; rw [liveAt1_2 (grid1.coords t), after1_2]
theorem leaves1_3 (c : Dev nD) (t : Fin cfg1.N) :
    (dat1 V c).leavesExact 3 t = owns (c : Thread nD τ) (st1_3 t) fullShare (iblk1 V c 3 t) := by
  unfold Dat.leavesExact; rw [liveAt1_3 (grid1.coords t), after1_3]
/-- At a position ≡ 3 (mod 4) the output buffer is left at the accumulator plus the residual block. -/
theorem leaves1_4_last (c : Dev nD) (t : Fin cfg1.N) (h : cond1_1 (grid1.coords t)) :
    (dat1 V c).leavesExact 4 t
      = owns (c : Thread nD τ) (st1_4 t) fullShare (out1_4 (acc1 V c t.val t.isLt) (iblk1 V c 3 t)) := by
  unfold Dat.leavesExact; rw [liveAt1_4 (grid1.coords t) h, after1_4]

/-! ## The accumulator, position by position -/

/-- At a position ≡ 0 (mod 4) the accumulator starts afresh. -/
theorem acc1_first (c : Dev nD) (t : Fin cfg1.N) (h0 : t.val % 4 = 0) :
    acc1 V c t.val t.isLt = accStep (iblk1 V c 0 t) (iblk1 V c 1 t) (iblk1 V c 2 t) none := by
  obtain ⟨n, hn⟩ := t
  cases n with
  | zero => rfl
  | succ n =>
    show acc1 V c (n + 1) hn = _
    rw [acc1, if_pos h0]

/-- Elsewhere it continues from the position before. -/
theorem acc1_next (c : Dev nD) (t : Fin cfg1.N) (h0 : ¬t.val % 4 = 0) :
    acc1 V c t.val t.isLt = accStep (iblk1 V c 0 t) (iblk1 V c 1 t) (iblk1 V c 2 t)
      (some (acc1 V c (t.val - 1) (Nat.lt_of_le_of_lt (Nat.sub_le _ _) t.isLt))) := by
  obtain ⟨n, hn⟩ := t
  cases n with
  | zero => exact absurd (Nat.zero_mod _) h0
  | succ n =>
    show acc1 V c (n + 1) hn = _
    rw [acc1, if_neg h0]; rfl

/-! ## The region invariant, opened and closed -/

/-- What the invariant holds besides the accumulator: launch 0's staging buffers, each at some contents, and the
    generator register at some state. -/
def Rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ r, prngReg c r))

/-- The scoped buffers with the accumulator last at `P`, and the register: the accumulator taken out. -/
theorem chain1_open (c : Dev nD) (P : sProp 𝕄) :
    iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ P) ∗ (∃ r, prngReg c r)) ⊢ iprop(Rest1 (F := F) c ∗ P) := by
  unfold Rest1
  iintro ⟨⟨R0, R1, R2, R3, R4, R5, R6, R7, R8, R9, R10, R11, HP⟩, Hg⟩
  isplitr [HP]
  swap; · iexact HP
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  iexact Hg

/-- and put back. -/
theorem chain1_close (c : Dev nD) (P : sProp 𝕄) :
    iprop(Rest1 (F := F) c ∗ P) ⊢ iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ P) ∗ (∃ r, prngReg c r)) := by
  unfold Rest1
  iintro ⟨⟨R0, R1, R2, R3, R4, R5, R6, R7, R8, R9, R10, R11, Hg⟩, HP⟩
  isplitr [Hg]
  swap; · iexact Hg
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  iexact HP

/-- The launch's own invariant, with the accumulator as a memref owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ d, owns (c : Thread nD τ) scM fullShare d)) ∗ (∃ r, prngReg c r)) := by
  unfold Pipeline.ΦA; rw [scopedRest1_eq]; simp only [scM, owns_whole]; try rfl

/-- Before any position the accumulator is there, at some contents. -/
theorem PhiS_open_any (c : Dev nD) : (n : ℕ) → (h : n ≤ cfg1.N) →
    PhiS V c n h ⊢ iprop(Rest1 (F := F) c ∗ ∃ d, owns (c : Thread nD τ) scM fullShare d)
  | 0, _ => by
    show (Pipeline.ΦA spec1 c : sProp 𝕄) ⊢ _
    rw [PhiA1_eq]; exact chain1_open c _
  | n + 1, h => by
    refine (chain1_open c _).trans (sep_mono .rfl ?_)
    iintro H; iexists _; iexact H

/-- Before a position that is not the first it holds what the position before left. -/
theorem PhiS_open_pos (c : Dev nD) (n : ℕ) (h : n ≤ cfg1.N) (hz : n ≠ 0) :
    PhiS V c n h ⊢ iprop(Rest1 (F := F) c ∗ owns (c : Thread nD τ) scM fullShare (acc1 V c (n - 1) (by omega))) := by
  cases n with
  | zero => exact absurd rfl hz
  | succ n => exact chain1_open c _

/-- After position `n` the invariant takes the accumulator back at that position's contents. -/
theorem PhiS_close (c : Dev nD) (n : ℕ) (hn : n < cfg1.N) :
    iprop(Rest1 (F := F) c ∗ owns (c : Thread nD τ) scM fullShare (acc1 V c n hn)) ⊢ PhiS V c (n + 1) hn :=
  chain1_close c _

/-- At any position the invariant gives the launch's own back: the accumulator's contents are forgotten. -/
theorem PhiS_out (c : Dev nD) (n : ℕ) (h : n ≤ cfg1.N) : PhiS V c n h ⊢ (Pipeline.ΦA spec1 c : sProp 𝕄) := by
  rw [PhiA1_eq]; exact (PhiS_open_any V c n h).trans (chain1_close c _)

theorem hin1 (c : Dev nD) : (Pipeline.ΦA spec1 c : sProp 𝕄) ⊢ (dat1 V c).Φ 0 := by
  rw [Phi1_eq]; exact Entails.of_eq rfl

theorem hout1 (c : Dev nD) : (dat1 V c).Φ (Fin.last cfg1.N) ⊢ (Pipeline.ΦA spec1 c : sProp 𝕄) := by
  rw [Phi1_eq]; exact PhiS_out V c _ _

/-! ## The body obligation, at a generic position -/

/-- What the body is handed at position `t`: the invariant, the core's debts (none) and the five windows' current buffers, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it hands back. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4000000 in
/-- The body at any position.  The input buffers hold their blocks; the position's residue mod 4 says which of the
    three runs applies; the invariant lends the accumulator (at anything when it is about to be cleared, at what the
    position before left otherwise) and takes it back at this position's `acc1`; the output buffer comes back as it
    was, or, at residue 3, holding the accumulator plus the residual block. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [leaves1_0, leaves1_1, leaves1_2, leaves1_3, Phi1_succ, Phi1_castSucc]
  have hN : t.val < 64 := lt_of_lt_of_eq t.isLt (show cfg1.N = 64 from N_1)
  by_cases h0 : t.val % 4 = 0
  · have hc0 : cond1_0 (grid1.coords t) := (hcond1_0 t).mpr h0
    have h1 : ¬t.val % 4 = 3 := by omega
    have hc1 : ¬cond1_1 (grid1.coords t) := fun h => h1 ((hcond1_1 t).mp h)
    rw [Dat.leavesExact_idle (dat1 V c) 4 t (idleAt1_4 _ hc1) (noFlush1_4 t h1)]
    iintro ⟨HΦ, Ho, ⟨%d0, H0⟩, ⟨%d1, H1⟩, ⟨%d2, H2⟩, ⟨%d3, H3⟩, ⟨%d4, H4⟩⟩
    ihave ⟨HR, HS⟩ := (PhiS_open_any V c t.val (Nat.le_of_lt t.isLt)) $$ HΦ
    iapply (run1_first c Set.univ (grid1.coords t) _ _ _ _ _ _ _ _ _ _ _ _ hc0 hc1
      (iblk1 V c 0 t) (iblk1 V c 1 t) (iblk1 V c 2 t) (iblk1 V c 3 t) ((dat1 V c).before 4 t d4) _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [HR HS]
    · iapply (PhiS_close V c t.val t.isLt)
      rw [acc1_first V c t h0]
      isplitl [HR]; · iexact HR
      iexact HS
    isplitl [Ho]; · iexact Ho
    isplitl [H0]; · iexact H0
    isplitl [H1]; · iexact H1
    isplitl [H2]; · iexact H2
    isplitl [H3]; · iexact H3
    iexists d4; iexact H4
  · have hc0 : ¬cond1_0 (grid1.coords t) := fun h => h0 ((hcond1_0 t).mp h)
    have hz : t.val ≠ 0 := fun h => h0 (by rw [h])
    by_cases h1 : t.val % 4 = 3
    · have hc1 : cond1_1 (grid1.coords t) := (hcond1_1 t).mpr h1
      rw [leaves1_4_last V c t hc1]
      iintro ⟨HΦ, Ho, ⟨%d0, H0⟩, ⟨%d1, H1⟩, ⟨%d2, H2⟩, ⟨%d3, H3⟩, ⟨%d4, H4⟩⟩
      ihave ⟨HR, HS⟩ := (PhiS_open_pos V c t.val (Nat.le_of_lt t.isLt) hz) $$ HΦ
      iapply (run1_last c Set.univ (grid1.coords t) _ _ _ _ _ _ _ _ _ _ _ _ hc0 hc1
        (iblk1 V c 0 t) (iblk1 V c 1 t) (iblk1 V c 2 t) (iblk1 V c 3 t) (acc1 V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexists _; iexact H4
      isplitl [HS]; · iexact HS
      rw [← acc1_next V c t h0]
      iintro ⟨H0, H1, H2, H3, H4, HS⟩
      isplitl [HR HS]
      · iapply (PhiS_close V c t.val t.isLt)
        isplitl [HR]; · iexact HR
        iexact HS
      isplitl [Ho]; · iexact Ho
      isplitl [H0]; · iexact H0
      isplitl [H1]; · iexact H1
      isplitl [H2]; · iexact H2
      isplitl [H3]; · iexact H3
      iexact H4
    · have hc1 : ¬cond1_1 (grid1.coords t) := fun h => h1 ((hcond1_1 t).mp h)
      rw [Dat.leavesExact_idle (dat1 V c) 4 t (idleAt1_4 _ hc1) (noFlush1_4 t h1)]
      iintro ⟨HΦ, Ho, ⟨%d0, H0⟩, ⟨%d1, H1⟩, ⟨%d2, H2⟩, ⟨%d3, H3⟩, ⟨%d4, H4⟩⟩
      ihave ⟨HR, HS⟩ := (PhiS_open_pos V c t.val (Nat.le_of_lt t.isLt) hz) $$ HΦ
      iapply (run1_mid c Set.univ (grid1.coords t) _ _ _ _ _ _ _ _ _ _ _ _ hc0 hc1
        (iblk1 V c 0 t) (iblk1 V c 1 t) (iblk1 V c 2 t) (iblk1 V c 3 t) ((dat1 V c).before 4 t d4) (acc1 V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [HS]; · iexact HS
      rw [← acc1_next V c t h0]
      iintro ⟨H0, H1, H2, H3, H4, HS⟩
      isplitl [HR HS]
      · iapply (PhiS_close V c t.val t.isLt)
        isplitl [HR]; · iexact HR
        iexact HS
      isplitl [Ho]; · iexact Ho
      isplitl [H0]; · iexact H0
      isplitl [H1]; · iexact H1
      isplitl [H2]; · iexact H2
      isplitl [H3]; · iexact H3
      iexists d4; iexact H4

/-- The library's body obligation for launch 1, at every position. -/
theorem body_obligation1 (c : Dev nD) :
    BodyObligation (dat1 (F := F) V c) (defs₀ (F := F)) Variants.none () Set.univ := fun t => by
  rw [bigSep_W1, bigSep_W1]
  exact sound_body1 V c t

end Cert.Kernel.Hand

end
-- ==== Proof.K.Args.lean ====
/-
  The six argument arrays end as launched.

  No host reshape writes an argument (each writes a fresh buffer), and no launch's output array is an argument: launch 0
  reads the two weight matrices through input windows, which are never written back, and does not touch the other four
  arguments; launch 1 writes one buffer, which is no argument.  So the contents after the whole program, read at an
  argument's buffer, walk back through the four boundaries to the launch memory.
-/
import proofs.«140727_j37993280700496_1_alg».proof.Proof.K.Run

set_option maxRecDepth 16384

noncomputable section

namespace Cert.Kernel.Hand

open Cert.Kernel Cert.Kernel.Gen
open Idealize.ShloMosaic Idealize.ShloMosaic.TcCoe Idealize.SL.Sem
open Idealize.ShloMosaic.Pipeline (Dat)

variable {F : FTy → Type} [FloatOps F]

-- The launch memory.
variable (m : (ℓ : Loc nD τ sig) → Buf (Elt F) ℓ)

theorem W4_main_arg0 (c : Dev nD) : W4 m c (Proc.devRef .tc main_arg0) = m ((c : Thread nD τ).loc main_arg0) :=
  calc W4 m c (Proc.devRef .tc main_arg0)
    _ = W3 m c (Proc.devRef .tc main_arg0) := StableHlo.after_of_forall_not_mem (b := Proc.devRef .tc main_arg0) _ _ (List.forall_iff_forall_mem.mp (by
          simp only [hostOps2, List.Forall, StableHlo.reshape_writes, Finset.mem_singleton]
          repeat' apply And.intro
          all_goals exact StableHlo.devRef_ne_of_ne (by decide)))
    _ = W2 m c (Proc.devRef .tc main_arg0) := Function.update_of_ne (StableHlo.devRef_ne_of_ne (by decide)) _ _
    _ = W1 m c (Proc.devRef .tc main_arg0) := W2_of_ne m c main_arg0 (by decide)
    _ = W0 m c (Proc.devRef .tc main_arg0) := StableHlo.after_of_forall_not_mem (b := Proc.devRef .tc main_arg0) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg0) := rfl

theorem W4_main_arg1 (c : Dev nD) : W4 m c (Proc.devRef .tc main_arg1) = m ((c : Thread nD τ).loc main_arg1) :=
  calc W4 m c (Proc.devRef .tc main_arg1)
    _ = W3 m c (Proc.devRef .tc main_arg1) := StableHlo.after_of_forall_not_mem (b := Proc.devRef .tc main_arg1) _ _ (List.forall_iff_forall_mem.mp (by
          simp only [hostOps2, List.Forall, StableHlo.reshape_writes, Finset.mem_singleton]
          repeat' apply And.intro
          all_goals exact StableHlo.devRef_ne_of_ne (by decide)))
    _ = W2 m c (Proc.devRef .tc main_arg1) := Function.update_of_ne (StableHlo.devRef_ne_of_ne (by decide)) _ _
    _ = W1 m c (Proc.devRef .tc main_arg1) := W2_of_ne m c main_arg1 (by decide)
    _ = W0 m c (Proc.devRef .tc main_arg1) := StableHlo.after_of_forall_not_mem (b := Proc.devRef .tc main_arg1) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg1) := rfl

theorem W4_main_arg2 (c : Dev nD) : W4 m c (Proc.devRef .tc main_arg2) = m ((c : Thread nD τ).loc main_arg2) :=
  calc W4 m c (Proc.devRef .tc main_arg2)
    _ = W3 m c (Proc.devRef .tc main_arg2) := StableHlo.after_of_forall_not_mem (b := Proc.devRef .tc main_arg2) _ _ (List.forall_iff_forall_mem.mp (by
          simp only [hostOps2, List.Forall, StableHlo.reshape_writes, Finset.mem_singleton]
          repeat' apply And.intro
          all_goals exact StableHlo.devRef_ne_of_ne (by decide)))
    _ = W2 m c (Proc.devRef .tc main_arg2) := Function.update_of_ne (StableHlo.devRef_ne_of_ne (by decide)) _ _
    _ = W1 m c (Proc.devRef .tc main_arg2) :=
        (W2_arr m c 2).trans (((dat0 (V1 m) c).arrAt_in 2 rfl _).trans (by dsimp only [dat0]))
    _ = W0 m c (Proc.devRef .tc main_arg2) := StableHlo.after_of_forall_not_mem (b := Proc.devRef .tc main_arg2) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg2) := rfl

theorem W4_main_arg3 (c : Dev nD) : W4 m c (Proc.devRef .tc main_arg3) = m ((c : Thread nD τ).loc main_arg3) :=
  calc W4 m c (Proc.devRef .tc main_arg3)
    _ = W3 m c (Proc.devRef .tc main_arg3) := StableHlo.after_of_forall_not_mem (b := Proc.devRef .tc main_arg3) _ _ (List.forall_iff_forall_mem.mp (by
          simp only [hostOps2, List.Forall, StableHlo.reshape_writes, Finset.mem_singleton]
          repeat' apply And.intro
          all_goals exact StableHlo.devRef_ne_of_ne (by decide)))
    _ = W2 m c (Proc.devRef .tc main_arg3) := Function.update_of_ne (StableHlo.devRef_ne_of_ne (by decide)) _ _
    _ = W1 m c (Proc.devRef .tc main_arg3) := W2_of_ne m c main_arg3 (by decide)
    _ = W0 m c (Proc.devRef .tc main_arg3) := StableHlo.after_of_forall_not_mem (b := Proc.devRef .tc main_arg3) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg3) := rfl

theorem W4_main_arg4 (c : Dev nD) : W4 m c (Proc.devRef .tc main_arg4) = m ((c : Thread nD τ).loc main_arg4) :=
  calc W4 m c (Proc.devRef .tc main_arg4)
    _ = W3 m c (Proc.devRef .tc main_arg4) := StableHlo.after_of_forall_not_mem (b := Proc.devRef .tc main_arg4) _ _ (List.forall_iff_forall_mem.mp (by
          simp only [hostOps2, List.Forall, StableHlo.reshape_writes, Finset.mem_singleton]
          repeat' apply And.intro
          all_goals exact StableHlo.devRef_ne_of_ne (by decide)))
    _ = W2 m c (Proc.devRef .tc main_arg4) := Function.update_of_ne (StableHlo.devRef_ne_of_ne (by decide)) _ _
    _ = W1 m c (Proc.devRef .tc main_arg4) :=
        (W2_arr m c 4).trans (((dat0 (V1 m) c).arrAt_in 4 rfl _).trans (by dsimp only [dat0]))
    _ = W0 m c (Proc.devRef .tc main_arg4) := StableHlo.after_of_forall_not_mem (b := Proc.devRef .tc main_arg4) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg4) := rfl

theorem W4_main_arg5 (c : Dev nD) : W4 m c (Proc.devRef .tc main_arg5) = m ((c : Thread nD τ).loc main_arg5) :=
  calc W4 m c (Proc.devRef .tc main_arg5)
    _ = W3 m c (Proc.devRef .tc main_arg5) := StableHlo.after_of_forall_not_mem (b := Proc.devRef .tc main_arg5) _ _ (List.forall_iff_forall_mem.mp (by
          simp only [hostOps2, List.Forall, StableHlo.reshape_writes, Finset.mem_singleton]
          repeat' apply And.intro
          all_goals exact StableHlo.devRef_ne_of_ne (by decide)))
    _ = W2 m c (Proc.devRef .tc main_arg5) := Function.update_of_ne (StableHlo.devRef_ne_of_ne (by decide)) _ _
    _ = W1 m c (Proc.devRef .tc main_arg5) := W2_of_ne m c main_arg5 (by decide)
    _ = W0 m c (Proc.devRef .tc main_arg5) := StableHlo.after_of_forall_not_mem (b := Proc.devRef .tc main_arg5) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg5) := rfl

end Cert.Kernel.Hand

end
-- ==== Proof.KI.Data.lean ====
/-
  The proof data of the two kernel launches, shared by every module about them.

  Launch 0 (the projections) runs over a 4 × 4 grid: at point (n, i) it reads rows 1024·i … 1024·i + 1023 of image n of
  x and of y, the two weight matrices and the two bias rows, and writes the same rows of xq and yk.  Its outputs'
  staging buffers after the body are therefore one whole-buffer store each, of the body's arithmetic on the blocks read.

  Launch 1 (the attention) runs over a 4 × 4 × 4 grid: at point (n, i, j) it reads query rows i of yk, key rows j of xq,
  value rows j of yk and residual rows i of xq.  A scratch accumulator is zeroed at j = 0, receives the block's
  contribution at every j, and at j = 3 the output block is the accumulator plus the residual rows.  `acc1` is the
  accumulator after each grid position, by recursion on the position; the region invariant carries it from one
  position to the next.  The arrays xq and yk are each read through two windows, so each window holds half a share.
-/
import proofs.«140727_j37993280700496_1_alg».proof.Proof.Gen.KernelIdeal.Skeleton
import proofs.«140727_j37993280700496_1_alg».proof.Proof.Gen.KernelIdeal.Launch
import proofs.«140727_j37993280700496_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- The TensorCore's buffer contents when a launch is entered: the parameter everything here is stated at.
variable (V : (c : Dev nD) → (b : Ref sig .tc) → Buf (Elt F) ((c : Thread nD τ).loc b))

/-! ## The whole-buffer rectangles the bodies load and store through -/

/-- A whole [1, 1024, 128] staging buffer. -/
abbrev rB : Rect S1x1024x128 := Rect.unit (s := S1x1024x128) ![0, 0, 0] S1x1024x128.size inb_S1x1024x128_S1x1024x128_0_0_0
/-- A whole [128, 128] weight buffer. -/
abbrev rW : Rect S128x128 := Rect.unit (s := S128x128) ![0, 0] S128x128.size inb_S128x128_S128x128_0_0
/-- A whole [1, 128] bias buffer. -/
abbrev rV : Rect S1x128 := Rect.unit (s := S1x128) ![0, 0] S1x128.size inb_S1x128_S1x128_0_0
/-- The whole [1024, 128] accumulator. -/
abbrev rA : Rect S1024x128 := Rect.unit (s := S1024x128) ![0, 0] S1024x128.size inb_S1024x128_S1024x128_0_0

/-! ## The windows' blocks -/

/-- Launch 0: window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Launch 1: window `w`'s block at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## Launch 0: what the body leaves in the output windows' buffers -/

/-- The xq block: one whole-buffer store of the projection of the x block by W1 and b1. -/
def out0_6 (x0 : Vec F S1x1024x128 .f32) (x2 : Vec F S128x128 .f32) (x3 : Vec F S1x128 .f32) : Vec F S1x1024x128 .f32 :=
  View.canon [⟨rB, k0_pay1 (View.ld x0 rB) (View.ld x2 rW) (View.ld x3 rV)⟩]

/-- The yk block: one whole-buffer store of the projection of the y block by W2 and b2. -/
def out0_7 (x1 : Vec F S1x1024x128 .f32) (x4 : Vec F S128x128 .f32) (x5 : Vec F S1x128 .f32) : Vec F S1x1024x128 .f32 :=
  View.canon [⟨rB, k0_pay2 (View.ld x1 rB) (View.ld x4 rW) (View.ld x5 rV)⟩]

/-- Launch 0's proof data on core `c`: the arrays as found; after the body each input buffer still at its block,
    the two outputs at the projections of the blocks; nothing carried between points. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 2 t) (iblk0 V c 3 t)
    | ⟨7, _⟩ => out0_7 (iblk0 V c 1 t) (iblk0 V c 4 t) (iblk0 V c 5 t)
  Φ _ := Pipeline.ΦA spec0 c
  q _ := fullShare
  owed _ := 0

/-! ## Launch 1: the accumulator, point by point -/

/-- The accumulator after one run of the body: the blocks' contribution added to what it held — zero when the
    body has just cleared it (`none`), else the contents carried from the point before. -/
def accStep (x0 x1 x2 : Vec F S1x1024x128 .f32) (prev : Option (Vec F S1024x128 .f32)) : Vec F S1024x128 .f32 :=
  View.canon [⟨rA, k1_pay2 (View.ld x0 rB) (View.ld x1 rB) (View.ld x2 rB)
    (View.ld (match prev with
      | none => View.canon [⟨rA, k1_pay1 (F := F)⟩]
      | some s => s) rA)⟩]

/-- The accumulator after the body at grid position `n`: cleared first where the key-block coordinate is zero
    (`n % 4 = 0`), carried from position `n - 1` elsewhere. -/
def acc1 (c : Dev nD) : (n : ℕ) → n < cfg1.N → Vec F S1024x128 .f32
  | 0, hn => accStep (iblk1 V c 0 ⟨0, hn⟩) (iblk1 V c 1 ⟨0, hn⟩) (iblk1 V c 2 ⟨0, hn⟩) none
  | n + 1, hn => accStep (iblk1 V c 0 ⟨n + 1, hn⟩) (iblk1 V c 1 ⟨n + 1, hn⟩) (iblk1 V c 2 ⟨n + 1, hn⟩)
      (if (n + 1) % 4 = 0 then none else some (acc1 c n (Nat.lt_of_succ_lt hn)))

/-- The output block at a point that stores it: the accumulator plus the residual rows. -/
def out1_4 (s : Vec F S1024x128 .f32) (x3 : Vec F S1x1024x128 .f32) : Vec F S1x1024x128 .f32 :=
  View.canon [⟨rB, k1_pay3 (View.ld s rA) (View.ld x3 rB)⟩]

/-- The accumulator as a memref: a whole scoped buffer of the kernel's own. -/
abbrev scM : Memref sig .tc .vmem S1024x128 .f32 := Memref.whole cc1_scratch0

/-- The region invariant of launch 1 before grid position `n`: before the first point every scoped buffer that is no
    staging buffer of this launch at some contents; afterwards the same with the accumulator at what the point before
    left in it; the generator register at some state throughout. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ owns (c : Thread nD τ) scM fullShare (acc1 V c n hn)) ∗ (∃ r, prngReg c r))

/-- Launch 1's proof data on core `c`: the arrays as found; after the body each input buffer still at its block and
    the output at the accumulator plus the residual; the invariant carries the accumulator; the two arrays read
    through two windows each are held at half a share per window. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (acc1 V c t.val t.isLt) (iblk1 V c 3 t)
  Φ t := PhiS V c t.val (Nat.le_of_lt_succ t.isLt)
  q w := match w with
    | ⟨0, _⟩ => fullShare.left
    | ⟨1, _⟩ => fullShare.left
    | ⟨2, _⟩ => fullShare.right
    | ⟨3, _⟩ => fullShare.right
    | ⟨4, _⟩ => fullShare
  owed _ := 0

end Cert.KernelIdeal.Hand

end
-- ==== Proof.KI.Run.lean ====
/-
  The run of the whole program from the two launches' body obligations: the buffer contents at each boundary
  between the host reshapes and the two launches, each launch as a segment entered from the contents before it and
  left at the contents after it, and the launch of the program over these segments.
-/
import proofs.«140727_j37993280700496_1_alg».proof.Proof.KI.Data
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Core `c`'s buffers at launch. -/
abbrev W0 : Dev nD → Valuation τ sig (Elt F) := fun c b => m (c, b)
/-- After the four reshapes before launch 0. -/
abbrev W1 : Dev nD → Valuation τ sig (Elt F) := fun c => StableHlo.after hostOps0 (W0 m c)
/-- The same read at the TensorCore's references. -/
abbrev V1 : (c : Dev nD) → (b : Ref sig .tc) → Buf (Elt F) ((c : Thread nD τ).loc b) := fun c b => W1 m c b
/-- After launch 0: its arrays at what its write-backs leave, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- After launch 1: the output array at what its write-backs leave, every other buffer as entered. -/
def W3 (c : Dev nD) : Valuation τ sig (Elt F) :=
  Function.update (W2 m c) (Proc.devRef .tc main_v5) ((dat1 (V2 m) c).arrAt 4 cfg1.N)
abbrev V3 : (c : Dev nD) → (b : Ref sig .tc) → Buf (Elt F) ((c : Thread nD τ).loc b) := fun c b => W3 m c b
/-- After the closing reshape. -/
abbrev W4 : Dev nD → Valuation τ sig (Elt F) := fun c => StableHlo.after hostOps2 (W3 m c)

/-! ## The proof data family and the thread state -/

/-- No launch prefetches a table. -/
abbrev adm : (p : Fin 2) → (pcfgs (F := F) p).Adm := fun p => (cfgs p).toPCfg_adm
/-- Each launch's proof data at the contents it is entered from. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
/-- A stretch of host operations as a segment over every unscoped buffer. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh : (hostOps0 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The launches as segments -/

/-- What the two launches' bodies owe, at the contents each launch is entered from: the body obligations, and launch
    1's invariant entered from and returned to the scoped buffers at some contents. -/
structure Obl : Prop where
  hb0 : ∀ c, BodyObligation (dat0 (F := F) (V1 m) c) (defs₀ (F := F)) Variants.none () Set.univ
  hb1 : ∀ c, BodyObligation (dat1 (F := F) (V2 m) c) (defs₀ (F := F)) Variants.none () Set.univ
  hin1 : ∀ c, (Pipeline.ΦA spec1 c : sProp 𝕄) ⊢ (dat1 (F := F) (V2 m) c).Φ 0
  hout1 : ∀ c, (dat1 (F := F) (V2 m) c).Φ (Fin.last cfg1.N) ⊢ (Pipeline.ΦA spec1 c : sProp 𝕄)

variable (O : Obl m)

set_option backward.isDefEq.respectTransparency.types false in
/-- Launch 0 between the contents `W1` and `W2`: its eight arrays are distinct buffers, split out of the unscoped
    buffers at entry and put back at what the write-backs leave at exit. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (O.hb0 c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Launch 1's arrays: three distinct buffers behind five windows -/

theorem img1 : Finset.univ.image (Pipeline.arrRef spec1) = ({main_v4_0, main_v4_1, main_v5} : Finset (Ref sig .tc)) := by decide

/-- The distinct buffers behind launch 1's windows, one by one. -/
theorem arrBufs1_eq (c : Dev nD) (Vv : (b : Ref sig .tc) → Buf (Elt F) ((c : Thread nD τ).loc b)) :
    (Pipeline.arrBufs (Ix := Unit) (Name := ℕ) (U := UR sig nD τ) (Lvl := ℕ) spec1 c Vv : sProp 𝕄)
      = iprop((((c : Thread nD τ).loc main_v4_0) ↦{fullShare} Vv main_v4_0) ∗ (((c : Thread nD τ).loc main_v4_1) ↦{fullShare} Vv main_v4_1)
          ∗ (((c : Thread nD τ).loc main_v5) ↦{fullShare} Vv main_v5)) := by
  unfold Pipeline.arrBufs
  rw [img1, BI.bigSep_insert (by decide), BI.bigSep_insert (by decide), BI.bigSep_singleton]
  rfl

/-- Launch 1's windowed arrays, window by window: xq and yk at half a share per window, the output whole. -/
theorem arrays1_eq (Vv : (c : Dev nD) → (b : Ref sig .tc) → Buf (Elt F) ((c : Thread nD τ).loc b)) (c : Dev nD)
    (Fc : (w : Fin cfg1.W) → Buf (Elt F) ((cfg1.win w).arr.view.loc (c : Thread nD τ))) :
    ((dat1 Vv c).arrays Fc : sProp 𝕄)
      = iprop((((c : Thread nD τ).loc main_v4_1) ↦{fullShare.left} Fc 0) ∗ (((c : Thread nD τ).loc main_v4_0) ↦{fullShare.left} Fc 1)
          ∗ (((c : Thread nD τ).loc main_v4_1) ↦{fullShare.right} Fc 2) ∗ (((c : Thread nD τ).loc main_v4_0) ↦{fullShare.right} Fc 3)
          ∗ (((c : Thread nD τ).loc main_v5) ↦{fullShare} Fc 4)) := by
  unfold Dat.arrays
  rw [bigSep_W1, (arr_whole1 0).set_eq_univ, (arr_whole1 1).set_eq_univ, (arr_whole1 4).set_eq_univ]
  rfl

/-- A core's unscoped buffers are the three buffers behind launch 1's windows and the rest. -/
theorem split1 (c : Dev nD) (Vv : (b : Ref sig .tc) → Buf (Elt F) ((c : Thread nD τ).loc b)) :
    (unscopedBufs c Vv : sProp 𝕄) = iprop(Pipeline.arrBufs (Ix := Unit) (Name := ℕ) (U := UR sig nD τ) (Lvl := ℕ) spec1 c Vv
      ∗ Pipeline.unscopedRest (Ix := Unit) (Name := ℕ) (U := UR sig nD τ) (Lvl := ℕ) spec1 c Vv) :=
  Pipeline.unscopedBufs_split₀ cfgs (1 : Fin 2) winFacts₀1.arr_unscoped c Vv

/-- ENTRY of launch 1: the unscoped buffers at the contents launch 0 left are launch 1's windowed arrays — xq and yk
    split into two half shares each, one per window that reads them — beside every other unscoped buffer. -/
theorem entry1 (c : Dev nD) :
    (StableHlo.held (c : Thread nD τ) (Pipeline.ucRefs τ sig) (W2 m c) : sProp 𝕄)
      ⊢ iprop((dat1 (V2 m) c).arrays ((dat1 (V2 m) c).arrAt · 0)
          ∗ Pipeline.unscopedRest (Ix := Unit) (Name := ℕ) (U := UR sig nD τ) (Lvl := ℕ) spec1 c (V2 m c)) := by
  have h : (unscopedBufs c (V2 m c) : sProp 𝕄)
      ⊢ iprop((dat1 (V2 m) c).arrays ((dat1 (V2 m) c).arrAt · 0)
          ∗ Pipeline.unscopedRest (Ix := Unit) (Name := ℕ) (U := UR sig nD τ) (Lvl := ℕ) spec1 c (V2 m c)) := by
    rw [split1, arrBufs1_eq, arrays1_eq]
    iintro ⟨⟨H0, H1, H5⟩, Hrest⟩
    ihave H0 := (pointsTo_share (PosShare.mem_left_op_right fullShare)).1 $$ H0
    icases H0 with ⟨H0l, H0r⟩
    ihave H1 := (pointsTo_share (PosShare.mem_left_op_right fullShare)).1 $$ H1
    icases H1 with ⟨H1l, H1r⟩
    isplitr [Hrest]
    · isplitl [H1l]; · iexact H1l
      isplitl [H0l]; · iexact H0l
      isplitl [H1r]; · iexact H1r
      isplitl [H0r]; · iexact H0r
      iexact H5
    · iexact Hrest
  rw [Pipeline.unscopedBufs_held] at h
  exact h

/-- EXIT of launch 1: the half shares rejoined at the unchanged xq and yk, the output array at what the write-backs
    leave, every other buffer as entered: the unscoped buffers at the contents `W3`. -/
theorem exit1 (c : Dev nD) :
    iprop((dat1 (V2 m) c).arrays ((dat1 (V2 m) c).arrAt · cfg1.N)
          ∗ Pipeline.unscopedRest (Ix := Unit) (Name := ℕ) (U := UR sig nD τ) (Lvl := ℕ) spec1 c (V2 m c))
      ⊢ (StableHlo.held (c : Thread nD τ) (Pipeline.ucRefs τ sig) (W3 m c) : sProp 𝕄) := by
  have hr : (Pipeline.unscopedRest (Ix := Unit) (Name := ℕ) (U := UR sig nD τ) (Lvl := ℕ) spec1 c (V2 m c) : sProp 𝕄)
      = Pipeline.unscopedRest (Ix := Unit) (Name := ℕ) (U := UR sig nD τ) (Lvl := ℕ) spec1 c (V3 m c) := by
    unfold Pipeline.unscopedRest
    refine bigSep_congr fun b hb => ?_
    have hne : b ≠ main_v5 := fun e => (Finset.mem_sdiff.mp hb).2 (by rw [e, img1]; decide)
    rw [show V3 m c b = V2 m c b from Function.update_of_ne (StableHlo.devRef_ne_of_ne hne) _ _]
  have h : iprop((dat1 (V2 m) c).arrays ((dat1 (V2 m) c).arrAt · cfg1.N)
          ∗ Pipeline.unscopedRest (Ix := Unit) (Name := ℕ) (U := UR sig nD τ) (Lvl := ℕ) spec1 c (V2 m c))
      ⊢ (unscopedBufs c (V3 m c) : sProp 𝕄) := by
    rw [split1, arrBufs1_eq, arrays1_eq, hr, (dat1 (V2 m) c).arrAt_in 0 rfl _, (dat1 (V2 m) c).arrAt_in 1 rfl _,
      (dat1 (V2 m) c).arrAt_in 2 rfl _, (dat1 (V2 m) c).arrAt_in 3 rfl _,
      show V3 m c main_v4_0 = V2 m c main_v4_0 from Function.update_of_ne (StableHlo.devRef_ne_of_ne (by decide)) _ _,
      show V3 m c main_v4_1 = V2 m c main_v4_1 from Function.update_of_ne (StableHlo.devRef_ne_of_ne (by decide)) _ _,
      show V3 m c main_v5 = (dat1 (V2 m) c).arrAt 4 cfg1.N from Function.update_self _ _ _]
    iintro ⟨⟨H1l, H0l, H1r, H0r, H5⟩, Hrest⟩
    isplitr [Hrest]
    · isplitl [H0l H0r]
      · iapply (pointsTo_share (PosShare.mem_left_op_right fullShare)).2; isplitl [H0l]; · iexact H0l
        iexact H0r
      isplitl [H1l H1r]
      · iapply (pointsTo_share (PosShare.mem_left_op_right fullShare)).2; isplitl [H1l]; · iexact H1l
        iexact H1r
      iexact H5
    · iexact Hrest
  rw [Pipeline.unscopedBufs_held] at h
  exact h

theorem r1_hentry (c : Dev nD) : iprop(iprop(StableHlo.held (c : Thread nD τ) (Pipeline.ucRefs τ sig) (W2 m c) ∗ R c) ∗ Pipeline.ownSems0 (fun k : PEmpty => k.elim) c ∗ levAts L lv)
    ⊢ |={Set.univ}=> iprop((dat1 (V2 m) c).arrays ((dat1 (V2 m) c).arrAt · 0) ∗ Pipeline.prefHeld (pcfgs (F := F) 1).pre c (fun _ => fullShare) (adm (F := F) 1).1
        ∗ (dat1 (V2 m) c).owesAt () 0 ∗ iprop(∃ r, prngReg c r) ∗ Pipeline.unscopedRest (Ix := Unit) (Name := ℕ) (U := UR sig nD τ) (Lvl := ℕ) spec1 c (V2 m c)) := by
  rw [Pipeline.ownSems0_none]
  iintro ⟨⟨Hub, Hp, HO⟩, -, -⟩
  ihave H := (entry1 m c) $$ Hub
  icases H with ⟨Ha, Hrest⟩
  imodintro
  isplitl [Ha]; · iexact Ha
  isplitr; · unfold Pipeline.prefHeld; rw [show (Finset.univ : Finset (Fin 0)) = ∅ from rfl, BI.bigSep_empty]; iempintro
  isplitl [HO]
  · unfold Pipeline.Dat.owesAt Pipeline.owesWithin
    icases HO with ⟨%W, HO⟩; iexists W; isplitr; · ipureintro; exact fun _ _ => Or.inl trivial
    iexact HO
  isplitl [Hp]; · iexact Hp
  iexact Hrest

theorem r1_hexit (c : Dev nD) : iprop((dat1 (V2 m) c).arrays ((dat1 (V2 m) c).arrAt · cfg1.N) ∗ (dat1 (V2 m) c).owesAt () (Fin.last cfg1.N) ∗ iprop(∃ r, prngReg c r)
      ∗ Pipeline.unscopedRest (Ix := Unit) (Name := ℕ) (U := UR sig nD τ) (Lvl := ℕ) spec1 c (V2 m c))
    ⊢ |={Set.univ}=> iprop(StableHlo.held (c : Thread nD τ) (Pipeline.ucRefs τ sig) (W3 m c) ∗ R c) := by
  iintro ⟨Ha, HO, HY, Hrest⟩
  imodintro
  isplitl [Ha Hrest]
  · iapply (exit1 m c); isplitl [Ha]; · iexact Ha
    iexact Hrest
  isplitl [HY]; · iexact HY
  unfold Pipeline.Dat.owesAt Pipeline.owesWithin
  icases HO with ⟨%W, -, HO⟩; iexists W; iexact HO

theorem PhiA_of (c : Dev nD) : iprop(iprop(∃ r, prngReg c r) ∗ Pipeline.prefHeld (pcfgs (F := F) 1).pre c (fun _ => fullShare) (adm (F := F) 1).1 ∗ Pipeline.scopedRest (Ix := Unit) (Name := ℕ) (U := UR sig nD τ) (Lvl := ℕ) (Val := Elt F) spec1 c) ⊢ (Pipeline.ΦA spec1 c : sProp 𝕄) := by
  unfold Pipeline.ΦA
  iintro ⟨Hp, -, Hr⟩
  isplitl [Hr]; · iexact Hr
  iexact Hp

theorem r1_hin (O : Obl m) (c : Dev nD) : iprop(iprop(∃ r, prngReg c r) ∗ Pipeline.prefHeld (pcfgs (F := F) 1).pre c (fun _ => fullShare) (adm (F := F) 1).1 ∗ Pipeline.scopedRest (Ix := Unit) (Name := ℕ) (U := UR sig nD τ) (Lvl := ℕ) (Val := Elt F) spec1 c) ⊢ (dat1 (V2 m) c).Φ 0 :=
  (PhiA_of c).trans (O.hin1 c)

theorem PhiA_to (c : Dev nD) : (Pipeline.ΦA spec1 c : sProp 𝕄) ⊢ iprop(iprop(∃ r, prngReg c r) ∗ Pipeline.ownSems0 (fun k : PEmpty => k.elim) c ∗ Pipeline.scopedRest (Ix := Unit) (Name := ℕ) (U := UR sig nD τ) (Lvl := ℕ) (Val := Elt F) spec1 c) := by
  rw [Pipeline.ownSems0_none]
  unfold Pipeline.ΦA
  iintro ⟨Hr, Hp⟩
  isplitl [Hp]; · iexact Hp
  isplitr; · iempintro
  iexact Hr

theorem r1_hout (O : Obl m) (c : Dev nD) : (dat1 (V2 m) c).Φ (Fin.last cfg1.N) ⊢ iprop(iprop(∃ r, prngReg c r) ∗ Pipeline.ownSems0 (fun k : PEmpty => k.elim) c ∗ Pipeline.scopedRest (Ix := Unit) (Name := ℕ) (U := UR sig nD τ) (Lvl := ℕ) (Val := Elt F) spec1 c) :=
  (O.hout1 c).trans (PhiA_to c)

set_option backward.isDefEq.respectTransparency.types false in
/-- Launch 1 between the contents `W2` and `W3`: the arrays by `entry1` / `exit1`, the region invariant entered
    from and returned to the scoped buffers at some contents. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (O.hb1 c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := r1_hentry m c
  hin c := r1_hin m O c
  hout c := r1_hout m O c
  hexit c := r1_hexit m c

/-! ## The program as segments, and its launch -/

/-- The program's four segments: the reshapes before, the two launches, the reshape after. -/
abbrev segs : List (Pipeline.Seg (pcfgs (F := F)) adm (pdats m) () defs₀ 𝒱₀ L lv) :=
  [ .host (hseg hostOps0 hostOps0_sub hostOps0_fresh (W0 m)),
    .region (reg0 m O),
    .region (reg1 m O),
    .host (hseg hostOps2 hostOps2_sub hostOps2_fresh (W3 m)) ]

theorem main_run (O : Obl m) (c : Dev nD) : main (F := F) c = Pipeline.Seg.run (segs m O) := (main_chain c).trans (by chain_rfl)

/-- The last thread state without what is owed: every unscoped buffer at the last contents, the generator register. -/
abbrev Tₙ (c : Dev nD) : sProp 𝕄 := iprop(StableHlo.held (c : Thread nD τ) (Pipeline.ucRefs τ sig) (W4 m c) ∗ ∃ r, prngReg c r)

variable (ρ : Dev nD → PrngReg)

set_option backward.isDefEq.respectTransparency.types false in
/-- From any memory with zero counters every weakly fair execution of the program terminates, nothing faulting, and
    every unscoped buffer of every core ends at the contents `W4`: the launch memory carried through the reshapes and
    the two launches' write-backs. -/
theorem run_all (O : Obl m) : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m O)
    (fun c Q => by rw [main_run m O c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show iprop(StableHlo.held (c : Thread nD τ) (Pipeline.ucRefs τ sig) (StableHlo.after hostOps2 (W3 m c)) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

end Cert.KernelIdeal.Hand

end
-- ==== Proof.KI.R0.lean ====
/-
  Launch 0 (the two projections): the body obligation.

  At every grid point the body reads eight whole staging buffers: the x block and the y block ([1, 1024, 128]), the two
  weight matrices ([128, 128]) and the two bias rows ([1, 128]); it stores the projection of the x block by the first
  weight and bias over the whole xq buffer, and the projection of the y block by the second weight and bias over the
  whole yk buffer.  Before each store it loads the output buffer it is about to overwrite; the value loaded is not
  used, so the output buffers may hold anything when the body starts.

  Three facts make up the obligation.
  * Each input window's current staging buffer holds that window's block of its array at every point.  The x and y
    windows are fetched at every point.  The weight and bias windows have a constant block index: they are fetched at
    the first point only, and at a later point the block index has not moved and the body left the buffer as it found
    it, so the buffer still holds the block.
  * The body, run on whole staging memrefs whose inputs read `x0 … x5`, ends with the inputs unchanged and each output
    buffer at the single whole-buffer store of its projection: a one-piece list of writes whose rectangle is the whole
    shape covers the shape, so what is read back is the canonical contents of that list whatever was there before.
  * The region invariant and the core's debts are not touched by the body and pass through.
-/
import proofs.«140727_j37993280700496_1_alg».proof.Proof.KI.Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- The TensorCore's buffer contents when the launch is entered.
variable (V : (c : Dev nD) → (b : Ref sig .tc) → Buf (Elt F) ((c : Thread nD τ).loc b))

/-! ## The proof data projected -/

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) :
    (dat0 V c).after 6 t = out0_6 (iblk0 V c 0 t) (iblk0 V c 2 t) (iblk0 V c 3 t) := by dsimp only [dat0]
theorem after0_7 (c : Dev nD) (t : Fin cfg0.N) :
    (dat0 V c).after 7 t = out0_7 (iblk0 V c 1 t) (iblk0 V c 4 t) (iblk0 V c 5 t) := by dsimp only [dat0]

/-! ## Every input window's current staging buffer holds its block

An input window's buffer holds the window's block of the array at every point, whether the block was fetched
there or not: where it was not fetched the block index has not moved since the previous point and the body
leaves the buffer as it found it. The two activation windows are fetched at every point; the weight and bias
windows only at the first. -/

theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

theorem before0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)

theorem before0_3 (c : Dev nD) (t : Fin cfg0.N) (d) : (dat0 V c).before 3 t d = iblk0 V c 3 t :=
  ((dat0 V c).before_in_eq_fetched 3 rfl (fun _ => rfl) (fun _ _ _ => rfl)
      (fun t => by rw [after0_3]; unfold Dat.blockOf iblk0; rw [A_eq0]; try rfl) t d).trans
    (by unfold Dat.fetched Dat.blockOf iblk0; rw [A_eq0]; try rfl)

theorem before0_4 (c : Dev nD) (t : Fin cfg0.N) (d) : (dat0 V c).before 4 t d = iblk0 V c 4 t :=
  ((dat0 V c).before_in_eq_fetched 4 rfl (fun _ => rfl) (fun _ _ _ => rfl)
      (fun t => by rw [after0_4]; unfold Dat.blockOf iblk0; rw [A_eq0]; try rfl) t d).trans
    (by unfold Dat.fetched Dat.blockOf iblk0; rw [A_eq0]; try rfl)

theorem before0_5 (c : Dev nD) (t : Fin cfg0.N) (d) : (dat0 V c).before 5 t d = iblk0 V c 5 t :=
  ((dat0 V c).before_in_eq_fetched 5 rfl (fun _ => rfl) (fun _ _ _ => rfl)
      (fun t => by rw [after0_5]; unfold Dat.blockOf iblk0; rw [A_eq0]; try rfl) t d).trans
    (by unfold Dat.fetched Dat.blockOf iblk0; rw [A_eq0]; try rfl)

/-! ## The body's triple -/

/-- One whole-buffer store covers the buffer. -/
theorem cover0 (p0 : Vec F S1x1024x128 .f32) (y : S1x1024x128.Idx) :
    ∃ pc ∈ ([⟨rB, p0⟩] : List (View.Piece (Elt F) S1x1024x128 .f32)), y ∈ pc.1.set :=
  View.cover_of_tiled [⟨rB, p0⟩] S1x1024x128.size (by rfl) y

set_option maxHeartbeats 1000000 in
/-- The projection body on whole staging memrefs: the six inputs' at read contents `x0 … x5`, the two outputs' at
    anything. It runs to the continuation holding the inputs' as they were and the outputs' at the two
    projections `x0·x2 + x3` and `x1·x4 + x5` (as `out0_6`, `out0_7` name them). -/
theorem sound_kernel0 (c : Dev nD) (E : Set ℕ) (i : grid0.Coords)
    (arg2 : Memref sig .tc .vmem S1x1024x128 .f32) (harg2 : arg2.IsWhole) (arg3 : Memref sig .tc .vmem S1x1024x128 .f32) (harg3 : arg3.IsWhole)
    (arg4 : Memref sig .tc .vmem S128x128 .f32) (harg4 : arg4.IsWhole) (arg5 : Memref sig .tc .vmem S1x128 .f32) (harg5 : arg5.IsWhole)
    (arg6 : Memref sig .tc .vmem S128x128 .f32) (harg6 : arg6.IsWhole) (arg7 : Memref sig .tc .vmem S1x128 .f32) (harg7 : arg7.IsWhole)
    (arg8 : Memref sig .tc .vmem S1x1024x128 .f32) (harg8 : arg8.IsWhole) (arg9 : Memref sig .tc .vmem S1x1024x128 .f32) (harg9 : arg9.IsWhole)
    (x0 x1 : Vec F S1x1024x128 .f32) (x2 : Vec F S128x128 .f32) (x3 : Vec F S1x128 .f32) (x4 : Vec F S128x128 .f32) (x5 : Vec F S1x128 .f32)
    (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare x4 ∗ owns (c : Thread nD τ) arg7 fullShare x5
        ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare x4 ∗ owns (c : Thread nD τ) arg7 fullShare x5
            ∗ owns (c : Thread nD τ) arg8 fullShare (out0_6 x0 x2 x3)
            ∗ owns (c : Thread nD τ) arg9 fullShare (out0_7 x1 x4 x5)) -∗ K ⟨⟩))
      ⊢ wp frame (wpE (defs₀ (F := F)) Variants.none c none) E
          (cc0__proj_kernel i arg2 harg2 arg3 harg3 arg4 harg4 arg5 harg5 arg6 harg6 arg7 harg7 arg8 harg8 arg9 harg9) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover0 _)
  iexists _; isplitr
  swap; · iexact H7
  ipureintro
  exact View.read_writes_eq_canon _ _ _ (cover0 _)

/-! ## The body obligation, at a generic point -/

/-- What the body is called with at point `t`: the region's invariant, the core's debts, and each window's current
    staging buffer at what it then holds. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- What it returns: the same at the next point, each buffer at what the body leaves in it. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 1000000 in
/-- The body at any point: every input's buffer holds its block, so the body's triple applies; the invariant and the
    core's debts pass through unread, and the outputs' buffers are handed over at whatever they held. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _
    (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation for the projection call, at every point. -/
theorem body_obligation0 (c : Dev nD) :
    BodyObligation (dat0 (F := F) V c) (defs₀ (F := F)) Variants.none () Set.univ := fun t => by
  rw [bigSep_W0, bigSep_W0]
  exact sound_body0 V c t

end Cert.KernelIdeal.Hand

end
-- ==== Proof.KI.R1.lean ====
/-
  The body of the attention launch, at every grid position.

  At position t = (n, i, j) of the 4 × 4 × 4 grid (j = t mod 4 the innermost coordinate) the body
    * clears the accumulator when j = 0,
    * adds to it logistic(q · kᵀ) · v for the query rows i, key rows j and value rows j it was handed,
    * and, when j = 3, stores accumulator + residual rows i into the output block.
  Every store is through the rectangle of the whole buffer, so what a buffer holds after a store is the stored
  value, whatever it held before.  Three cases follow (j = 0; j = 1, 2; j = 3); in each the accumulator ends at
  `acc1` of the position, the four input buffers are unchanged, and the output buffer is either untouched or holds
  `out1_4` of the accumulator and the residual block.  The region invariant carries the accumulator from one
  position to the next; before the first position, and after the last, it is the plain "every scoped buffer at some
  contents".
-/
import proofs.«140727_j37993280700496_1_alg».proof.Proof.KI.Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The two conditions of the body, over the grid -/

/-- "The key-block coordinate is zero", as the body computes it. -/
abbrev cond1_0 (i : grid1.Coords) : Prop := (Scalar.cmpi .ne (Scalar.extui (Scalar.cmpi .eq (BitVec.ofNat 32 (i 2).val) 0#32)) 0#32) = 1#1
/-- It holds exactly at the positions ≡ 0 (mod 4): checked at each of the 64 positions. -/
theorem hcond1_0 : ∀ t : Fin cfg1.N, cond1_0 (grid1.coords t) ↔ t.val % 4 = 0 :=
  (by decide +kernel : ∀ t : Fin grid1.N, cond1_0 (grid1.coords t) ↔ t.val % 4 = 0)

/-- "The key-block coordinate is the last one", as the body computes it. -/
abbrev cond1_1 (i : grid1.Coords) : Prop := k1_cond2 i = 1#1
/-- It holds exactly at the positions ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the output window is idle -/

/-- The output window is idle exactly where the second condition fails. -/
theorem idle1_4_eq (i : grid1.Coords) : cfg1.idle 4 i = !(k1_cond2 i == 1#1) := rfl
theorem liveAt1_4 (i : grid1.Coords) (h : cond1_1 i) : cfg1.idle 4 i = false := by
  rw [idle1_4_eq, show k1_cond2 i = 1#1 from h]; rfl
theorem idleAt1_4 (i : grid1.Coords) (h : ¬cond1_1 i) : cfg1.idle 4 i = true := by
  rw [idle1_4_eq, beq_eq_false_iff_ne.mpr h]; rfl
/-- Where the position is not ≡ 3 (mod 4) the output block is not written back. -/
theorem noFlush1_4 (t : Fin cfg1.N) (h : ¬t.val % 4 = 3) : (cfg1.win 4).flush t = false :=
  Bool.eq_false_iff.mpr fun hf => h ((flush1_4 t).mp hf)
/-- The four input windows are never idle. -/
theorem liveAt1_0 (i : grid1.Coords) : cfg1.idle 0 i = false := rfl
theorem liveAt1_1 (i : grid1.Coords) : cfg1.idle 1 i = false := rfl
theorem liveAt1_2 (i : grid1.Coords) : cfg1.idle 2 i = false := rfl
theorem liveAt1_3 (i : grid1.Coords) : cfg1.idle 3 i = false := rfl

/-! ## Whole-buffer stores -/

/-- The accumulator's rectangle is the whole accumulator: one store through it covers every index. -/
theorem cover1_acc (p0 : Vec F S1024x128 .f32) (y : S1024x128.Idx) :
    ∃ pc ∈ ([⟨rA, p0⟩] : List (View.Piece (Elt F) S1024x128 .f32)), y ∈ pc.1.set :=
  View.cover_of_tiled [⟨rA, p0⟩] S1024x128.size (by rfl) y
/-- Likewise for a [1, 1024, 128] staging buffer. -/
theorem cover1_blk (p0 : Vec F S1x1024x128 .f32) (y : S1x1024x128.Idx) :
    ∃ pc ∈ ([⟨rB, p0⟩] : List (View.Piece (Elt F) S1x1024x128 .f32)), y ∈ pc.1.set :=
  View.cover_of_tiled [⟨rB, p0⟩] S1x1024x128.size (by rfl) y

theorem mem1_rA (p0 : Vec F S1024x128 .f32) (y : S1024x128.Idx) : y ∈ (rA).set := by
  obtain ⟨pc, hm, hy⟩ := cover1_acc p0 y
  rw [List.mem_singleton] at hm; subst hm; exact hy

/-- A store through the whole accumulator hides every earlier store. -/
theorem canon1_rA_cons (w : Vec F S1024x128 .f32) (L : List (View.Piece (Elt F) S1024x128 .f32)) :
    View.canon (⟨rA, w⟩ :: L) = View.canon [⟨rA, w⟩] := by
  funext y
  obtain ⟨x, rfl⟩ := (rA).exists_idx_of_mem (mem1_rA w y)
  exact (View.canon_cons_emb rA w L x).trans (View.canon_cons_emb rA w [] x).symm

/-! ## What the stores leave, in closed form

The runs below leave each buffer as "the stores written over what it held".  Since every store is through the whole
buffer's rectangle, reading that back gives the last stored value; these lemmas say so in the vocabulary of the proof
data (`accStep`, `out1_4`), for any views of the buffers. -/

section Closers
variable (v3 v4 v5 v6 v7 : View sig .tc .vmem S1x1024x128 .f32) (v8 : View sig .tc .vmem S1024x128 .f32)
variable (f0 : v3.ty.Contents (Elt F)) (f1 : v4.ty.Contents (Elt F)) (f2 : v5.ty.Contents (Elt F))
  (f3 : v6.ty.Contents (Elt F)) (f4 : v7.ty.Contents (Elt F)) (fs : v8.ty.Contents (Elt F))

/-- The stored value when the accumulator is carried: `accStep` over what it held. -/
theorem accStep_some_eq :
    View.canon [⟨(Rect.unit (s := S1024x128) ![0, 0] S1024x128.size inb_S1024x128_S1024x128_0_0),
        k1_pay2 (View.readAt (Elt F) v3 (Rect.unit (s := S1x1024x128) ![0, 0, 0] S1x1024x128.size inb_S1x1024x128_S1x1024x128_0_0_0).toLoadRect f0) (View.readAt (Elt F) v4 (Rect.unit (s := S1x1024x128) ![0, 0, 0] S1x1024x128.size inb_S1x1024x128_S1x1024x128_0_0_0).toLoadRect f1)
          (View.readAt (Elt F) v5 (Rect.unit (s := S1x1024x128) ![0, 0, 0] S1x1024x128.size inb_S1x1024x128_S1x1024x128_0_0_0).toLoadRect f2) (View.readAt (Elt F) v8 (Rect.unit (s := S1024x128) ![0, 0] S1024x128.size inb_S1024x128_S1024x128_0_0).toLoadRect fs)⟩]
      = accStep (View.read (Elt F) v3 f0) (View.read (Elt F) v4 f1) (View.read (Elt F) v5 f2) (some (View.read (Elt F) v8 fs)) := by
  unfold accStep
  simp only [View.readAt_eq_ld]

/-- The stored value when the accumulator has just been cleared: `accStep` over nothing. -/
theorem accStep_none_eq :
    View.canon [⟨(Rect.unit (s := S1024x128) ![0, 0] S1024x128.size inb_S1024x128_S1024x128_0_0),
        k1_pay2 (View.readAt (Elt F) v3 (Rect.unit (s := S1x1024x128) ![0, 0, 0] S1x1024x128.size inb_S1x1024x128_S1x1024x128_0_0_0).toLoadRect f0) (View.readAt (Elt F) v4 (Rect.unit (s := S1x1024x128) ![0, 0, 0] S1x1024x128.size inb_S1x1024x128_S1x1024x128_0_0_0).toLoadRect f1)
          (View.readAt (Elt F) v5 (Rect.unit (s := S1x1024x128) ![0, 0, 0] S1x1024x128.size inb_S1x1024x128_S1x1024x128_0_0_0).toLoadRect f2)
          (v8.readCov [⟨(Rect.unit (s := S1024x128) ![0, 0] S1024x128.size inb_S1024x128_S1024x128_0_0), k1_pay1 (F := F)⟩] (Rect.unit (s := S1024x128) ![0, 0] S1024x128.size inb_S1024x128_S1024x128_0_0).toLoadRect)⟩]
      = accStep (View.read (Elt F) v3 f0) (View.read (Elt F) v4 f1) (View.read (Elt F) v5 f2) none := by
  rw [View.readCov_eq_canon_ld _ _ rA (cover1_acc _)]
  unfold accStep
  simp only [View.readAt_eq_ld]

/-- One store into the accumulator: it holds the stored value. -/
theorem close1_acc (P : Vec F S1024x128 .f32) (acc : Vec F S1024x128 .f32) (hacc : View.canon [⟨(Rect.unit (s := S1024x128) ![0, 0] S1024x128.size inb_S1024x128_S1024x128_0_0), P⟩] = acc) :
    View.read (Elt F) v8 (v8.writes (Elt F) fs [⟨(Rect.unit (s := S1024x128) ![0, 0] S1024x128.size inb_S1024x128_S1024x128_0_0), P⟩]) = acc :=
  (View.read_writes_eq_canon _ _ _ (cover1_acc _)).trans hacc

omit v3 v4 v5 v6 v7 v8 f0 f1 f2 f3 f4 fs in
/-- Two stores through the whole accumulator cover it, as the later one alone does. -/
theorem cover1_acc2 (P Z : Vec F S1024x128 .f32) (y : S1024x128.Idx) :
    ∃ pc ∈ ([⟨rA, P⟩, ⟨rA, Z⟩] : List (View.Piece (Elt F) S1024x128 .f32)), y ∈ pc.1.set := by
  obtain ⟨pc, hm, hy⟩ := cover1_acc P y
  exact ⟨pc, List.mem_cons.mpr (Or.inl (List.mem_singleton.mp hm)), hy⟩

/-- Two stores into the accumulator, the clearing one first: it holds the second stored value. -/
theorem close1_acc2 (P Z : Vec F S1024x128 .f32) (acc : Vec F S1024x128 .f32) (hacc : View.canon [⟨(Rect.unit (s := S1024x128) ![0, 0] S1024x128.size inb_S1024x128_S1024x128_0_0), P⟩] = acc) :
    View.read (Elt F) v8 (v8.writes (Elt F) fs [⟨(Rect.unit (s := S1024x128) ![0, 0] S1024x128.size inb_S1024x128_S1024x128_0_0), P⟩, ⟨(Rect.unit (s := S1024x128) ![0, 0] S1024x128.size inb_S1024x128_S1024x128_0_0), Z⟩]) = acc :=
  (View.read_writes_eq_canon _ _ _ (cover1_acc2 P Z)).trans ((canon1_rA_cons P _).trans hacc)

/-- The store into the output buffer, of the accumulator read back after its store and the residual block. -/
theorem close1_out (P : Vec F S1024x128 .f32) (acc : Vec F S1024x128 .f32) (hacc : View.canon [⟨(Rect.unit (s := S1024x128) ![0, 0] S1024x128.size inb_S1024x128_S1024x128_0_0), P⟩] = acc) :
    View.read (Elt F) v7 (v7.writes (Elt F) f4
        [⟨(Rect.unit (s := S1x1024x128) ![0, 0, 0] S1x1024x128.size inb_S1x1024x128_S1x1024x128_0_0_0), k1_pay3 (v8.readCov [⟨(Rect.unit (s := S1024x128) ![0, 0] S1024x128.size inb_S1024x128_S1024x128_0_0), P⟩] (Rect.unit (s := S1024x128) ![0, 0] S1024x128.size inb_S1024x128_S1024x128_0_0).toLoadRect) (View.readAt (Elt F) v6 (Rect.unit (s := S1x1024x128) ![0, 0, 0] S1x1024x128.size inb_S1x1024x128_S1x1024x128_0_0_0).toLoadRect f3)⟩])
      = out1_4 acc (View.read (Elt F) v6 f3) := by
  subst hacc
  refine (View.read_writes_eq_canon _ _ _ (cover1_blk _)).trans ?_
  rw [View.readCov_eq_canon_ld _ _ rA (cover1_acc _)]
  unfold out1_4
  simp only [View.readAt_eq_ld]

end Closers

/-! ## The body's three runs -/

set_option maxHeartbeats 4000000 in
/-- Key-block coordinate 0: the accumulator, whatever it held, is cleared and then receives the blocks'
    contribution; the output buffer is untouched. -/
theorem run1_first (c : Dev nD) (E : Set ℕ) (i : grid1.Coords) (arg3 : Memref sig .tc .vmem S1x1024x128 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x1024x128 .f32) (harg6 : arg6.IsWhole) (arg7 : Memref sig .tc .vmem S1x1024x128 .f32) (harg7 : arg7.IsWhole) (arg8 : Memref sig .tc .vmem S1024x128 .f32) (harg8 : arg8.IsWhole)
    (hc0 : cond1_0 i) (hc1 : ¬cond1_1 i)
    (x0 x1 x2 x3 xi4 : Vec F S1x1024x128 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare xi4 ∗ (∃ d, owns (c : Thread nD τ) arg8 fullShare d)
        ∗ (iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare xi4
            ∗ owns (c : Thread nD τ) arg8 fullShare (accStep x0 x1 x2 none)) -∗ K ⟨⟩))
      ⊢ wp frame (wpE (defs₀ (F := F)) Variants.none c none) E (cc1__attn_kernel i arg3 harg3 arg4 harg4 arg5 harg5 arg6 harg6 arg7 harg7 arg8 harg8) K := by
  simp only [cc1__attn_kernel_eq_skeleton]; unfold cc1__attn_kernel_skel
  unfold owns
  iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
  subst hf0; subst hf1; subst hf2; subst hf3; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact HS
  ipureintro
  sl_unfold_run_names
  exact close1_acc2 _ _ _ _ _ (accStep_none_eq _ _ _ _ _ _ _)

set_option maxHeartbeats 4000000 in
/-- Key-block coordinates 1 and 2: the accumulator receives the blocks' contribution on top of what the position
    before left; the output buffer is untouched. -/
theorem run1_mid (c : Dev nD) (E : Set ℕ) (i : grid1.Coords) (arg3 : Memref sig .tc .vmem S1x1024x128 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x1024x128 .f32) (harg6 : arg6.IsWhole) (arg7 : Memref sig .tc .vmem S1x1024x128 .f32) (harg7 : arg7.IsWhole) (arg8 : Memref sig .tc .vmem S1024x128 .f32) (harg8 : arg8.IsWhole)
    (hc0 : ¬cond1_0 i) (hc1 : ¬cond1_1 i)
    (x0 x1 x2 x3 xi4 : Vec F S1x1024x128 .f32) (s : Vec F S1024x128 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare xi4 ∗ owns (c : Thread nD τ) arg8 fullShare s
        ∗ (iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare xi4
            ∗ owns (c : Thread nD τ) arg8 fullShare (accStep x0 x1 x2 (some s))) -∗ K ⟨⟩))
      ⊢ wp frame (wpE (defs₀ (F := F)) Variants.none c none) E (cc1__attn_kernel i arg3 harg3 arg4 harg4 arg5 harg5 arg6 harg6 arg7 harg7 arg8 harg8) K := by
  simp only [cc1__attn_kernel_eq_skeleton]; unfold cc1__attn_kernel_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  subst hf0; subst hf1; subst hf2; subst hf3; subst hf4; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact HS
  ipureintro
  sl_unfold_run_names
  exact close1_acc _ _ _ _ (accStep_some_eq _ _ _ _ _ _ _ _)

set_option maxHeartbeats 4000000 in
/-- Key-block coordinate 3: the accumulator receives the last contribution, and the output buffer, whatever it
    held, is stored the accumulator plus the residual block. -/
theorem run1_last (c : Dev nD) (E : Set ℕ) (i : grid1.Coords) (arg3 : Memref sig .tc .vmem S1x1024x128 .f32) (harg3 : arg3.IsWhole) (arg4 : Memref sig .tc .vmem S1x1024x128 .f32) (harg4 : arg4.IsWhole) (arg5 : Memref sig .tc .vmem S1x1024x128 .f32) (harg5 : arg5.IsWhole) (arg6 : Memref sig .tc .vmem S1x1024x128 .f32) (harg6 : arg6.IsWhole) (arg7 : Memref sig .tc .vmem S1x1024x128 .f32) (harg7 : arg7.IsWhole) (arg8 : Memref sig .tc .vmem S1024x128 .f32) (harg8 : arg8.IsWhole)
    (hc0 : ¬cond1_0 i) (hc1 : cond1_1 i)
    (x0 x1 x2 x3 : Vec F S1x1024x128 .f32) (s : Vec F S1024x128 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ (∃ d, owns (c : Thread nD τ) arg7 fullShare d) ∗ owns (c : Thread nD τ) arg8 fullShare s
        ∗ (iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare (out1_4 (accStep x0 x1 x2 (some s)) x3)
            ∗ owns (c : Thread nD τ) arg8 fullShare (accStep x0 x1 x2 (some s))) -∗ K ⟨⟩))
      ⊢ wp frame (wpE (defs₀ (F := F)) Variants.none c none) E (cc1__attn_kernel i arg3 harg3 arg4 harg4 arg5 harg5 arg6 harg6 arg7 harg7 arg8 harg8) K := by
  simp only [cc1__attn_kernel_eq_skeleton]; unfold cc1__attn_kernel_skel
  unfold owns
  iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
  subst hf0; subst hf1; subst hf2; subst hf3; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_run_names
    exact close1_out _ _ _ _ _ _ _ (accStep_some_eq _ _ _ _ _ _ _ _)
  iexists _; isplitr
  swap; · iexact HS
  ipureintro
  sl_unfold_run_names
  exact close1_acc _ _ _ _ (accStep_some_eq _ _ _ _ _ _ _ _)

/-! ## The proof data, projected -/

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (acc1 V c t.val t.isLt) (iblk1 V c 3 t) := by dsimp only [dat1]

/-- The invariant before a position (the proof data at `t.castSucc`) and after it (`t.succ`), by the position's number. -/
theorem Phi1_eq (c : Dev nD) (x : Fin (cfg1.N + 1)) :
    (dat1 V c).Φ x = PhiS V c x.val (Nat.le_of_lt_succ x.isLt) := by dsimp only [dat1]
theorem Phi1_castSucc (c : Dev nD) (t : Fin cfg1.N) :
    (dat1 V c).Φ t.castSucc = PhiS V c t.val (Nat.le_of_lt t.isLt) := by
  dsimp only [dat1]; simp only [Fin.coe_castSucc]
theorem Phi1_succ (c : Dev nD) (t : Fin cfg1.N) :
    (dat1 V c).Φ t.succ = PhiS V c (t.val + 1) t.isLt := by
  dsimp only [dat1]; simp only [Fin.val_succ]

/-! ## What the body finds in the input windows' buffers -/

/-- Each input window's current buffer holds the window's block at every position, fetched there or not: where it
    is not fetched the block index has not moved since the position before. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

/-- An input window's buffer is left at its block. -/
theorem leaves1_0 (c : Dev nD) (t : Fin cfg1.N) :
    (dat1 V c).leavesExact 0 t = owns (c : Thread nD τ) (st1_0 t) fullShare (iblk1 V c 0 t) := by
  unfold Dat.leavesExact; rw [liveAt1_0 (grid1.coords t), after1_0]
theorem leaves1_1 (c : Dev nD) (t : Fin cfg1.N) :
    (dat1 V c).leavesExact 1 t = owns (c : Thread nD τ) (st1_1 t) fullShare (iblk1 V c 1 t) := by
  unfold Dat.leavesExact; rw [liveAt1_1 (grid1.coords t), after1_1]
theorem leaves1_2 (c : Dev nD) (t : Fin cfg1.N) :
    (dat1 V c).leavesExact 2 t = owns (c : Thread nD τ) (st1_2 t) fullShare (iblk1 V c 2 t) := by
  unfold Dat.leavesExact; rw [liveAt1_2 (grid1.coords t), after1_2]
theorem leaves1_3 (c : Dev nD) (t : Fin cfg1.N) :
    (dat1 V c).leavesExact 3 t = owns (c : Thread nD τ) (st1_3 t) fullShare (iblk1 V c 3 t) := by
  unfold Dat.leavesExact; rw [liveAt1_3 (grid1.coords t), after1_3]
/-- At a position ≡ 3 (mod 4) the output buffer is left at the accumulator plus the residual block. -/
theorem leaves1_4_last (c : Dev nD) (t : Fin cfg1.N) (h : cond1_1 (grid1.coords t)) :
    (dat1 V c).leavesExact 4 t
      = owns (c : Thread nD τ) (st1_4 t) fullShare (out1_4 (acc1 V c t.val t.isLt) (iblk1 V c 3 t)) := by
  unfold Dat.leavesExact; rw [liveAt1_4 (grid1.coords t) h, after1_4]

/-! ## The accumulator, position by position -/

/-- At a position ≡ 0 (mod 4) the accumulator starts afresh. -/
theorem acc1_first (c : Dev nD) (t : Fin cfg1.N) (h0 : t.val % 4 = 0) :
    acc1 V c t.val t.isLt = accStep (iblk1 V c 0 t) (iblk1 V c 1 t) (iblk1 V c 2 t) none := by
  obtain ⟨n, hn⟩ := t
  cases n with
  | zero => rfl
  | succ n =>
    show acc1 V c (n + 1) hn = _
    rw [acc1, if_pos h0]

/-- Elsewhere it continues from the position before. -/
theorem acc1_next (c : Dev nD) (t : Fin cfg1.N) (h0 : ¬t.val % 4 = 0) :
    acc1 V c t.val t.isLt = accStep (iblk1 V c 0 t) (iblk1 V c 1 t) (iblk1 V c 2 t)
      (some (acc1 V c (t.val - 1) (Nat.lt_of_le_of_lt (Nat.sub_le _ _) t.isLt))) := by
  obtain ⟨n, hn⟩ := t
  cases n with
  | zero => exact absurd (Nat.zero_mod _) h0
  | succ n =>
    show acc1 V c (n + 1) hn = _
    rw [acc1, if_neg h0]; rfl

/-! ## The region invariant, opened and closed -/

/-- What the invariant holds besides the accumulator: launch 0's staging buffers, each at some contents, and the
    generator register at some state. -/
def Rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ r, prngReg c r))

/-- The scoped buffers with the accumulator last at `P`, and the register: the accumulator taken out. -/
theorem chain1_open (c : Dev nD) (P : sProp 𝕄) :
    iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ P) ∗ (∃ r, prngReg c r)) ⊢ iprop(Rest1 (F := F) c ∗ P) := by
  unfold Rest1
  iintro ⟨⟨R0, R1, R2, R3, R4, R5, R6, R7, R8, R9, R10, R11, HP⟩, Hg⟩
  isplitr [HP]
  swap; · iexact HP
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  iexact Hg

/-- and put back. -/
theorem chain1_close (c : Dev nD) (P : sProp 𝕄) :
    iprop(Rest1 (F := F) c ∗ P) ⊢ iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ P) ∗ (∃ r, prngReg c r)) := by
  unfold Rest1
  iintro ⟨⟨R0, R1, R2, R3, R4, R5, R6, R7, R8, R9, R10, R11, Hg⟩, HP⟩
  isplitr [Hg]
  swap; · iexact Hg
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  iexact HP

/-- The launch's own invariant, with the accumulator as a memref owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ d, owns (c : Thread nD τ) scM fullShare d)) ∗ (∃ r, prngReg c r)) := by
  unfold Pipeline.ΦA; rw [scopedRest1_eq]; simp only [scM, owns_whole]; try rfl

/-- Before any position the accumulator is there, at some contents. -/
theorem PhiS_open_any (c : Dev nD) : (n : ℕ) → (h : n ≤ cfg1.N) →
    PhiS V c n h ⊢ iprop(Rest1 (F := F) c ∗ ∃ d, owns (c : Thread nD τ) scM fullShare d)
  | 0, _ => by
    show (Pipeline.ΦA spec1 c : sProp 𝕄) ⊢ _
    rw [PhiA1_eq]; exact chain1_open c _
  | n + 1, h => by
    refine (chain1_open c _).trans (sep_mono .rfl ?_)
    iintro H; iexists _; iexact H

/-- Before a position that is not the first it holds what the position before left. -/
theorem PhiS_open_pos (c : Dev nD) (n : ℕ) (h : n ≤ cfg1.N) (hz : n ≠ 0) :
    PhiS V c n h ⊢ iprop(Rest1 (F := F) c ∗ owns (c : Thread nD τ) scM fullShare (acc1 V c (n - 1) (by omega))) := by
  cases n with
  | zero => exact absurd rfl hz
  | succ n => exact chain1_open c _

/-- After position `n` the invariant takes the accumulator back at that position's contents. -/
theorem PhiS_close (c : Dev nD) (n : ℕ) (hn : n < cfg1.N) :
    iprop(Rest1 (F := F) c ∗ owns (c : Thread nD τ) scM fullShare (acc1 V c n hn)) ⊢ PhiS V c (n + 1) hn :=
  chain1_close c _

/-- At any position the invariant gives the launch's own back: the accumulator's contents are forgotten. -/
theorem PhiS_out (c : Dev nD) (n : ℕ) (h : n ≤ cfg1.N) : PhiS V c n h ⊢ (Pipeline.ΦA spec1 c : sProp 𝕄) := by
  rw [PhiA1_eq]; exact (PhiS_open_any V c n h).trans (chain1_close c _)

theorem hin1 (c : Dev nD) : (Pipeline.ΦA spec1 c : sProp 𝕄) ⊢ (dat1 V c).Φ 0 := by
  rw [Phi1_eq]; exact Entails.of_eq rfl

theorem hout1 (c : Dev nD) : (dat1 V c).Φ (Fin.last cfg1.N) ⊢ (Pipeline.ΦA spec1 c : sProp 𝕄) := by
  rw [Phi1_eq]; exact PhiS_out V c _ _

/-! ## The body obligation, at a generic position -/

/-- What the body is handed at position `t`: the invariant, the core's debts (none) and the five windows' current buffers, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it hands back. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4000000 in
/-- The body at any position.  The input buffers hold their blocks; the position's residue mod 4 says which of the
    three runs applies; the invariant lends the accumulator (at anything when it is about to be cleared, at what the
    position before left otherwise) and takes it back at this position's `acc1`; the output buffer comes back as it
    was, or, at residue 3, holding the accumulator plus the residual block. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [leaves1_0, leaves1_1, leaves1_2, leaves1_3, Phi1_succ, Phi1_castSucc]
  have hN : t.val < 64 := lt_of_lt_of_eq t.isLt (show cfg1.N = 64 from N_1)
  by_cases h0 : t.val % 4 = 0
  · have hc0 : cond1_0 (grid1.coords t) := (hcond1_0 t).mpr h0
    have h1 : ¬t.val % 4 = 3 := by omega
    have hc1 : ¬cond1_1 (grid1.coords t) := fun h => h1 ((hcond1_1 t).mp h)
    rw [Dat.leavesExact_idle (dat1 V c) 4 t (idleAt1_4 _ hc1) (noFlush1_4 t h1)]
    iintro ⟨HΦ, Ho, ⟨%d0, H0⟩, ⟨%d1, H1⟩, ⟨%d2, H2⟩, ⟨%d3, H3⟩, ⟨%d4, H4⟩⟩
    ihave ⟨HR, HS⟩ := (PhiS_open_any V c t.val (Nat.le_of_lt t.isLt)) $$ HΦ
    iapply (run1_first c Set.univ (grid1.coords t) _ _ _ _ _ _ _ _ _ _ _ _ hc0 hc1
      (iblk1 V c 0 t) (iblk1 V c 1 t) (iblk1 V c 2 t) (iblk1 V c 3 t) ((dat1 V c).before 4 t d4) _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [HR HS]
    · iapply (PhiS_close V c t.val t.isLt)
      rw [acc1_first V c t h0]
      isplitl [HR]; · iexact HR
      iexact HS
    isplitl [Ho]; · iexact Ho
    isplitl [H0]; · iexact H0
    isplitl [H1]; · iexact H1
    isplitl [H2]; · iexact H2
    isplitl [H3]; · iexact H3
    iexists d4; iexact H4
  · have hc0 : ¬cond1_0 (grid1.coords t) := fun h => h0 ((hcond1_0 t).mp h)
    have hz : t.val ≠ 0 := fun h => h0 (by rw [h])
    by_cases h1 : t.val % 4 = 3
    · have hc1 : cond1_1 (grid1.coords t) := (hcond1_1 t).mpr h1
      rw [leaves1_4_last V c t hc1]
      iintro ⟨HΦ, Ho, ⟨%d0, H0⟩, ⟨%d1, H1⟩, ⟨%d2, H2⟩, ⟨%d3, H3⟩, ⟨%d4, H4⟩⟩
      ihave ⟨HR, HS⟩ := (PhiS_open_pos V c t.val (Nat.le_of_lt t.isLt) hz) $$ HΦ
      iapply (run1_last c Set.univ (grid1.coords t) _ _ _ _ _ _ _ _ _ _ _ _ hc0 hc1
        (iblk1 V c 0 t) (iblk1 V c 1 t) (iblk1 V c 2 t) (iblk1 V c 3 t) (acc1 V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexists _; iexact H4
      isplitl [HS]; · iexact HS
      rw [← acc1_next V c t h0]
      iintro ⟨H0, H1, H2, H3, H4, HS⟩
      isplitl [HR HS]
      · iapply (PhiS_close V c t.val t.isLt)
        isplitl [HR]; · iexact HR
        iexact HS
      isplitl [Ho]; · iexact Ho
      isplitl [H0]; · iexact H0
      isplitl [H1]; · iexact H1
      isplitl [H2]; · iexact H2
      isplitl [H3]; · iexact H3
      iexact H4
    · have hc1 : ¬cond1_1 (grid1.coords t) := fun h => h1 ((hcond1_1 t).mp h)
      rw [Dat.leavesExact_idle (dat1 V c) 4 t (idleAt1_4 _ hc1) (noFlush1_4 t h1)]
      iintro ⟨HΦ, Ho, ⟨%d0, H0⟩, ⟨%d1, H1⟩, ⟨%d2, H2⟩, ⟨%d3, H3⟩, ⟨%d4, H4⟩⟩
      ihave ⟨HR, HS⟩ := (PhiS_open_pos V c t.val (Nat.le_of_lt t.isLt) hz) $$ HΦ
      iapply (run1_mid c Set.univ (grid1.coords t) _ _ _ _ _ _ _ _ _ _ _ _ hc0 hc1
        (iblk1 V c 0 t) (iblk1 V c 1 t) (iblk1 V c 2 t) (iblk1 V c 3 t) ((dat1 V c).before 4 t d4) (acc1 V c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [HS]; · iexact HS
      rw [← acc1_next V c t h0]
      iintro ⟨H0, H1, H2, H3, H4, HS⟩
      isplitl [HR HS]
      · iapply (PhiS_close V c t.val t.isLt)
        isplitl [HR]; · iexact HR
        iexact HS
      isplitl [Ho]; · iexact Ho
      isplitl [H0]; · iexact H0
      isplitl [H1]; · iexact H1
      isplitl [H2]; · iexact H2
      isplitl [H3]; · iexact H3
      iexists d4; iexact H4

/-- The library's body obligation for launch 1, at every position. -/
theorem body_obligation1 (c : Dev nD) :
    BodyObligation (dat1 (F := F) V c) (defs₀ (F := F)) Variants.none () Set.univ := fun t => by
  rw [bigSep_W1, bigSep_W1]
  exact sound_body1 V c t

end Cert.KernelIdeal.Hand

end
-- ==== Proof.KI.Args.lean ====
/-
  The six argument arrays end as launched.

  No host reshape writes an argument (each writes a fresh buffer), and no launch's output array is an argument: launch 0
  reads the two weight matrices through input windows, which are never written back, and does not touch the other four
  arguments; launch 1 writes one buffer, which is no argument.  So the contents after the whole program, read at an
  argument's buffer, walk back through the four boundaries to the launch memory.
-/
import proofs.«140727_j37993280700496_1_alg».proof.Proof.KI.Run

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable {F : FTy → Type} [FloatOps F]

-- The launch memory.
variable (m : (ℓ : Loc nD τ sig) → Buf (Elt F) ℓ)

theorem W4_main_arg0 (c : Dev nD) : W4 m c (Proc.devRef .tc main_arg0) = m ((c : Thread nD τ).loc main_arg0) :=
  calc W4 m c (Proc.devRef .tc main_arg0)
    _ = W3 m c (Proc.devRef .tc main_arg0) := StableHlo.after_of_forall_not_mem (b := Proc.devRef .tc main_arg0) _ _ (List.forall_iff_forall_mem.mp (by
          simp only [hostOps2, List.Forall, StableHlo.reshape_writes, Finset.mem_singleton]
          repeat' apply And.intro
          all_goals exact StableHlo.devRef_ne_of_ne (by decide)))
    _ = W2 m c (Proc.devRef .tc main_arg0) := Function.update_of_ne (StableHlo.devRef_ne_of_ne (by decide)) _ _
    _ = W1 m c (Proc.devRef .tc main_arg0) := W2_of_ne m c main_arg0 (by decide)
    _ = W0 m c (Proc.devRef .tc main_arg0) := StableHlo.after_of_forall_not_mem (b := Proc.devRef .tc main_arg0) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg0) := rfl

theorem W4_main_arg1 (c : Dev nD) : W4 m c (Proc.devRef .tc main_arg1) = m ((c : Thread nD τ).loc main_arg1) :=
  calc W4 m c (Proc.devRef .tc main_arg1)
    _ = W3 m c (Proc.devRef .tc main_arg1) := StableHlo.after_of_forall_not_mem (b := Proc.devRef .tc main_arg1) _ _ (List.forall_iff_forall_mem.mp (by
          simp only [hostOps2, List.Forall, StableHlo.reshape_writes, Finset.mem_singleton]
          repeat' apply And.intro
          all_goals exact StableHlo.devRef_ne_of_ne (by decide)))
    _ = W2 m c (Proc.devRef .tc main_arg1) := Function.update_of_ne (StableHlo.devRef_ne_of_ne (by decide)) _ _
    _ = W1 m c (Proc.devRef .tc main_arg1) := W2_of_ne m c main_arg1 (by decide)
    _ = W0 m c (Proc.devRef .tc main_arg1) := StableHlo.after_of_forall_not_mem (b := Proc.devRef .tc main_arg1) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg1) := rfl

theorem W4_main_arg2 (c : Dev nD) : W4 m c (Proc.devRef .tc main_arg2) = m ((c : Thread nD τ).loc main_arg2) :=
  calc W4 m c (Proc.devRef .tc main_arg2)
    _ = W3 m c (Proc.devRef .tc main_arg2) := StableHlo.after_of_forall_not_mem (b := Proc.devRef .tc main_arg2) _ _ (List.forall_iff_forall_mem.mp (by
          simp only [hostOps2, List.Forall, StableHlo.reshape_writes, Finset.mem_singleton]
          repeat' apply And.intro
          all_goals exact StableHlo.devRef_ne_of_ne (by decide)))
    _ = W2 m c (Proc.devRef .tc main_arg2) := Function.update_of_ne (StableHlo.devRef_ne_of_ne (by decide)) _ _
    _ = W1 m c (Proc.devRef .tc main_arg2) :=
        (W2_arr m c 2).trans (((dat0 (V1 m) c).arrAt_in 2 rfl _).trans (by dsimp only [dat0]))
    _ = W0 m c (Proc.devRef .tc main_arg2) := StableHlo.after_of_forall_not_mem (b := Proc.devRef .tc main_arg2) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg2) := rfl

theorem W4_main_arg3 (c : Dev nD) : W4 m c (Proc.devRef .tc main_arg3) = m ((c : Thread nD τ).loc main_arg3) :=
  calc W4 m c (Proc.devRef .tc main_arg3)
    _ = W3 m c (Proc.devRef .tc main_arg3) := StableHlo.after_of_forall_not_mem (b := Proc.devRef .tc main_arg3) _ _ (List.forall_iff_forall_mem.mp (by
          simp only [hostOps2, List.Forall, StableHlo.reshape_writes, Finset.mem_singleton]
          repeat' apply And.intro
          all_goals exact StableHlo.devRef_ne_of_ne (by decide)))
    _ = W2 m c (Proc.devRef .tc main_arg3) := Function.update_of_ne (StableHlo.devRef_ne_of_ne (by decide)) _ _
    _ = W1 m c (Proc.devRef .tc main_arg3) := W2_of_ne m c main_arg3 (by decide)
    _ = W0 m c (Proc.devRef .tc main_arg3) := StableHlo.after_of_forall_not_mem (b := Proc.devRef .tc main_arg3) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg3) := rfl

theorem W4_main_arg4 (c : Dev nD) : W4 m c (Proc.devRef .tc main_arg4) = m ((c : Thread nD τ).loc main_arg4) :=
  calc W4 m c (Proc.devRef .tc main_arg4)
    _ = W3 m c (Proc.devRef .tc main_arg4) := StableHlo.after_of_forall_not_mem (b := Proc.devRef .tc main_arg4) _ _ (List.forall_iff_forall_mem.mp (by
          simp only [hostOps2, List.Forall, StableHlo.reshape_writes, Finset.mem_singleton]
          repeat' apply And.intro
          all_goals exact StableHlo.devRef_ne_of_ne (by decide)))
    _ = W2 m c (Proc.devRef .tc main_arg4) := Function.update_of_ne (StableHlo.devRef_ne_of_ne (by decide)) _ _
    _ = W1 m c (Proc.devRef .tc main_arg4) :=
        (W2_arr m c 4).trans (((dat0 (V1 m) c).arrAt_in 4 rfl _).trans (by dsimp only [dat0]))
    _ = W0 m c (Proc.devRef .tc main_arg4) := StableHlo.after_of_forall_not_mem (b := Proc.devRef .tc main_arg4) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg4) := rfl

theorem W4_main_arg5 (c : Dev nD) : W4 m c (Proc.devRef .tc main_arg5) = m ((c : Thread nD τ).loc main_arg5) :=
  calc W4 m c (Proc.devRef .tc main_arg5)
    _ = W3 m c (Proc.devRef .tc main_arg5) := StableHlo.after_of_forall_not_mem (b := Proc.devRef .tc main_arg5) _ _ (List.forall_iff_forall_mem.mp (by
          simp only [hostOps2, List.Forall, StableHlo.reshape_writes, Finset.mem_singleton]
          repeat' apply And.intro
          all_goals exact StableHlo.devRef_ne_of_ne (by decide)))
    _ = W2 m c (Proc.devRef .tc main_arg5) := Function.update_of_ne (StableHlo.devRef_ne_of_ne (by decide)) _ _
    _ = W1 m c (Proc.devRef .tc main_arg5) := W2_of_ne m c main_arg5 (by decide)
    _ = W0 m c (Proc.devRef .tc main_arg5) := StableHlo.after_of_forall_not_mem (b := Proc.devRef .tc main_arg5) _ _ (List.forall_iff_forall_mem.mp (by
          simp only [hostOps0, List.Forall, StableHlo.reshape_writes, Finset.mem_singleton]
          repeat' apply And.intro
          all_goals exact StableHlo.devRef_ne_of_ne (by decide)))
    _ = m ((c : Thread nD τ).loc main_arg5) := rfl

end Cert.KernelIdeal.Hand

end
-- ==== Proof.KI.Payload.lean ====
/-
  The kernel bodies' arithmetic read at one index, at the ideal values (every float an extended real, every operation
  exact, a change of float format the identity).

  Each payload of the two kernel functions is a chain of layout operations around one or two matrix products into a zero
  accumulator.  Read at an index: a matrix product into zero is the plain sum over the contracted axis of the operands'
  products; a cast that adds or drops a leading unit axis, a transpose and a row broadcast each read one element of their
  operand.  So
    • a projection block is  Σ_c x[0, r, c] · W[c, f] + b[0, f];
    • the attention step adds to the carried block  Σ_j logistic(Σ_c q[0, r, c] · k[0, j, c]) · v[0, j, f];
    • the first step's initial block is 0, and the last step's output block is the carried block plus the residual block.
-/
import proofs.«140727_j37993280700496_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand

open Idealize.ShloMosaic Idealize.ShloMosaic.ValueIdx Cert.KernelIdeal

/-! ## The three matrix products into a zero accumulator, read at an index

Each has one contracted axis, the left operand's columns against the right operand's rows, and no batch axis: at the
output index (r, f) and contraction coordinate c the operands are read at (r, c) and (c, f). -/

/-- The dimension numbers of the projections' product, [1024,128] × [128,128]. -/
abbrev dotP : DotDims S1024x128 S128x128 S1024x128 := dot_S1024x128_S128x128_S1024x128_1_0_0_1_n_n
/-- The dimension numbers of the logits' product, [1024,128] × [128,1024]. -/
abbrev dotS : DotDims S1024x128 S128x1024 S1024x1024 := dot_S1024x128_S128x1024_S1024x1024_1_0_0_1_n_n
/-- The dimension numbers of the weighted sum's product, [1024,1024] × [1024,128]. -/
abbrev dotA : DotDims S1024x1024 S1024x128 S1024x128 := dot_S1024x1024_S1024x128_S1024x128_1_0_0_1_n_n

theorem dotP_lhs0 (i : S1024x128.Idx) (q : dotP.contr.Idx) : (dotP.lhsIdx i q 0).val = (i 0).val := by
  unfold DotDims.lhsIdx
  rw [dif_neg (show ¬(0 : Fin S1024x128.rank) ∈ dotP.lhsBatch by decide),
    dif_pos (show (0 : Fin S1024x128.rank) ∈ dotP.lhsNonContracting by decide)]
  rfl
theorem dotP_lhs1 (i : S1024x128.Idx) (q : dotP.contr.Idx) : (dotP.lhsIdx i q 1).val = (q ⟨0, by decide⟩).val :=
  dotP.lhsIdx_val_of_single rfl i q
theorem dotP_rhs0 (i : S1024x128.Idx) (q : dotP.contr.Idx) : (dotP.rhsIdx i q 0).val = (q ⟨0, by decide⟩).val :=
  dotP.rhsIdx_val_of_single rfl i q
theorem dotP_rhs1 (i : S1024x128.Idx) (q : dotP.contr.Idx) : (dotP.rhsIdx i q 1).val = (i 1).val := by
  unfold DotDims.rhsIdx
  rw [dif_neg (show ¬(1 : Fin S128x128.rank) ∈ dotP.rhsBatch by decide),
    dif_pos (show (1 : Fin S128x128.rank) ∈ dotP.rhsNonContracting by decide)]
  rfl

/-- The projections' product into zero at (r, f): the sum over the 128 input channels. -/
theorem matmulP_apply {φ₁ φ₂ : FTy} (lhs : FVec Ideal S1024x128 φ₁) (rhs : FVec Ideal S128x128 φ₂) (r : Fin 1024) (f : Fin 128) :
    matmul dotP none lhs rhs (constant S1024x128 .f32 0x00000000#32) (ix2 r f) = ∑ c : Fin 128, lhs (ix2 r c) * rhs (ix2 c f) := by
  refine (Ideal.matmul_constant_zero_apply dotP none lhs rhs (ix2 r f)).trans ?_
  rw [← Equiv.sum_comp (contrEquiv1 dotP 128 rfl rfl).symm]
  refine Finset.sum_congr rfl fun k _ => ?_
  have hk := contrEquiv1_symm_val dotP 128 rfl rfl k
  have el : dotP.lhsIdx (ix2 r f) ((contrEquiv1 dotP 128 rfl rfl).symm k) = ix2 r k := funext fun a => Fin.ext (by
    match a with
    | ⟨0, _⟩ => exact dotP_lhs0 _ _
    | ⟨1, _⟩ => exact (dotP_lhs1 _ _).trans hk)
  have er : dotP.rhsIdx (ix2 r f) ((contrEquiv1 dotP 128 rfl rfl).symm k) = ix2 k f := funext fun a => Fin.ext (by
    match a with
    | ⟨0, _⟩ => exact (dotP_rhs0 _ _).trans hk
    | ⟨1, _⟩ => exact dotP_rhs1 _ _)
  rw [el, er]

theorem dotS_lhs0 (i : S1024x1024.Idx) (q : dotS.contr.Idx) : (dotS.lhsIdx i q 0).val = (i 0).val := by
  unfold DotDims.lhsIdx
  rw [dif_neg (show ¬(0 : Fin S1024x128.rank) ∈ dotS.lhsBatch by decide),
    dif_pos (show (0 : Fin S1024x128.rank) ∈ dotS.lhsNonContracting by decide)]
  rfl
theorem dotS_lhs1 (i : S1024x1024.Idx) (q : dotS.contr.Idx) : (dotS.lhsIdx i q 1).val = (q ⟨0, by decide⟩).val :=
  dotS.lhsIdx_val_of_single rfl i q
theorem dotS_rhs0 (i : S1024x1024.Idx) (q : dotS.contr.Idx) : (dotS.rhsIdx i q 0).val = (q ⟨0, by decide⟩).val :=
  dotS.rhsIdx_val_of_single rfl i q
theorem dotS_rhs1 (i : S1024x1024.Idx) (q : dotS.contr.Idx) : (dotS.rhsIdx i q 1).val = (i 1).val := by
  unfold DotDims.rhsIdx
  rw [dif_neg (show ¬(1 : Fin S128x1024.rank) ∈ dotS.rhsBatch by decide),
    dif_pos (show (1 : Fin S128x1024.rank) ∈ dotS.rhsNonContracting by decide)]
  rfl

/-- The logits' product into zero at (r, j): the sum over the 128 channels. -/
theorem matmulS_apply {φ₁ φ₂ : FTy} (lhs : FVec Ideal S1024x128 φ₁) (rhs : FVec Ideal S128x1024 φ₂) (r : Fin 1024) (f : Fin 1024) :
    matmul dotS none lhs rhs (constant S1024x1024 .f32 0x00000000#32) (ix2 r f) = ∑ c : Fin 128, lhs (ix2 r c) * rhs (ix2 c f) := by
  refine (Ideal.matmul_constant_zero_apply dotS none lhs rhs (ix2 r f)).trans ?_
  rw [← Equiv.sum_comp (contrEquiv1 dotS 128 rfl rfl).symm]
  refine Finset.sum_congr rfl fun k _ => ?_
  have hk := contrEquiv1_symm_val dotS 128 rfl rfl k
  have el : dotS.lhsIdx (ix2 r f) ((contrEquiv1 dotS 128 rfl rfl).symm k) = ix2 r k := funext fun a => Fin.ext (by
    match a with
    | ⟨0, _⟩ => exact dotS_lhs0 _ _
    | ⟨1, _⟩ => exact (dotS_lhs1 _ _).trans hk)
  have er : dotS.rhsIdx (ix2 r f) ((contrEquiv1 dotS 128 rfl rfl).symm k) = ix2 k f := funext fun a => Fin.ext (by
    match a with
    | ⟨0, _⟩ => exact (dotS_rhs0 _ _).trans hk
    | ⟨1, _⟩ => exact dotS_rhs1 _ _)
  rw [el, er]

theorem dotA_lhs0 (i : S1024x128.Idx) (q : dotA.contr.Idx) : (dotA.lhsIdx i q 0).val = (i 0).val := by
  unfold DotDims.lhsIdx
  rw [dif_neg (show ¬(0 : Fin S1024x1024.rank) ∈ dotA.lhsBatch by decide),
    dif_pos (show (0 : Fin S1024x1024.rank) ∈ dotA.lhsNonContracting by decide)]
  rfl
theorem dotA_lhs1 (i : S1024x128.Idx) (q : dotA.contr.Idx) : (dotA.lhsIdx i q 1).val = (q ⟨0, by decide⟩).val :=
  dotA.lhsIdx_val_of_single rfl i q
theorem dotA_rhs0 (i : S1024x128.Idx) (q : dotA.contr.Idx) : (dotA.rhsIdx i q 0).val = (q ⟨0, by decide⟩).val :=
  dotA.rhsIdx_val_of_single rfl i q
theorem dotA_rhs1 (i : S1024x128.Idx) (q : dotA.contr.Idx) : (dotA.rhsIdx i q 1).val = (i 1).val := by
  unfold DotDims.rhsIdx
  rw [dif_neg (show ¬(1 : Fin S1024x128.rank) ∈ dotA.rhsBatch by decide),
    dif_pos (show (1 : Fin S1024x128.rank) ∈ dotA.rhsNonContracting by decide)]
  rfl

/-- The weighted sum's product into zero at (r, f): the sum over the block's 1024 keys. -/
theorem matmulA_apply {φ₁ φ₂ : FTy} (lhs : FVec Ideal S1024x1024 φ₁) (rhs : FVec Ideal S1024x128 φ₂) (r : Fin 1024) (f : Fin 128) :
    matmul dotA none lhs rhs (constant S1024x128 .f32 0x00000000#32) (ix2 r f) = ∑ c : Fin 1024, lhs (ix2 r c) * rhs (ix2 c f) := by
  refine (Ideal.matmul_constant_zero_apply dotA none lhs rhs (ix2 r f)).trans ?_
  rw [← Equiv.sum_comp (contrEquiv1 dotA 1024 rfl rfl).symm]
  refine Finset.sum_congr rfl fun k _ => ?_
  have hk := contrEquiv1_symm_val dotA 1024 rfl rfl k
  have el : dotA.lhsIdx (ix2 r f) ((contrEquiv1 dotA 1024 rfl rfl).symm k) = ix2 r k := funext fun a => Fin.ext (by
    match a with
    | ⟨0, _⟩ => exact dotA_lhs0 _ _
    | ⟨1, _⟩ => exact (dotA_lhs1 _ _).trans hk)
  have er : dotA.rhsIdx (ix2 r f) ((contrEquiv1 dotA 1024 rfl rfl).symm k) = ix2 k f := funext fun a => Fin.ext (by
    match a with
    | ⟨0, _⟩ => exact (dotA_rhs0 _ _).trans hk
    | ⟨1, _⟩ => exact dotA_rhs1 _ _)
  rw [el, er]

/-! ## The projection kernel's two stored blocks -/

/-- The first projection block at (0, r, f): Σ_c x[0, r, c] · W[c, f] + b[0, f]. -/
theorem k0_pay1_apply (v0 : Vec Ideal S1x1024x128 .f32) (v6 : Vec Ideal S128x128 .f32) (v11 : Vec Ideal S1x128 .f32)
    (r : Fin 1024) (f : Fin 128) :
    Gen.k0_pay1 v0 v6 v11 (ix3 (0 : Fin 1) r f)
      = (∑ c : Fin 128, v0 (ix3 (0 : Fin 1) r c) * v6 (ix2 c f)) + v11 (ix2 (0 : Fin 1) f) := by
  unfold Gen.k0_pay1
  refine (shapeCast_ab_1ab_apply _ _ (0 : Fin 1) r f).trans ?_
  refine (addf_apply _ _ _).trans ?_
  refine congrArg₂ (· + ·) ?_ ?_
  · refine (matmulP_apply _ _ r f).trans ?_
    refine Finset.sum_congr rfl fun c _ => ?_
    refine congrArg₂ (· * ·) ?_ rfl
    exact shapeCast_1ab_ab_apply v0 _ r c
  · refine (broadcastTo_1b_ab_apply _ _ r f).trans ?_
    exact congrFun (shapeCast_self v11 _) _

/-- The second projection block at (0, r, f): Σ_c y[0, r, c] · W[c, f] + b[0, f]. -/
theorem k0_pay2_apply (v3 : Vec Ideal S1x1024x128 .f32) (v8 : Vec Ideal S128x128 .f32) (v16 : Vec Ideal S1x128 .f32)
    (r : Fin 1024) (f : Fin 128) :
    Gen.k0_pay2 v3 v8 v16 (ix3 (0 : Fin 1) r f)
      = (∑ c : Fin 128, v3 (ix3 (0 : Fin 1) r c) * v8 (ix2 c f)) + v16 (ix2 (0 : Fin 1) f) := by
  unfold Gen.k0_pay2
  refine (shapeCast_ab_1ab_apply _ _ (0 : Fin 1) r f).trans ?_
  refine (addf_apply _ _ _).trans ?_
  refine congrArg₂ (· + ·) ?_ ?_
  · refine (matmulP_apply _ _ r f).trans ?_
    refine Finset.sum_congr rfl fun c _ => ?_
    refine congrArg₂ (· * ·) ?_ rfl
    exact shapeCast_1ab_ab_apply v3 _ r c
  · refine (broadcastTo_1b_ab_apply _ _ r f).trans ?_
    exact congrFun (shapeCast_self v16 _) _

/-! ## The attention kernel's three stored blocks -/

/-- The block the first step along the key axis starts from is zero everywhere. -/
theorem k1_pay1_apply (r : Fin 1024) (f : Fin 128) : Gen.k1_pay1 (F := Ideal) (ix2 r f) = 0 := by
  unfold Gen.k1_pay1
  refine (congrFun (shapeCast_self _ _) _).trans ?_
  exact Ideal.ofBits_zero_f32

/-- One step along the key axis at (r, f): the carried block plus
    Σ_j logistic(Σ_c q[0, r, c] · k[0, j, c]) · v[0, j, f]. -/
theorem k1_pay2_apply (v3 v6 v9 : Vec Ideal S1x1024x128 .f32) (v16 : Vec Ideal S1024x128 .f32) (r : Fin 1024) (f : Fin 128) :
    Gen.k1_pay2 v3 v6 v9 v16 (ix2 r f)
      = v16 (ix2 r f)
        + ∑ j : Fin 1024, Ideal.logistic (∑ c : Fin 128, v3 (ix3 (0 : Fin 1) r c) * v6 (ix3 (0 : Fin 1) j c)) * v9 (ix3 (0 : Fin 1) j f) := by
  unfold Gen.k1_pay2
  refine (congrFun (shapeCast_self _ _) _).trans ?_
  refine (addf_apply _ _ _).trans ?_
  refine congrArg₂ (· + ·) rfl ?_
  refine (matmulA_apply _ _ r f).trans ?_
  refine Finset.sum_congr rfl fun j _ => ?_
  refine congrArg₂ (· * ·) ?_ ?_
  · refine congrArg Ideal.logistic ?_
    refine (matmulS_apply _ _ r j).trans ?_
    refine Finset.sum_congr rfl fun c _ => ?_
    refine congrArg₂ (· * ·) ?_ ?_
    · exact shapeCast_1ab_ab_apply v3 _ r c
    · refine (transpose_ix2_apply _ _ c j).trans ?_
      exact shapeCast_1ab_ab_apply v6 _ j c
  · exact shapeCast_1ab_ab_apply v9 _ j f

/-- The output block at (0, r, f): the carried block plus the residual block. -/
theorem k1_pay3_apply (v25 : Vec Ideal S1024x128 .f32) (v26 : Vec Ideal S1x1024x128 .f32) (r : Fin 1024) (f : Fin 128) :
    Gen.k1_pay3 v25 v26 (ix3 (0 : Fin 1) r f) = v25 (ix2 r f) + v26 (ix3 (0 : Fin 1) r f) := by
  unfold Gen.k1_pay3
  refine (shapeCast_ab_1ab_apply _ _ (0 : Fin 1) r f).trans ?_
  refine (addf_apply _ _ _).trans ?_
  refine congrArg₂ (· + ·) rfl ?_
  exact shapeCast_1ab_ab_apply v26 _ r f

end Cert.KernelIdeal.Hand

end
-- ==== Proof.KI.Val0.lean ====
/-
  Launch 0 (the two projections): the two output arrays after the launch, as whole-array functions, at the ideal values.

  At grid position t = 4 n + i the launch writes back rows 1024 i … 1024 i + 1023 of image n of xq and of yk.  What it
  writes is the body's one whole-buffer store: at (0, r, f) the sum over c of x[n, 1024 i + r, c] · W[c, f], plus b[0, f] —
  because the activation window's block at t is those rows of the array, and the weight and bias windows' blocks are
  their whole arrays.  So what position t writes back is its block of ONE function of the arrays the launch finds,

      projArr x W b (n, p, f) = Σ_c x[n, p, c] · W[c, f] + b[0, f],

  and every index (n, p, f) lies in the block of position 4 n + p / 1024, which is written back: the arrays end holding
  projArr of the arrays read.
-/
import proofs.«140727_j37993280700496_1_alg».proof.Proof.KI.R0
import proofs.«140727_j37993280700496_1_alg».proof.Proof.KI.Payload
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

-- The TensorCore's buffer contents when the launch is entered.
variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-- The block indices of launch 0's windows at grid position `t`, decided over the 16 positions: the four
    activation windows sit at image `t / 4`, row block `t % 4`; the weight and bias windows never move. -/
theorem idx_facts0 : ∀ t : Fin cfg0.N,
    (win0_6.index t (0 : Fin 3) = t.val / 4 ∧ win0_6.index t (1 : Fin 3) = t.val % 4 ∧ win0_6.index t (2 : Fin 3) = 0)
    ∧ (win0_7.index t (0 : Fin 3) = t.val / 4 ∧ win0_7.index t (1 : Fin 3) = t.val % 4 ∧ win0_7.index t (2 : Fin 3) = 0)
    ∧ (win0_0.index t (0 : Fin 3) = t.val / 4 ∧ win0_0.index t (1 : Fin 3) = t.val % 4 ∧ win0_0.index t (2 : Fin 3) = 0)
    ∧ (win0_1.index t (0 : Fin 3) = t.val / 4 ∧ win0_1.index t (1 : Fin 3) = t.val % 4 ∧ win0_1.index t (2 : Fin 3) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0) :=
  (by decide +kernel : ∀ t : Fin grid0.N, _)

/-- A projection of a whole [4, 4096, 128] array: row `(n, p)` times the weight matrix plus the bias row. -/
def projArr (x : FVec Ideal S4x4096x128 .f32) (W : FVec Ideal S128x128 .f32) (b : FVec Ideal S1x128 .f32) : S4x4096x128.Idx → EReal :=
  fun i => (∑ ch : Fin 128, x (ix3 (i 0) (i 1) ch) * W (ix2 ch (i 2))) + b (ix2 0 (i 2))

theorem projArr_apply (x : FVec Ideal S4x4096x128 .f32) (W : FVec Ideal S128x128 .f32) (b : FVec Ideal S1x128 .f32)
    (n : Fin 4) (p : Fin 4096) (f : Fin 128) :
    projArr x W b (ix3 n p f) = (∑ ch : Fin 128, x (ix3 n p ch) * W (ix2 ch f)) + b (ix2 0 f) := rfl

/-! ## Each window's block, element by element

An element of a window's block at position `t` sits in the window's array, on each axis, at the block index times the
block's extent plus the element's own coordinate. -/

theorem iblk0_0_apply (c : Dev nD) (t : Fin cfg0.N) (y : S1x1024x128.Idx) (k : S4x4096x128.Idx)
    (h0 : (k 0).val = win0_0.index t (0 : Fin 3) * 1 + (y 0).val) (h1 : (k 1).val = win0_0.index t (1 : Fin 3) * 1024 + (y 1).val) (h2 : (k 2).val = win0_0.index t (2 : Fin 3) * 128 + (y 2).val) :
    (iblk0 V c 0 t : Vec Ideal S1x1024x128 .f32) y = (V c main_v0 : S4x4096x128.Idx → EReal) k := by
  unfold iblk0
  rw [View.read_apply]
  show V c main_v0 _ = V c main_v0 _
  refine congrArg (V c main_v0) ?_
  funext a
  apply Fin.ext
  match a with
  | ⟨0, _⟩ => show win0_0.index t (0 : Fin 3) * 1 + 1 * (y 0).val = (k 0).val; omega
  | ⟨1, _⟩ => show win0_0.index t (1 : Fin 3) * 1024 + 1 * (y 1).val = (k 1).val; omega
  | ⟨2, _⟩ => show win0_0.index t (2 : Fin 3) * 128 + 1 * (y 2).val = (k 2).val; omega

theorem iblk0_1_apply (c : Dev nD) (t : Fin cfg0.N) (y : S1x1024x128.Idx) (k : S4x4096x128.Idx)
    (h0 : (k 0).val = win0_1.index t (0 : Fin 3) * 1 + (y 0).val) (h1 : (k 1).val = win0_1.index t (1 : Fin 3) * 1024 + (y 1).val) (h2 : (k 2).val = win0_1.index t (2 : Fin 3) * 128 + (y 2).val) :
    (iblk0 V c 1 t : Vec Ideal S1x1024x128 .f32) y = (V c main_v1 : S4x4096x128.Idx → EReal) k := by
  unfold iblk0
  rw [View.read_apply]
  show V c main_v1 _ = V c main_v1 _
  refine congrArg (V c main_v1) ?_
  funext a
  apply Fin.ext
  match a with
  | ⟨0, _⟩ => show win0_1.index t (0 : Fin 3) * 1 + 1 * (y 0).val = (k 0).val; omega
  | ⟨1, _⟩ => show win0_1.index t (1 : Fin 3) * 1024 + 1 * (y 1).val = (k 1).val; omega
  | ⟨2, _⟩ => show win0_1.index t (2 : Fin 3) * 128 + 1 * (y 2).val = (k 2).val; omega

theorem iblk0_2_apply (c : Dev nD) (t : Fin cfg0.N) (y : S128x128.Idx) (k : S128x128.Idx)
    (h0 : (k 0).val = win0_2.index t (0 : Fin 2) * 128 + (y 0).val) (h1 : (k 1).val = win0_2.index t (1 : Fin 2) * 128 + (y 1).val) :
    (iblk0 V c 2 t : Vec Ideal S128x128 .f32) y = (V c main_arg2 : S128x128.Idx → EReal) k := by
  unfold iblk0
  rw [View.read_apply]
  show V c main_arg2 _ = V c main_arg2 _
  refine congrArg (V c main_arg2) ?_
  funext a
  apply Fin.ext
  match a with
  | ⟨0, _⟩ => show win0_2.index t (0 : Fin 2) * 128 + 1 * (y 0).val = (k 0).val; omega
  | ⟨1, _⟩ => show win0_2.index t (1 : Fin 2) * 128 + 1 * (y 1).val = (k 1).val; omega

theorem iblk0_3_apply (c : Dev nD) (t : Fin cfg0.N) (y : S1x128.Idx) (k : S1x128.Idx)
    (h0 : (k 0).val = win0_3.index t (0 : Fin 2) * 1 + (y 0).val) (h1 : (k 1).val = win0_3.index t (1 : Fin 2) * 128 + (y 1).val) :
    (iblk0 V c 3 t : Vec Ideal S1x128 .f32) y = (V c main_v2 : S1x128.Idx → EReal) k := by
  unfold iblk0
  rw [View.read_apply]
  show V c main_v2 _ = V c main_v2 _
  refine congrArg (V c main_v2) ?_
  funext a
  apply Fin.ext
  match a with
  | ⟨0, _⟩ => show win0_3.index t (0 : Fin 2) * 1 + 1 * (y 0).val = (k 0).val; omega
  | ⟨1, _⟩ => show win0_3.index t (1 : Fin 2) * 128 + 1 * (y 1).val = (k 1).val; omega

theorem iblk0_4_apply (c : Dev nD) (t : Fin cfg0.N) (y : S128x128.Idx) (k : S128x128.Idx)
    (h0 : (k 0).val = win0_4.index t (0 : Fin 2) * 128 + (y 0).val) (h1 : (k 1).val = win0_4.index t (1 : Fin 2) * 128 + (y 1).val) :
    (iblk0 V c 4 t : Vec Ideal S128x128 .f32) y = (V c main_arg4 : S128x128.Idx → EReal) k := by
  unfold iblk0
  rw [View.read_apply]
  show V c main_arg4 _ = V c main_arg4 _
  refine congrArg (V c main_arg4) ?_
  funext a
  apply Fin.ext
  match a with
  | ⟨0, _⟩ => show win0_4.index t (0 : Fin 2) * 128 + 1 * (y 0).val = (k 0).val; omega
  | ⟨1, _⟩ => show win0_4.index t (1 : Fin 2) * 128 + 1 * (y 1).val = (k 1).val; omega

theorem iblk0_5_apply (c : Dev nD) (t : Fin cfg0.N) (y : S1x128.Idx) (k : S1x128.Idx)
    (h0 : (k 0).val = win0_5.index t (0 : Fin 2) * 1 + (y 0).val) (h1 : (k 1).val = win0_5.index t (1 : Fin 2) * 128 + (y 1).val) :
    (iblk0 V c 5 t : Vec Ideal S1x128 .f32) y = (V c main_v3 : S1x128.Idx → EReal) k := by
  unfold iblk0
  rw [View.read_apply]
  show V c main_v3 _ = V c main_v3 _
  refine congrArg (V c main_v3) ?_
  funext a
  apply Fin.ext
  match a with
  | ⟨0, _⟩ => show win0_5.index t (0 : Fin 2) * 1 + 1 * (y 0).val = (k 0).val; omega
  | ⟨1, _⟩ => show win0_5.index t (1 : Fin 2) * 128 + 1 * (y 1).val = (k 1).val; omega

/-! ## What a position writes back is its block of the projection -/

theorem flushed0_6_eq (c : Dev nD) (t : Fin cfg0.N) :
    (dat0 V c).flushed 6 t = ((cfg0.win 6).blk t).view.read (Elt Ideal) (projArr (V c main_v0) (V c main_arg2) (V c main_v2)) := by
  show (cfg0.win 6).cut (grid0.coords t) ((dat0 V c).after 6 t) = _
  rw [after0_6]
  unfold out0_6
  rw [View.canon_unit_zero hz3]
  simp only [View.ld_unit_zero (S := S1x1024x128) hz3, View.ld_unit_zero (S := S128x128) hz2, View.ld_unit_zero (S := S1x128) hz2]
  obtain ⟨⟨a0, a1, a2⟩, -, ⟨b0, b1, b2⟩, -, ⟨c0, c1⟩, ⟨d0, d1⟩, -, -⟩ := idx_facts0 t
  funext j
  obtain ⟨z, r, f, rfl⟩ : ∃ (z : Fin 1) (r : Fin 1024) (f : Fin 128), j = ix3 z r f := ⟨j 0, j 1, j 2, eq_ix3 j⟩
  obtain rfl : z = 0 := Subsingleton.elim _ _
  show k0_pay1 (iblk0 V c 0 t) (iblk0 V c 2 t) (iblk0 V c 3 t) (ix3 0 r f)
    = projArr (V c main_v0) (V c main_arg2) (V c main_v2) (((cfg0.win 6).blk t).view.emb (ix3 0 r f))
  rw [k0_pay1_apply]
  unfold projArr
  refine congrArg₂ (· + ·) (Finset.sum_congr rfl fun ch _ => congrArg₂ (· * ·) ?_ ?_) ?_
  · refine iblk0_0_apply V c t _ _ ?_ ?_ ?_
    · show win0_6.index t (0 : Fin 3) * 1 + 1 * (0 : ℕ) = win0_0.index t (0 : Fin 3) * 1 + (0 : ℕ); omega
    · show win0_6.index t (1 : Fin 3) * 1024 + 1 * r.val = win0_0.index t (1 : Fin 3) * 1024 + r.val; omega
    · show ch.val = win0_0.index t (2 : Fin 3) * 128 + ch.val; omega
  · refine iblk0_2_apply V c t _ _ ?_ ?_
    · show ch.val = win0_2.index t (0 : Fin 2) * 128 + ch.val; omega
    · show win0_6.index t (2 : Fin 3) * 128 + 1 * f.val = win0_2.index t (1 : Fin 2) * 128 + f.val; omega
  · refine iblk0_3_apply V c t _ _ ?_ ?_
    · show (0 : ℕ) = win0_3.index t (0 : Fin 2) * 1 + (0 : ℕ); omega
    · show win0_6.index t (2 : Fin 3) * 128 + 1 * f.val = win0_3.index t (1 : Fin 2) * 128 + f.val; omega

theorem flushed0_7_eq (c : Dev nD) (t : Fin cfg0.N) :
    (dat0 V c).flushed 7 t = ((cfg0.win 7).blk t).view.read (Elt Ideal) (projArr (V c main_v1) (V c main_arg4) (V c main_v3)) := by
  show (cfg0.win 7).cut (grid0.coords t) ((dat0 V c).after 7 t) = _
  rw [after0_7]
  unfold out0_7
  rw [View.canon_unit_zero hz3]
  simp only [View.ld_unit_zero (S := S1x1024x128) hz3, View.ld_unit_zero (S := S128x128) hz2, View.ld_unit_zero (S := S1x128) hz2]
  obtain ⟨-, ⟨a0, a1, a2⟩, -, ⟨b0, b1, b2⟩, -, -, ⟨c0, c1⟩, ⟨d0, d1⟩⟩ := idx_facts0 t
  funext j
  obtain ⟨z, r, f, rfl⟩ : ∃ (z : Fin 1) (r : Fin 1024) (f : Fin 128), j = ix3 z r f := ⟨j 0, j 1, j 2, eq_ix3 j⟩
  obtain rfl : z = 0 := Subsingleton.elim _ _
  show k0_pay2 (iblk0 V c 1 t) (iblk0 V c 4 t) (iblk0 V c 5 t) (ix3 0 r f)
    = projArr (V c main_v1) (V c main_arg4) (V c main_v3) (((cfg0.win 7).blk t).view.emb (ix3 0 r f))
  rw [k0_pay2_apply]
  unfold projArr
  refine congrArg₂ (· + ·) (Finset.sum_congr rfl fun ch _ => congrArg₂ (· * ·) ?_ ?_) ?_
  · refine iblk0_1_apply V c t _ _ ?_ ?_ ?_
    · show win0_7.index t (0 : Fin 3) * 1 + 1 * (0 : ℕ) = win0_1.index t (0 : Fin 3) * 1 + (0 : ℕ); omega
    · show win0_7.index t (1 : Fin 3) * 1024 + 1 * r.val = win0_1.index t (1 : Fin 3) * 1024 + r.val; omega
    · show ch.val = win0_1.index t (2 : Fin 3) * 128 + ch.val; omega
  · refine iblk0_4_apply V c t _ _ ?_ ?_
    · show ch.val = win0_4.index t (0 : Fin 2) * 128 + ch.val; omega
    · show win0_7.index t (2 : Fin 3) * 128 + 1 * f.val = win0_4.index t (1 : Fin 2) * 128 + f.val; omega
  · refine iblk0_5_apply V c t _ _ ?_ ?_
    · show (0 : ℕ) = win0_5.index t (0 : Fin 2) * 1 + (0 : ℕ); omega
    · show win0_7.index t (2 : Fin 3) * 128 + 1 * f.val = win0_5.index t (1 : Fin 2) * 128 + f.val; omega

/-! ## The blocks cover the arrays -/

/-- An index of the array is in position `t`'s block iff each coordinate is in the block's range on its axis. -/
theorem mem_blk0_6 (t : Fin cfg0.N) (i : S4x4096x128.Idx) :
    i ∈ ((cfg0.win 6).blk t).view.set ↔ ∀ a : Fin 3, win0_6.index t a * S1x1024x128.size a ≤ (i a).val
      ∧ (i a).val < win0_6.index t a * S1x1024x128.size a + S1x1024x128.size a := by
  show i ∈ ((View.whole main_v4_0).slice (win0_6.rect t)).set ↔ _
  rw [View.set_slice_whole, Rect.mem_set_unit]
  exact Iff.rfl

/-- Every index `(n, p, f)` of the array is in the block of position `4 n + p / 1024`, which is written back. -/
theorem cover0_6 (i : S4x4096x128.Idx) :
    ∃ t : Fin cfg0.N, (cfg0.win 6).flush t = true ∧ i ∈ ((cfg0.win 6).blk t).view.set := by
  have hi0 : (i 0).val < 4 := (i 0).isLt
  have hi1 : (i 1).val < 4096 := (i 1).isLt
  have hi2 : (i 2).val < 128 := (i 2).isLt
  have hN : cfg0.N = 16 := N_0
  have hlt : 4 * (i 0).val + (i 1).val / 1024 < cfg0.N := by rw [hN]; omega
  obtain ⟨⟨a0, a1, a2⟩, -⟩ := idx_facts0 ⟨4 * (i 0).val + (i 1).val / 1024, hlt⟩
  refine ⟨⟨4 * (i 0).val + (i 1).val / 1024, hlt⟩, flush0_6 _, ?_⟩
  rw [mem_blk0_6]
  intro a
  match a with
  | ⟨0, _⟩ =>
    show win0_6.index ⟨4 * (i 0).val + (i 1).val / 1024, hlt⟩ (0 : Fin 3) * 1 ≤ (i 0).val
      ∧ (i 0).val < win0_6.index ⟨4 * (i 0).val + (i 1).val / 1024, hlt⟩ (0 : Fin 3) * 1 + 1
    rw [a0]; show (4 * (i 0).val + (i 1).val / 1024) / 4 * 1 ≤ (i 0).val ∧ (i 0).val < (4 * (i 0).val + (i 1).val / 1024) / 4 * 1 + 1
    omega
  | ⟨1, _⟩ =>
    show win0_6.index ⟨4 * (i 0).val + (i 1).val / 1024, hlt⟩ (1 : Fin 3) * 1024 ≤ (i 1).val
      ∧ (i 1).val < win0_6.index ⟨4 * (i 0).val + (i 1).val / 1024, hlt⟩ (1 : Fin 3) * 1024 + 1024
    rw [a1]; show (4 * (i 0).val + (i 1).val / 1024) % 4 * 1024 ≤ (i 1).val ∧ (i 1).val < (4 * (i 0).val + (i 1).val / 1024) % 4 * 1024 + 1024
    omega
  | ⟨2, _⟩ =>
    show win0_6.index ⟨4 * (i 0).val + (i 1).val / 1024, hlt⟩ (2 : Fin 3) * 128 ≤ (i 2).val
      ∧ (i 2).val < win0_6.index ⟨4 * (i 0).val + (i 1).val / 1024, hlt⟩ (2 : Fin 3) * 128 + 128
    rw [a2]; omega

/-- An index of the array is in position `t`'s block iff each coordinate is in the block's range on its axis. -/
theorem mem_blk0_7 (t : Fin cfg0.N) (i : S4x4096x128.Idx) :
    i ∈ ((cfg0.win 7).blk t).view.set ↔ ∀ a : Fin 3, win0_7.index t a * S1x1024x128.size a ≤ (i a).val
      ∧ (i a).val < win0_7.index t a * S1x1024x128.size a + S1x1024x128.size a := by
  show i ∈ ((View.whole main_v4_1).slice (win0_7.rect t)).set ↔ _
  rw [View.set_slice_whole, Rect.mem_set_unit]
  exact Iff.rfl

/-- Every index `(n, p, f)` of the array is in the block of position `4 n + p / 1024`, which is written back. -/
theorem cover0_7 (i : S4x4096x128.Idx) :
    ∃ t : Fin cfg0.N, (cfg0.win 7).flush t = true ∧ i ∈ ((cfg0.win 7).blk t).view.set := by
  have hi0 : (i 0).val < 4 := (i 0).isLt
  have hi1 : (i 1).val < 4096 := (i 1).isLt
  have hi2 : (i 2).val < 128 := (i 2).isLt
  have hN : cfg0.N = 16 := N_0
  have hlt : 4 * (i 0).val + (i 1).val / 1024 < cfg0.N := by rw [hN]; omega
  obtain ⟨-, ⟨a0, a1, a2⟩, -⟩ := idx_facts0 ⟨4 * (i 0).val + (i 1).val / 1024, hlt⟩
  refine ⟨⟨4 * (i 0).val + (i 1).val / 1024, hlt⟩, flush0_7 _, ?_⟩
  rw [mem_blk0_7]
  intro a
  match a with
  | ⟨0, _⟩ =>
    show win0_7.index ⟨4 * (i 0).val + (i 1).val / 1024, hlt⟩ (0 : Fin 3) * 1 ≤ (i 0).val
      ∧ (i 0).val < win0_7.index ⟨4 * (i 0).val + (i 1).val / 1024, hlt⟩ (0 : Fin 3) * 1 + 1
    rw [a0]; show (4 * (i 0).val + (i 1).val / 1024) / 4 * 1 ≤ (i 0).val ∧ (i 0).val < (4 * (i 0).val + (i 1).val / 1024) / 4 * 1 + 1
    omega
  | ⟨1, _⟩ =>
    show win0_7.index ⟨4 * (i 0).val + (i 1).val / 1024, hlt⟩ (1 : Fin 3) * 1024 ≤ (i 1).val
      ∧ (i 1).val < win0_7.index ⟨4 * (i 0).val + (i 1).val / 1024, hlt⟩ (1 : Fin 3) * 1024 + 1024
    rw [a1]; show (4 * (i 0).val + (i 1).val / 1024) % 4 * 1024 ≤ (i 1).val ∧ (i 1).val < (4 * (i 0).val + (i 1).val / 1024) % 4 * 1024 + 1024
    omega
  | ⟨2, _⟩ =>
    show win0_7.index ⟨4 * (i 0).val + (i 1).val / 1024, hlt⟩ (2 : Fin 3) * 128 ≤ (i 2).val
      ∧ (i 2).val < win0_7.index ⟨4 * (i 0).val + (i 1).val / 1024, hlt⟩ (2 : Fin 3) * 128 + 128
    rw [a2]; omega

/-! ## The arrays after the launch -/

/-- The xq array after launch 0: the projection of the x array by the first weight matrix and bias row. -/
theorem final0_6 (c : Dev nD) :
    (dat0 (F := Ideal) V c).arrAt 6 cfg0.N = projArr (V c main_v0) (V c main_arg2) (V c main_v2) :=
  (dat0 V c).arrAt_eq_of_cover 6 (projArr (V c main_v0) (V c main_arg2) (V c main_v2))
    (fun t _ => flushed0_6_eq V c t) cover0_6

/-- The yk array after launch 0: the projection of the y array by the second weight matrix and bias row. -/
theorem final0_7 (c : Dev nD) :
    (dat0 (F := Ideal) V c).arrAt 7 cfg0.N = projArr (V c main_v1) (V c main_arg4) (V c main_v3) :=
  (dat0 V c).arrAt_eq_of_cover 7 (projArr (V c main_v1) (V c main_arg4) (V c main_v3))
    (fun t _ => flushed0_7_eq V c t) cover0_7

end Cert.KernelIdeal.Hand

end
-- ==== Proof.Spec.lean ====
/-
  The mathematics both programs compute, stated once over plain index types and the extended reals.

  The inputs are two images x, y of shape [4, 64, 64, 128] (batch, height, width, channel), two
  128 × 128 matrices W1, W2 and two bias vectors b1, b2.  Reading an image as [4, 4096, 128] (pixel
  p = 64·h + w), both programs form the per-pixel projections
      xq[n, p, f] = Σ_c x[n, p, c] · W1[c, f] + b1[f],      yk[n, p, f] = Σ_c y[n, p, c] · W2[c, f] + b2[f]
  and the sigmoid cross-attention with a residual
      out[n, i, f] = Σ_j logistic(Σ_c yk[n, i, c] · xq[n, j, c]) · yk[n, j, f]  +  xq[n, i, f],
  the result being `out` read back as [4, 64, 64, 128].
-/
import Idealize.ShloMosaic.PureOps.Ideal
import Idealize.ShloMosaic.Lib.ValueIdx

noncomputable section

namespace Cert.Spec

open Idealize.ShloMosaic Idealize.ShloMosaic.ValueIdx

/-- An image [4, 64, 64, 128] read as [4, 4096, 128]: pixel `p` is row `p / 64`, column `p % 64`. -/
def pix (a : (⟨4, ![4, 64, 64, 128]⟩ : Shape).Idx → EReal) (n : Fin 4) (p : Fin 4096) (c : Fin 128) : EReal :=
  a (ix4 n ⟨p.val / 64, by have := p.isLt; omega⟩ ⟨p.val % 64, Nat.mod_lt _ (by decide)⟩ c)

/-- One per-pixel projection: `Σ_c x[n, p, c] · W[c, f] + b[f]`. -/
def proj (x : Fin 4 → Fin 4096 → Fin 128 → EReal) (W : (⟨2, ![128, 128]⟩ : Shape).Idx → EReal)
    (b : (⟨1, ![128]⟩ : Shape).Idx → EReal) (n : Fin 4) (p : Fin 4096) (f : Fin 128) : EReal :=
  (∑ c : Fin 128, x n p c * W (ix2 c f)) + b (ix1 f)

/-- The attention logit of query pixel `i` against key pixel `j`: `Σ_c yk[n, i, c] · xq[n, j, c]`. -/
def logit (xq yk : Fin 4 → Fin 4096 → Fin 128 → EReal) (n : Fin 4) (i j : Fin 4096) : EReal :=
  ∑ c : Fin 128, yk n i c * xq n j c

/-- Sigmoid cross-attention with the residual: `Σ_j logistic(logit i j) · yk[n, j, f] + xq[n, i, f]`. -/
def attn (xq yk : Fin 4 → Fin 4096 → Fin 128 → EReal) (n : Fin 4) (i : Fin 4096) (f : Fin 128) : EReal :=
  (∑ j : Fin 4096, Ideal.logistic (logit xq yk n i j) * yk n j f) + xq n i f

/-- The whole result, as [4, 64, 64, 128], of the six argument arrays. -/
def result (x y : (⟨4, ![4, 64, 64, 128]⟩ : Shape).Idx → EReal) (W1 : (⟨2, ![128, 128]⟩ : Shape).Idx → EReal)
    (b1 : (⟨1, ![128]⟩ : Shape).Idx → EReal) (W2 : (⟨2, ![128, 128]⟩ : Shape).Idx → EReal)
    (b2 : (⟨1, ![128]⟩ : Shape).Idx → EReal) : (⟨4, ![4, 64, 64, 128]⟩ : Shape).Idx → EReal :=
  fun i => attn (proj (pix x) W1 b1) (proj (pix y) W2 b2) (i 0)
    ⟨64 * (i 1).val + (i 2).val, by have h1 : (i 1).val < 64 := (i 1).isLt; have h2 : (i 2).val < 64 := (i 2).isLt; omega⟩ (i 3)

end Cert.Spec

end
-- ==== Proof.KI.Arr.lean ====
/-
  The attention launch's output array as one function of the two projected arrays it reads.
-/
import proofs.«140727_j37993280700496_1_alg».proof.Proof.Gen.KernelIdeal
import proofs.«140727_j37993280700496_1_alg».proof.Proof.Spec
import Idealize.ShloMosaic.Lib.ValueIdx

noncomputable section

namespace Cert.KernelIdeal.Hand

open Cert.KernelIdeal Idealize.ShloMosaic Idealize.ShloMosaic.ValueIdx

/-- The array launch 1 leaves in its output, [4, 4096, 128], from the arrays xq and yk it finds: at (n, i, f) the
    sigmoid cross-attention of query row i against every key row, plus the residual xq row. -/
def attnArr (xq yk : FVec Ideal S4x4096x128 .f32) : S4x4096x128.Idx → EReal :=
  fun i => Cert.Spec.attn (fun n p f => xq (ix3 n p f)) (fun n p f => yk (ix3 n p f)) (i 0) (i 1) (i 2)

theorem attnArr_apply (xq yk : FVec Ideal S4x4096x128 .f32) (n : Fin 4) (p : Fin 4096) (f : Fin 128) :
    attnArr xq yk (ix3 n p f) = Cert.Spec.attn (fun n p f => xq (ix3 n p f)) (fun n p f => yk (ix3 n p f)) n p f := rfl

end Cert.KernelIdeal.Hand

end
-- ==== Proof.KI.Blocks.lean ====
/-
  The sum over 4096 keys is the fold of four block sums.

  Addition on the extended reals is commutative and associative (no finiteness is needed), so a sum over Fin N can be cut
  into consecutive blocks of B terms: the sum of the first t + 1 blocks is the sum of the first t blocks plus the sum over
  block t, whose terms sit at positions t · B + jj.  Starting from 0 and adding the four blocks of 1024 terms in order
  gives the sum over all 4096 terms.
-/
import Mathlib.Data.EReal.Basic
import Mathlib.Algebra.BigOperators.Fin
import Mathlib.Algebra.BigOperators.Intervals

noncomputable section

namespace Cert.KernelIdeal.Hand

open Finset

variable {N : ℕ}

/-- A function on Fin N read at a natural number: zero from N on. -/
def extNat (g : Fin N → EReal) (k : ℕ) : EReal := if h : k < N then g ⟨k, h⟩ else 0

theorem extNat_of_lt (g : Fin N → EReal) (k : ℕ) (h : k < N) : extNat g k = g ⟨k, h⟩ := dif_pos h

/-- A sum over Fin N is the sum over the first N naturals of the function read there. -/
theorem sum_eq_sum_range_extNat (g : Fin N → EReal) : ∑ j, g j = ∑ k ∈ range N, extNat g k := by
  rw [← Fin.sum_univ_eq_sum_range]
  exact sum_congr rfl fun j _ => (extNat_of_lt g j.val j.isLt).symm

/-- The sum of the first t blocks of B consecutive terms. -/
def blockPrefix (B : ℕ) (g : Fin N → EReal) (t : ℕ) : EReal := ∑ k ∈ range (t * B), extNat g k

/-- No block: zero. -/
theorem blockPrefix_zero (B : ℕ) (g : Fin N → EReal) : blockPrefix B g 0 = 0 := by
  unfold blockPrefix
  rw [Nat.zero_mul, range_zero, sum_empty]

/-- THE STEP: the first t + 1 blocks are the first t blocks plus block t, whose term jj sits at t · B + jj. -/
theorem blockPrefix_succ (B : ℕ) (g : Fin N → EReal) (t : ℕ) (h : (t + 1) * B ≤ N) :
    blockPrefix B g (t + 1)
      = blockPrefix B g t
        + ∑ jj : Fin B, g ⟨t * B + jj.val, by
            have := jj.isLt; have e : (t + 1) * B = t * B + B := by rw [Nat.add_mul, Nat.one_mul]
            omega⟩ := by
  have e : (t + 1) * B = t * B + B := by rw [Nat.add_mul, Nat.one_mul]
  unfold blockPrefix
  rw [← sum_range_add_sum_Ico _ (show t * B ≤ (t + 1) * B by omega), sum_Ico_eq_sum_range,
    show (t + 1) * B - t * B = B by omega, ← Fin.sum_univ_eq_sum_range (fun i => extNat g (t * B + i)) B]
  exact congrArg _ (sum_congr rfl fun jj _ => extNat_of_lt g _ _)

/-- All the blocks: the whole sum. -/
theorem blockPrefix_all (B : ℕ) (g : Fin N → EReal) (t : ℕ) (h : t * B = N) : blockPrefix B g t = ∑ j, g j := by
  unfold blockPrefix
  rw [h, sum_eq_sum_range_extNat]

/-- The sum over 4096 terms is 0 plus the four sums over 1024 consecutive terms, added in order. -/
theorem sum_4096_blocks (g : Fin 4096 → EReal) :
    ∑ j : Fin 4096, g j
      = (((0 + ∑ jj : Fin 1024, g ⟨jj.val, by have := jj.isLt; omega⟩)
            + ∑ jj : Fin 1024, g ⟨1024 + jj.val, by have := jj.isLt; omega⟩)
          + ∑ jj : Fin 1024, g ⟨2048 + jj.val, by have := jj.isLt; omega⟩)
        + ∑ jj : Fin 1024, g ⟨3072 + jj.val, by have := jj.isLt; omega⟩ := by
  have h1 : blockPrefix 1024 g 1 = blockPrefix 1024 g 0 + _ := blockPrefix_succ 1024 g 0 (by norm_num)
  have h2 : blockPrefix 1024 g 2 = blockPrefix 1024 g 1 + _ := blockPrefix_succ 1024 g 1 (by norm_num)
  have h3 : blockPrefix 1024 g 3 = blockPrefix 1024 g 2 + _ := blockPrefix_succ 1024 g 2 (by norm_num)
  have h4 : blockPrefix 1024 g 4 = blockPrefix 1024 g 3 + _ := blockPrefix_succ 1024 g 3 (by norm_num)
  rw [← blockPrefix_all 1024 g 4 (by norm_num), h4, h3, h2, h1, blockPrefix_zero]
  refine congrArg₂ (· + ·) (congrArg₂ (· + ·) (congrArg₂ (· + ·) (congrArg₂ (· + ·) rfl ?_) ?_) ?_) ?_
  · exact sum_congr rfl fun jj _ => congrArg g (Fin.ext (by show 0 * 1024 + jj.val = jj.val; omega))
  · exact sum_congr rfl fun jj _ => congrArg g (Fin.ext (by show 1 * 1024 + jj.val = 1024 + jj.val; omega))
  · exact sum_congr rfl fun jj _ => congrArg g (Fin.ext (by show 2 * 1024 + jj.val = 2048 + jj.val; omega))
  · exact sum_congr rfl fun jj _ => congrArg g (Fin.ext (by show 3 * 1024 + jj.val = 3072 + jj.val; omega))

end Cert.KernelIdeal.Hand

end
-- ==== Proof.KI.Val1.lean ====
/-
  Launch 1 (the attention): the output array after the launch, as a whole-array function, at the ideal values.

  At grid position t = 16 n + 4 i + k the body reads query rows 1024 i … of image n of yk, key rows 1024 k … of xq and
  value rows 1024 k … of yk.  Write, for a query row p and a feature f of image n,

      term j = logistic(Σ_c yk[n, p, c] · xq[n, j, c]) · yk[n, j, f]          (j a key row, 0 ≤ j < 4096).

  The accumulator is cleared where k = 0 and each position adds its block's 1024 terms, so after the body at position t it
  holds, at (r, f), the sum of the terms of the first k + 1 key blocks for the query row p = 1024 i + r: by induction
  along the positions, the step being the body's arithmetic read at an index.  At k = 3 that is the sum over all 4096 key
  rows, and the block written back there is that sum plus the residual row xq[n, p, f]: the block of the attention
  function at position t.  Every index (n, p, f) of the output lies in the block written back at position
  16 n + 4 (p / 1024) + 3, so the output array ends holding the attention function of the arrays read.
-/
import proofs.«140727_j37993280700496_1_alg».proof.Proof.KI.Data
import proofs.«140727_j37993280700496_1_alg».proof.Proof.KI.Payload
import proofs.«140727_j37993280700496_1_alg».proof.Proof.KI.Blocks
import proofs.«140727_j37993280700496_1_alg».proof.Proof.KI.Arr
import proofs.«140727_j37993280700496_1_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

-- The TensorCore's buffer contents when the launch is entered.
variable (V : (c : Dev nD) → (b : Ref sig .tc) → Buf (Elt Ideal) ((c : Thread nD τ).loc b))

theorem hzB : (![0, 0, 0] : Fin 3 → Nat) = fun _ => 0 := funext fun a => by fin_cases a <;> rfl
theorem hzA : (![0, 0] : Fin 2 → Nat) = fun _ => 0 := funext fun a => by fin_cases a <;> rfl

/-- The block indices of launch 1's windows at grid position t, decided over the 64 positions: image t / 16 throughout;
    the query, residual and output windows at row block t / 4 % 4, the key and value windows at row block t % 4. -/
theorem idx_facts1 : ∀ t : Fin cfg1.N,
    (win1_0.index t (0 : Fin 3) = t.val / 16 ∧ win1_0.index t (1 : Fin 3) = t.val / 4 % 4 ∧ win1_0.index t (2 : Fin 3) = 0)
    ∧ (win1_1.index t (0 : Fin 3) = t.val / 16 ∧ win1_1.index t (1 : Fin 3) = t.val % 4 ∧ win1_1.index t (2 : Fin 3) = 0)
    ∧ (win1_2.index t (0 : Fin 3) = t.val / 16 ∧ win1_2.index t (1 : Fin 3) = t.val % 4 ∧ win1_2.index t (2 : Fin 3) = 0)
    ∧ (win1_3.index t (0 : Fin 3) = t.val / 16 ∧ win1_3.index t (1 : Fin 3) = t.val / 4 % 4 ∧ win1_3.index t (2 : Fin 3) = 0)
    ∧ (win1_4.index t (0 : Fin 3) = t.val / 16 ∧ win1_4.index t (1 : Fin 3) = t.val / 4 % 4 ∧ win1_4.index t (2 : Fin 3) = 0) :=
  (by decide +kernel : ∀ t : Fin grid1.N, _)

/-! ## Each input window's block, element by element

An element of a window's block at position t sits in the window's array, on each axis, at the block index times the
block's extent plus the element's own coordinate. -/

/-- The query window's block: rows of yk. -/
theorem iblk1_0_apply (c : Dev nD) (t : Fin cfg1.N) (y : S1x1024x128.Idx) (k : S4x4096x128.Idx)
    (h0 : (k 0).val = win1_0.index t (0 : Fin 3) * 1 + (y 0).val) (h1 : (k 1).val = win1_0.index t (1 : Fin 3) * 1024 + (y 1).val)
    (h2 : (k 2).val = win1_0.index t (2 : Fin 3) * 128 + (y 2).val) :
    (iblk1 V c 0 t : Vec Ideal S1x1024x128 .f32) y = (V c main_v4_1 : S4x4096x128.Idx → EReal) k := by
  unfold iblk1
  rw [View.read_apply]
  show V c main_v4_1 _ = V c main_v4_1 _
  refine congrArg (V c main_v4_1) ?_
  funext a
  apply Fin.ext
  match a with
  | ⟨0, _⟩ => show win1_0.index t (0 : Fin 3) * 1 + 1 * (y 0).val = (k 0).val; omega
  | ⟨1, _⟩ => show win1_0.index t (1 : Fin 3) * 1024 + 1 * (y 1).val = (k 1).val; omega
  | ⟨2, _⟩ => show win1_0.index t (2 : Fin 3) * 128 + 1 * (y 2).val = (k 2).val; omega

/-- The key window's block: rows of xq. -/
theorem iblk1_1_apply (c : Dev nD) (t : Fin cfg1.N) (y : S1x1024x128.Idx) (k : S4x4096x128.Idx)
    (h0 : (k 0).val = win1_1.index t (0 : Fin 3) * 1 + (y 0).val) (h1 : (k 1).val = win1_1.index t (1 : Fin 3) * 1024 + (y 1).val)
    (h2 : (k 2).val = win1_1.index t (2 : Fin 3) * 128 + (y 2).val) :
    (iblk1 V c 1 t : Vec Ideal S1x1024x128 .f32) y = (V c main_v4_0 : S4x4096x128.Idx → EReal) k := by
  unfold iblk1
  rw [View.read_apply]
  show V c main_v4_0 _ = V c main_v4_0 _
  refine congrArg (V c main_v4_0) ?_
  funext a
  apply Fin.ext
  match a with
  | ⟨0, _⟩ => show win1_1.index t (0 : Fin 3) * 1 + 1 * (y 0).val = (k 0).val; omega
  | ⟨1, _⟩ => show win1_1.index t (1 : Fin 3) * 1024 + 1 * (y 1).val = (k 1).val; omega
  | ⟨2, _⟩ => show win1_1.index t (2 : Fin 3) * 128 + 1 * (y 2).val = (k 2).val; omega

/-- The value window's block: rows of yk. -/
theorem iblk1_2_apply (c : Dev nD) (t : Fin cfg1.N) (y : S1x1024x128.Idx) (k : S4x4096x128.Idx)
    (h0 : (k 0).val = win1_2.index t (0 : Fin 3) * 1 + (y 0).val) (h1 : (k 1).val = win1_2.index t (1 : Fin 3) * 1024 + (y 1).val)
    (h2 : (k 2).val = win1_2.index t (2 : Fin 3) * 128 + (y 2).val) :
    (iblk1 V c 2 t : Vec Ideal S1x1024x128 .f32) y = (V c main_v4_1 : S4x4096x128.Idx → EReal) k := by
  unfold iblk1
  rw [View.read_apply]
  show V c main_v4_1 _ = V c main_v4_1 _
  refine congrArg (V c main_v4_1) ?_
  funext a
  apply Fin.ext
  match a with
  | ⟨0, _⟩ => show win1_2.index t (0 : Fin 3) * 1 + 1 * (y 0).val = (k 0).val; omega
  | ⟨1, _⟩ => show win1_2.index t (1 : Fin 3) * 1024 + 1 * (y 1).val = (k 1).val; omega
  | ⟨2, _⟩ => show win1_2.index t (2 : Fin 3) * 128 + 1 * (y 2).val = (k 2).val; omega

/-- The residual window's block: rows of xq. -/
theorem iblk1_3_apply (c : Dev nD) (t : Fin cfg1.N) (y : S1x1024x128.Idx) (k : S4x4096x128.Idx)
    (h0 : (k 0).val = win1_3.index t (0 : Fin 3) * 1 + (y 0).val) (h1 : (k 1).val = win1_3.index t (1 : Fin 3) * 1024 + (y 1).val)
    (h2 : (k 2).val = win1_3.index t (2 : Fin 3) * 128 + (y 2).val) :
    (iblk1 V c 3 t : Vec Ideal S1x1024x128 .f32) y = (V c main_v4_0 : S4x4096x128.Idx → EReal) k := by
  unfold iblk1
  rw [View.read_apply]
  show V c main_v4_0 _ = V c main_v4_0 _
  refine congrArg (V c main_v4_0) ?_
  funext a
  apply Fin.ext
  match a with
  | ⟨0, _⟩ => show win1_3.index t (0 : Fin 3) * 1 + 1 * (y 0).val = (k 0).val; omega
  | ⟨1, _⟩ => show win1_3.index t (1 : Fin 3) * 1024 + 1 * (y 1).val = (k 1).val; omega
  | ⟨2, _⟩ => show win1_3.index t (2 : Fin 3) * 128 + 1 * (y 2).val = (k 2).val; omega

/-! ## One run of the body at an index -/

/-- The accumulator after one run of the body, at (r, f): what it held (zero when just cleared) plus the block's
    1024 terms Σ_jj logistic(Σ_c q[0, r, c] · k[0, jj, c]) · v[0, jj, f]. -/
theorem accStep_apply (x0 x1 x2 : Vec Ideal S1x1024x128 .f32) (prev : Option (Vec Ideal S1024x128 .f32)) (r : Fin 1024) (f : Fin 128) :
    accStep x0 x1 x2 prev (ix2 r f)
      = (match prev with | none => (0 : EReal) | some s => s (ix2 r f))
        + ∑ jj : Fin 1024, Ideal.logistic (∑ ch : Fin 128, x0 (ix3 (0 : Fin 1) r ch) * x1 (ix3 (0 : Fin 1) jj ch)) * x2 (ix3 (0 : Fin 1) jj f) := by
  unfold accStep
  rw [View.canon_unit_zero hzA]
  simp only [View.ld_unit_zero (S := S1x1024x128) hzB, View.ld_unit_zero (S := S1024x128) hzA]
  refine (k1_pay2_apply _ _ _ _ r f).trans ?_
  refine congrArg₂ (· + ·) ?_ rfl
  cases prev with
  | none =>
    show (View.canon [⟨rA, k1_pay1 (F := Ideal)⟩] : Vec Ideal S1024x128 .f32) (ix2 r f) = 0
    rw [View.canon_unit_zero hzA]
    exact k1_pay1_apply r f
  | some s => rfl

/-! ## The terms of the sum over the key rows -/

/-- Key row j's term of the attention sum at query row p and feature f of image n. -/
def keyTerm1 (xq yk : FVec Ideal S4x4096x128 .f32) (n : Fin 4) (p : Fin 4096) (f : Fin 128) (j : Fin 4096) : EReal :=
  Ideal.logistic (∑ ch : Fin 128, yk (ix3 n p ch) * xq (ix3 n j ch)) * yk (ix3 n j f)

/-- The attention function at (n, p, f): the sum of the 4096 key rows' terms plus the residual row. -/
theorem attnArr_eq_sum1 (xq yk : FVec Ideal S4x4096x128 .f32) (n : Fin 4) (p : Fin 4096) (f : Fin 128) :
    attnArr xq yk (ix3 n p f) = (∑ j : Fin 4096, keyTerm1 xq yk n p f j) + xq (ix3 n p f) := rfl

/-- The 1024 terms the body adds at position t are those of key block t % 4, for the query row the position reads. -/
theorem blockTerms1 (c : Dev nD) (t : Fin cfg1.N) (r : Fin 1024) (f : Fin 128) (n : Fin 4) (p : Fin 4096) (k : ℕ)
    (hn : n.val = t.val / 16) (hp : p.val = t.val / 4 % 4 * 1024 + r.val) (hk : k = t.val % 4) (hk4 : (k + 1) * 1024 ≤ 4096)
    (x0 x1 x2 : Vec Ideal S1x1024x128 .f32) (e0 : x0 = iblk1 V c 0 t) (e1 : x1 = iblk1 V c 1 t) (e2 : x2 = iblk1 V c 2 t) :
    (∑ jj : Fin 1024, Ideal.logistic (∑ ch : Fin 128, x0 (ix3 (0 : Fin 1) r ch) * x1 (ix3 (0 : Fin 1) jj ch)) * x2 (ix3 (0 : Fin 1) jj f))
      = ∑ jj : Fin 1024, keyTerm1 (V c main_v4_0) (V c main_v4_1) n p f ⟨k * 1024 + jj.val, by have := jj.isLt; omega⟩ := by
  subst e0 e1 e2
  obtain ⟨⟨a0, a1, a2⟩, ⟨b0, b1, b2⟩, ⟨c0, c1, c2⟩, -, -⟩ := idx_facts1 t
  refine Finset.sum_congr rfl fun jj _ => ?_
  unfold keyTerm1
  refine congrArg₂ (· * ·) (congrArg Ideal.logistic (Finset.sum_congr rfl fun ch _ => congrArg₂ (· * ·) ?_ ?_)) ?_
  · refine iblk1_0_apply V c t _ _ ?_ ?_ ?_
    · show n.val = win1_0.index t (0 : Fin 3) * 1 + (0 : ℕ); omega
    · show p.val = win1_0.index t (1 : Fin 3) * 1024 + r.val; omega
    · show ch.val = win1_0.index t (2 : Fin 3) * 128 + ch.val; omega
  · refine iblk1_1_apply V c t _ _ ?_ ?_ ?_
    · show n.val = win1_1.index t (0 : Fin 3) * 1 + (0 : ℕ); omega
    · show k * 1024 + jj.val = win1_1.index t (1 : Fin 3) * 1024 + jj.val; omega
    · show ch.val = win1_1.index t (2 : Fin 3) * 128 + ch.val; omega
  · refine iblk1_2_apply V c t _ _ ?_ ?_ ?_
    · show n.val = win1_2.index t (0 : Fin 3) * 1 + (0 : ℕ); omega
    · show k * 1024 + jj.val = win1_2.index t (1 : Fin 3) * 1024 + jj.val; omega
    · show f.val = win1_2.index t (2 : Fin 3) * 128 + f.val; omega

/-! ## The accumulator, position by position -/

/-- After the body at position m the accumulator holds, at (r, f), the terms of the first m % 4 + 1 key blocks for the
    query row 1024 (m / 4 % 4) + r of image m / 16: by induction on the position. -/
theorem acc1_apply (c : Dev nD) : ∀ (m : ℕ) (hm : m < cfg1.N) (r : Fin 1024) (f : Fin 128) (n : Fin 4) (p : Fin 4096),
    n.val = m / 16 → p.val = m / 4 % 4 * 1024 + r.val →
    acc1 V c m hm (ix2 r f) = blockPrefix 1024 (keyTerm1 (V c main_v4_0) (V c main_v4_1) n p f) (m % 4 + 1)
  | 0, hm, r, f, n, p, hn, hp => by
    have h1 := blockPrefix_succ 1024 (keyTerm1 (V c main_v4_0) (V c main_v4_1) n p f) 0 (by norm_num)
    show acc1 V c 0 hm (ix2 r f) = blockPrefix 1024 _ (0 + 1)
    rw [h1, blockPrefix_zero, acc1]
    refine (accStep_apply _ _ _ none r f).trans ?_
    refine congrArg₂ (· + ·) rfl ?_
    exact blockTerms1 V c ⟨0, hm⟩ r f n p 0 hn hp rfl (by norm_num) _ _ _ rfl rfl rfl
  | m + 1, hm, r, f, n, p, hn, hp => by
    by_cases h : (m + 1) % 4 = 0
    · have h1 := blockPrefix_succ 1024 (keyTerm1 (V c main_v4_0) (V c main_v4_1) n p f) 0 (by norm_num)
      rw [acc1, if_pos h, h, h1, blockPrefix_zero]
      refine (accStep_apply _ _ _ none r f).trans ?_
      refine congrArg₂ (· + ·) rfl ?_
      exact blockTerms1 V c ⟨m + 1, hm⟩ r f n p 0 hn hp h.symm (by norm_num) _ _ _ rfl rfl rfl
    · have e4 : (m + 1) % 4 = m % 4 + 1 := by omega
      have hn' : n.val = m / 16 := by omega
      have hp' : p.val = m / 4 % 4 * 1024 + r.val := by omega
      have hk4 : (m % 4 + 1 + 1) * 1024 ≤ 4096 := by omega
      rw [acc1, if_neg h, e4, blockPrefix_succ 1024 _ (m % 4 + 1) hk4]
      refine (accStep_apply _ _ _ _ r f).trans ?_
      refine congrArg₂ (· + ·) ?_ ?_
      · exact acc1_apply c m _ r f n p hn' hp'
      · exact blockTerms1 V c ⟨m + 1, hm⟩ r f n p (m % 4 + 1) hn hp e4.symm hk4 _ _ _ rfl rfl rfl

/-! ## What a position that writes back writes is its block of the attention function -/

theorem dat1_after4 (c : Dev nD) (t : Fin cfg1.N) :
    (dat1 V c).after 4 t = out1_4 (acc1 V c t.val t.isLt) (iblk1 V c 3 t) := by dsimp only [dat1]

theorem flushed1_4_eq (c : Dev nD) (t : Fin cfg1.N) (hf : (cfg1.win 4).flush t = true) :
    (dat1 V c).flushed 4 t = ((cfg1.win 4).blk t).view.read (Elt Ideal) (attnArr (V c main_v4_0) (V c main_v4_1)) := by
  have h3 : t.val % 4 = 3 := (flush1_4 t).mp hf
  have hN : cfg1.N = 64 := N_1
  have ht : t.val < 64 := hN ▸ t.isLt
  show (cfg1.win 4).cut (grid1.coords t) ((dat1 V c).after 4 t) = _
  rw [dat1_after4]
  unfold out1_4
  rw [View.canon_unit_zero hzB]
  simp only [View.ld_unit_zero (S := S1x1024x128) hzB, View.ld_unit_zero (S := S1024x128) hzA]
  obtain ⟨-, -, -, ⟨d0, d1, d2⟩, ⟨e0, e1, e2⟩⟩ := idx_facts1 t
  funext j
  obtain ⟨z, r, f, rfl⟩ : ∃ (z : Fin 1) (r : Fin 1024) (f : Fin 128), j = ix3 z r f := ⟨j 0, j 1, j 2, eq_ix3 j⟩
  obtain rfl : z = 0 := Subsingleton.elim _ _
  have hr := r.isLt
  obtain ⟨n, hn⟩ : ∃ n : Fin 4, n.val = t.val / 16 := ⟨⟨t.val / 16, by omega⟩, rfl⟩
  obtain ⟨p, hp⟩ : ∃ p : Fin 4096, p.val = t.val / 4 % 4 * 1024 + r.val := ⟨⟨t.val / 4 % 4 * 1024 + r.val, by omega⟩, rfl⟩
  have hemb : ((cfg1.win 4).blk t).view.emb (ix3 (0 : Fin 1) r f) = ix3 n p f := by
    funext a
    apply Fin.ext
    match a with
    | ⟨0, _⟩ => show win1_4.index t (0 : Fin 3) * 1 + 1 * (0 : ℕ) = n.val; omega
    | ⟨1, _⟩ => show win1_4.index t (1 : Fin 3) * 1024 + 1 * r.val = p.val; omega
    | ⟨2, _⟩ => show win1_4.index t (2 : Fin 3) * 128 + 1 * f.val = f.val; omega
  show k1_pay3 (acc1 V c t.val t.isLt) (iblk1 V c 3 t) (ix3 (0 : Fin 1) r f)
    = attnArr (V c main_v4_0) (V c main_v4_1) (((cfg1.win 4).blk t).view.emb (ix3 (0 : Fin 1) r f))
  rw [hemb, attnArr_eq_sum1, k1_pay3_apply]
  refine congrArg₂ (· + ·) ?_ ?_
  · rw [acc1_apply V c t.val t.isLt r f n p hn hp, h3]
    exact blockPrefix_all 1024 _ 4 (by norm_num)
  · refine iblk1_3_apply V c t _ _ ?_ ?_ ?_
    · show n.val = win1_3.index t (0 : Fin 3) * 1 + (0 : ℕ); omega
    · show p.val = win1_3.index t (1 : Fin 3) * 1024 + r.val; omega
    · show f.val = win1_3.index t (2 : Fin 3) * 128 + f.val; omega

/-! ## The written-back blocks cover the array -/

/-- An index of the array is in position t's block iff each coordinate is in the block's range on its axis. -/
theorem mem_blk1_4 (t : Fin cfg1.N) (i : S4x4096x128.Idx) :
    i ∈ ((cfg1.win 4).blk t).view.set ↔ ∀ a : Fin 3, win1_4.index t a * S1x1024x128.size a ≤ (i a).val
      ∧ (i a).val < win1_4.index t a * S1x1024x128.size a + S1x1024x128.size a := by
  show i ∈ ((View.whole main_v5).slice (win1_4.rect t)).set ↔ _
  rw [View.set_slice_whole, Rect.mem_set_unit]
  exact Iff.rfl

/-- Every index (n, p, f) of the array is in the block of position 16 n + 4 (p / 1024) + 3, which is written back. -/
theorem cover1_4 (i : S4x4096x128.Idx) :
    ∃ t : Fin cfg1.N, (cfg1.win 4).flush t = true ∧ i ∈ ((cfg1.win 4).blk t).view.set := by
  have hi0 : (i 0).val < 4 := (i 0).isLt
  have hi1 : (i 1).val < 4096 := (i 1).isLt
  have hi2 : (i 2).val < 128 := (i 2).isLt
  have hN : cfg1.N = 64 := N_1
  have hlt : 16 * (i 0).val + 4 * ((i 1).val / 1024) + 3 < cfg1.N := by rw [hN]; omega
  obtain ⟨-, -, -, -, ⟨e0, e1, e2⟩⟩ := idx_facts1 ⟨16 * (i 0).val + 4 * ((i 1).val / 1024) + 3, hlt⟩
  refine ⟨⟨16 * (i 0).val + 4 * ((i 1).val / 1024) + 3, hlt⟩,
    (flush1_4 _).mpr (by show (16 * (i 0).val + 4 * ((i 1).val / 1024) + 3) % 4 = 3; omega), ?_⟩
  rw [mem_blk1_4]
  intro a
  match a with
  | ⟨0, _⟩ =>
    show win1_4.index ⟨16 * (i 0).val + 4 * ((i 1).val / 1024) + 3, hlt⟩ (0 : Fin 3) * 1 ≤ (i 0).val
      ∧ (i 0).val < win1_4.index ⟨16 * (i 0).val + 4 * ((i 1).val / 1024) + 3, hlt⟩ (0 : Fin 3) * 1 + 1
    rw [e0]
    show (16 * (i 0).val + 4 * ((i 1).val / 1024) + 3) / 16 * 1 ≤ (i 0).val
      ∧ (i 0).val < (16 * (i 0).val + 4 * ((i 1).val / 1024) + 3) / 16 * 1 + 1
    omega
  | ⟨1, _⟩ =>
    show win1_4.index ⟨16 * (i 0).val + 4 * ((i 1).val / 1024) + 3, hlt⟩ (1 : Fin 3) * 1024 ≤ (i 1).val
      ∧ (i 1).val < win1_4.index ⟨16 * (i 0).val + 4 * ((i 1).val / 1024) + 3, hlt⟩ (1 : Fin 3) * 1024 + 1024
    rw [e1]
    show (16 * (i 0).val + 4 * ((i 1).val / 1024) + 3) / 4 % 4 * 1024 ≤ (i 1).val
      ∧ (i 1).val < (16 * (i 0).val + 4 * ((i 1).val / 1024) + 3) / 4 % 4 * 1024 + 1024
    omega
  | ⟨2, _⟩ =>
    show win1_4.index ⟨16 * (i 0).val + 4 * ((i 1).val / 1024) + 3, hlt⟩ (2 : Fin 3) * 128 ≤ (i 2).val
      ∧ (i 2).val < win1_4.index ⟨16 * (i 0).val + 4 * ((i 1).val / 1024) + 3, hlt⟩ (2 : Fin 3) * 128 + 128
    rw [e2]
    omega

/-! ## The array after the launch -/

/-- The output array after launch 1: the attention function of the xq and yk arrays the launch finds. -/
theorem final1_4 (c : Dev nD) :
    (dat1 (F := Ideal) V c).arrAt 4 cfg1.N = attnArr (V c main_v4_0) (V c main_v4_1) :=
  (dat1 V c).arrAt_eq_of_cover 4 (attnArr (V c main_v4_0) (V c main_v4_1))
    (fun t hf => flushed1_4_eq V c t hf) cover1_4

end Cert.KernelIdeal.Hand

end
-- ==== Proof.KI.Final.lean ====
/-
  The result buffer after the whole program, read back to the six argument arrays, at the ideal values.

  The program is: four host reshapes (the two images [4, 64, 64, 128] → [4, 4096, 128], the two bias vectors
  [128] → [1, 128]), launch 0 (the two projections), launch 1 (the attention), and a closing reshape
  [4, 4096, 128] → [4, 64, 64, 128].  Walking the buffer contents back from the end:
    • the result buffer is the closing reshape of launch 1's output array;
    • that array is the attention of the two arrays launch 1 reads, xq and yk;
    • xq and yk are launch 0's output arrays: the projections of the reshaped images by the weight matrices, which
      no host operation touched, and the reshaped bias vectors;
    • a reshape keeps the row-major position, so the reshaped image at (n, p, c) is the image at
      (n, p / 64, p % 64, c), the reshaped bias at (0, f) is the bias at f, and the result at (n, h, w, f) is the
      attention array at (n, 64 h + w, f).
  Composed, this is the specification's function of the six arrays.
-/
import proofs.«140727_j37993280700496_1_alg».proof.Proof.KI.Run
import proofs.«140727_j37993280700496_1_alg».proof.Proof.KI.Val0
import proofs.«140727_j37993280700496_1_alg».proof.Proof.KI.Arr
import proofs.«140727_j37993280700496_1_alg».proof.Proof.KI.Val1
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

-- The launch memory.
variable (m : (ℓ : Loc nD τ sig) → Buf (Elt Ideal) ℓ)

/-! ## The host reshapes, buffer by buffer -/

/-- The result buffer after the closing reshape is the attention launch's output array read as [4, 64, 64, 128]. -/
theorem W4_main_v6 (c : Dev nD) :
    W4 m c (Proc.devRef .tc main_v6)
      = shapeCast S4x64x64x128 (W3 m c (Proc.devRef .tc main_v5)) shapeCasts_S4x4096x128_S4x64x64x128 := by
  show StableHlo.after hostOps2 _ (Proc.devRef .tc main_v6) = _
  after_results
  rfl

/-- Launch 0 finds the x image read as [4, 4096, 128], -/
theorem V1_main_v0 (c : Dev nD) :
    V1 m c main_v0 = shapeCast S4x4096x128 (m ((c : Thread nD τ).loc main_arg0)) shapeCasts_S4x64x64x128_S4x4096x128 := by
  show StableHlo.after hostOps0 _ (Proc.devRef .tc main_v0) = _
  after_results
  rfl
/-- the y image read as [4, 4096, 128], -/
theorem V1_main_v1 (c : Dev nD) :
    V1 m c main_v1 = shapeCast S4x4096x128 (m ((c : Thread nD τ).loc main_arg1)) shapeCasts_S4x64x64x128_S4x4096x128 := by
  show StableHlo.after hostOps0 _ (Proc.devRef .tc main_v1) = _
  after_results
  rfl
/-- the two bias vectors read as [1, 128], -/
theorem V1_main_v2 (c : Dev nD) :
    V1 m c main_v2 = shapeCast S1x128 (m ((c : Thread nD τ).loc main_arg3)) shapeCasts_S128_S1x128 := by
  show StableHlo.after hostOps0 _ (Proc.devRef .tc main_v2) = _
  after_results
  rfl
theorem V1_main_v3 (c : Dev nD) :
    V1 m c main_v3 = shapeCast S1x128 (m ((c : Thread nD τ).loc main_arg5)) shapeCasts_S128_S1x128 := by
  show StableHlo.after hostOps0 _ (Proc.devRef .tc main_v3) = _
  after_results
  rfl
/-- and the two weight matrices as launched. -/
theorem V1_main_arg2 (c : Dev nD) : V1 m c main_arg2 = m ((c : Thread nD τ).loc main_arg2) := by
  show StableHlo.after hostOps0 _ (Proc.devRef .tc main_arg2) = _
  after_results
theorem V1_main_arg4 (c : Dev nD) : V1 m c main_arg4 = m ((c : Thread nD τ).loc main_arg4) := by
  show StableHlo.after hostOps0 _ (Proc.devRef .tc main_arg4) = _
  after_results

/-! ## The reshapes read at an index

A reshape keeps the row-major position.  Between [4, 64, 64, 128] and [4, 4096, 128] that pairs pixel (h, w) with row
64 h + w; between [128] and [1, 128] it pairs f with (0, f). -/

theorem reshape_img_apply (X : S4x64x64x128.Idx → EReal) (n : Fin 4) (p : Fin 4096) (ch : Fin 128) :
    shapeCast S4x4096x128 X shapeCasts_S4x64x64x128_S4x4096x128 (ix3 n p ch) = Cert.Spec.pix X n p ch := by
  unfold Cert.Spec.pix
  refine shapeCast_apply X _ (ix3 n p ch) _ ?_
  rw [Shape.rowMajor_val_four, Shape.rowMajor_val_three]
  show ((n.val * 64 + p.val / 64) * 64 + p.val % 64) * 128 + ch.val = (n.val * 4096 + p.val) * 128 + ch.val
  omega

theorem reshape_bias_apply (b : S128.Idx → EReal) (f : Fin 128) :
    shapeCast S1x128 b shapeCasts_S128_S1x128 (ix2 (0 : Fin 1) f) = b (ix1 f) := by
  refine shapeCast_apply b _ (ix2 (0 : Fin 1) f) (ix1 f) ?_
  rw [Shape.rowMajor_val_one, Shape.rowMajor_val_two]
  show f.val = 0 * 128 + f.val
  omega

theorem reshape_out_apply (A : S4x4096x128.Idx → EReal) (n : Fin 4) (h w : Fin 64) (f : Fin 128) :
    shapeCast S4x64x64x128 A shapeCasts_S4x4096x128_S4x64x64x128 (ix4 n h w f)
      = A (ix3 n (⟨64 * h.val + w.val, by have h1 := h.isLt; have h2 := w.isLt; omega⟩ : Fin 4096) f) := by
  refine shapeCast_apply A _ (ix4 n h w f) _ ?_
  rw [Shape.rowMajor_val_three, Shape.rowMajor_val_four]
  show (n.val * 4096 + (64 * h.val + w.val)) * 128 + f.val = ((n.val * 64 + h.val) * 64 + w.val) * 128 + f.val
  omega

/-- The projection of a reshaped image by a weight matrix and a reshaped bias vector is the per-pixel projection. -/
theorem projArr_reshape (X : S4x64x64x128.Idx → EReal) (W : S128x128.Idx → EReal) (b : S128.Idx → EReal) :
    (fun (n : Fin 4) (p : Fin 4096) (f : Fin 128) =>
        projArr (shapeCast S4x4096x128 X shapeCasts_S4x64x64x128_S4x4096x128) W (shapeCast S1x128 b shapeCasts_S128_S1x128) (ix3 n p f))
      = Cert.Spec.proj (Cert.Spec.pix X) W b := by
  funext n p f
  rw [projArr_apply]
  unfold Cert.Spec.proj
  simp only [reshape_img_apply, reshape_bias_apply]

/-! ## The result buffer, read back to the arguments -/

/-- The chain of the whole program on plain arrays: reshape the images and the bias vectors, project, attend, reshape
    back — the specification's function of the six arrays. -/
theorem result_pure (X Y : S4x64x64x128.Idx → EReal) (W1 W2 : S128x128.Idx → EReal) (b1 b2 : S128.Idx → EReal) :
    shapeCast S4x64x64x128
        (attnArr
          (projArr (shapeCast S4x4096x128 X shapeCasts_S4x64x64x128_S4x4096x128) W1 (shapeCast S1x128 b1 shapeCasts_S128_S1x128))
          (projArr (shapeCast S4x4096x128 Y shapeCasts_S4x64x64x128_S4x4096x128) W2 (shapeCast S1x128 b2 shapeCasts_S128_S1x128)))
        shapeCasts_S4x4096x128_S4x64x64x128
      = Cert.Spec.result X Y W1 b1 W2 b2 := by
  funext i
  obtain ⟨n, h, w, f, rfl⟩ : ∃ (n : Fin 4) (h w : Fin 64) (f : Fin 128), i = ix4 n h w f := ⟨i 0, i 1, i 2, i 3, eq_ix4 i⟩
  rw [reshape_out_apply, attnArr_apply, projArr_reshape, projArr_reshape]
  rfl

/-- The result buffer after the whole program is the specification's function of the six argument arrays as launched. -/
theorem result_value (c : Dev nD) :
    W4 m c (Proc.devRef .tc main_v6)
      = Cert.Spec.result (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) := by
  have e5 : W3 m c (Proc.devRef .tc main_v5) = attnArr (V2 m c main_v4_0) (V2 m c main_v4_1) :=
    (Function.update_self _ _ _).trans (final1_4 (V2 m) c)
  have e40 : V2 m c main_v4_0 = projArr (V1 m c main_v0) (V1 m c main_arg2) (V1 m c main_v2) :=
    (W2_arr m c 6).trans (final0_6 (V1 m) c)
  have e41 : V2 m c main_v4_1 = projArr (V1 m c main_v1) (V1 m c main_arg4) (V1 m c main_v3) :=
    (W2_arr m c 7).trans (final0_7 (V1 m) c)
  rw [W4_main_v6, e5, e40, e41, V1_main_v0, V1_main_v1, V1_main_arg2, V1_main_v2, V1_main_arg4, V1_main_v3]
  generalize m ((c : Thread nD τ).loc main_arg0) = X
  generalize m ((c : Thread nD τ).loc main_arg1) = Y
  generalize m ((c : Thread nD τ).loc main_arg2) = W1
  generalize m ((c : Thread nD τ).loc main_arg3) = b1
  generalize m ((c : Thread nD τ).loc main_arg4) = W2
  generalize m ((c : Thread nD τ).loc main_arg5) = b2
  exact result_pure X Y W1 W2 b1 b2

end Cert.KernelIdeal.Hand

end
-- ==== Proof.KI.RefSpec.lean ====
/-
  The reference program computes the specification.

  Stage by stage, read at an index: the two per-pixel projections are a contraction over the 128 input channels plus a
  broadcast bias; the reshape [4,64,64,128] → [4,4096,128] is row-major, so pixel p = 64·h + w sits at row p / 64,
  column p % 64; the logits contract the 128 projected channels; the sigmoid is spelt 1 / (1 + exp(−s)), which at the
  extended reals is the logistic function by definition; the weighted sum contracts the 4096 key pixels; and the result
  is reshaped back and the first projection added.
-/
import proofs.«140727_j37993280700496_1_alg».proof.Proof.Gen.ReferenceIdeal.Read
import proofs.«140727_j37993280700496_1_alg».proof.Proof.Spec

noncomputable section

namespace Cert.ReferenceIdeal.RefSpec

open Idealize.ShloMosaic Idealize.ShloMosaic.ValueIdx Cert.ReferenceIdeal Cert.ReferenceIdeal.Read Cert.Spec

/-- The word of the float literal 1.0 denotes the extended real 1. -/
theorem ofBits_one_f32 : Ideal.ofBits .f32 0x3F800000#32 = 1 := IdealRules.sign_bit.ideal_onePat .f32

section
variable (x0 x1 : FVec Ideal S4x64x64x128 .f32) (x2 : FVec Ideal S128x128 .f32) (x3 : FVec Ideal S128 .f32)
  (x4 : FVec Ideal S128x128 .f32) (x5 : FVec Ideal S128 .f32)

/-- A projection before the reshape, at (n, h, w, f): Σ_c a[n, h, w, c] · W[c, f] + b[f]. -/
theorem v3_ix (n : Fin 4) (h w : Fin 64) (f : Fin 128) :
    val_main_v3 (F := Ideal) x0 x2 x3 (ix4 n h w f) = (∑ c : Fin 128, x0 (ix4 n h w c) * x2 (ix2 c f)) + x3 (ix1 f) := by
  refine (val_main_v3_apply (F := Ideal) x0 x2 x3 _).trans ?_
  show _ + _ = _
  refine congrArg₂ (· + ·) ?_ ?_
  · refine (val_main_v0_apply x0 x2 _).trans ?_
    refine Finset.sum_congr rfl fun k _ => ?_
    have el : lidx_main_v0 (ix4 n h w f) k = ix4 n h w k :=
      funext fun a => match a with | ⟨0, _⟩ => rfl | ⟨1, _⟩ => rfl | ⟨2, _⟩ => rfl | ⟨3, _⟩ => rfl
    have er : ridx_main_v0 (ix4 n h w f) k = ix2 k f :=
      funext fun a => match a with | ⟨0, _⟩ => rfl | ⟨1, _⟩ => rfl
    rw [el, er]
  · refine (val_main_v2_apply (F := Ideal) x3 _).trans ?_
    refine (val_main_v1_apply (F := Ideal) x3 _).trans ?_
    exact congrArg x3 (funext fun a => match a with | ⟨0, _⟩ => rfl)

/-- The other projection before the reshape, likewise. -/
theorem v7_ix (n : Fin 4) (h w : Fin 64) (f : Fin 128) :
    val_main_v7 (F := Ideal) x1 x4 x5 (ix4 n h w f) = (∑ c : Fin 128, x1 (ix4 n h w c) * x4 (ix2 c f)) + x5 (ix1 f) := by
  refine (val_main_v7_apply (F := Ideal) x1 x4 x5 _).trans ?_
  show _ + _ = _
  refine congrArg₂ (· + ·) ?_ ?_
  · refine (val_main_v4_apply x1 x4 _).trans ?_
    refine Finset.sum_congr rfl fun k _ => ?_
    have el : lidx_main_v4 (ix4 n h w f) k = ix4 n h w k :=
      funext fun a => match a with | ⟨0, _⟩ => rfl | ⟨1, _⟩ => rfl | ⟨2, _⟩ => rfl | ⟨3, _⟩ => rfl
    have er : ridx_main_v4 (ix4 n h w f) k = ix2 k f :=
      funext fun a => match a with | ⟨0, _⟩ => rfl | ⟨1, _⟩ => rfl
    rw [el, er]
  · refine (val_main_v6_apply (F := Ideal) x5 _).trans ?_
    refine (val_main_v5_apply (F := Ideal) x5 _).trans ?_
    exact congrArg x5 (funext fun a => match a with | ⟨0, _⟩ => rfl)

/-- Row p of the [4,4096,128] reading is row p / 64, column p % 64 of the image. -/
theorem idx8_ix (n : Fin 4) (p : Fin 4096) (f : Fin 128) :
    idx_main_v8 (ix3 n p f) = ix4 n ⟨p.val / 64, by have := p.isLt; omega⟩ ⟨p.val % 64, Nat.mod_lt _ (by decide)⟩ f :=
  funext fun a => Fin.ext (by
    have hn := n.isLt; have hp := p.isLt; have hf := f.isLt
    match a with
    | ⟨0, _⟩ => show ((n.val * 4096 + p.val) * 128 + f.val) / 524288 = n.val; omega
    | ⟨1, _⟩ => show ((n.val * 4096 + p.val) * 128 + f.val) / 8192 % 64 = p.val / 64; omega
    | ⟨2, _⟩ => show ((n.val * 4096 + p.val) * 128 + f.val) / 128 % 64 = p.val % 64; omega
    | ⟨3, _⟩ => show ((n.val * 4096 + p.val) * 128 + f.val) % 128 = f.val; omega)

theorem idx9_ix (n : Fin 4) (p : Fin 4096) (f : Fin 128) :
    idx_main_v9 (ix3 n p f) = ix4 n ⟨p.val / 64, by have := p.isLt; omega⟩ ⟨p.val % 64, Nat.mod_lt _ (by decide)⟩ f :=
  funext fun a => Fin.ext (by
    have hn := n.isLt; have hp := p.isLt; have hf := f.isLt
    match a with
    | ⟨0, _⟩ => show ((n.val * 4096 + p.val) * 128 + f.val) / 524288 = n.val; omega
    | ⟨1, _⟩ => show ((n.val * 4096 + p.val) * 128 + f.val) / 8192 % 64 = p.val / 64; omega
    | ⟨2, _⟩ => show ((n.val * 4096 + p.val) * 128 + f.val) / 128 % 64 = p.val % 64; omega
    | ⟨3, _⟩ => show ((n.val * 4096 + p.val) * 128 + f.val) % 128 = f.val; omega)

/-- The first projection after the reshape is the specification's projection of the first image. -/
theorem v8_ix (n : Fin 4) (p : Fin 4096) (f : Fin 128) :
    val_main_v8 (F := Ideal) x0 x2 x3 (ix3 n p f) = proj (pix x0) x2 x3 n p f := by
  refine (val_main_v8_apply (F := Ideal) x0 x2 x3 _).trans ?_
  rw [idx8_ix]
  exact v3_ix x0 x2 x3 n _ _ f

/-- The second projection after the reshape is the specification's projection of the second image. -/
theorem v9_ix (n : Fin 4) (p : Fin 4096) (f : Fin 128) :
    val_main_v9 (F := Ideal) x1 x4 x5 (ix3 n p f) = proj (pix x1) x4 x5 n p f := by
  refine (val_main_v9_apply (F := Ideal) x1 x4 x5 _).trans ?_
  rw [idx9_ix]
  exact v7_ix x1 x4 x5 n _ _ f

/-- The logits: Σ_c yk[n, i, c] · xq[n, j, c]. -/
theorem v10_ix (n : Fin 4) (i j : Fin 4096) :
    val_main_v10 (F := Ideal) x0 x1 x2 x3 x4 x5 (ix3 n i j) = logit (proj (pix x0) x2 x3) (proj (pix x1) x4 x5) n i j := by
  refine (val_main_v10_apply x0 x1 x2 x3 x4 x5 _).trans ?_
  unfold logit
  refine Finset.sum_congr rfl fun k _ => ?_
  have el : lidx_main_v10 (ix3 n i j) k = ix3 n i k :=
    funext fun a => match a with | ⟨0, _⟩ => rfl | ⟨1, _⟩ => rfl | ⟨2, _⟩ => rfl
  have er : ridx_main_v10 (ix3 n i j) k = ix3 n j k :=
    funext fun a => match a with | ⟨0, _⟩ => rfl | ⟨1, _⟩ => rfl | ⟨2, _⟩ => rfl
  rw [el, er, v9_ix, v8_ix]

/-- The sigmoid 1 / (1 + exp(−s)) of a logit is the logistic function of it. -/
theorem v16_ix (n : Fin 4) (i j : Fin 4096) :
    val_main_v16 (F := Ideal) x0 x1 x2 x3 x4 x5 (ix3 n i j)
      = Ideal.logistic (logit (proj (pix x0) x2 x3) (proj (pix x1) x4 x5) n i j) := by
  have h15 : val_main_v15 (F := Ideal) (ix3 n i j) = 1 :=
    (val_main_v15_apply (F := Ideal) _).trans ((val_main_cst_0_apply (F := Ideal) _).trans ofBits_one_f32)
  have h13 : val_main_v13 (F := Ideal) (ix3 n i j) = 1 :=
    (val_main_v13_apply (F := Ideal) _).trans ((val_main_cst_apply (F := Ideal) _).trans ofBits_one_f32)
  refine (val_main_v16_apply (F := Ideal) x0 x1 x2 x3 x4 x5 _).trans ?_
  rw [h15, val_main_v14_apply (F := Ideal), h13, val_main_v12_apply (F := Ideal), val_main_v11_apply (F := Ideal), v10_ix]
  rfl

/-- The weighted sum over the 4096 key pixels. -/
theorem v17_ix (n : Fin 4) (i : Fin 4096) (f : Fin 128) :
    val_main_v17 (F := Ideal) x0 x1 x2 x3 x4 x5 (ix3 n i f)
      = ∑ j : Fin 4096, Ideal.logistic (logit (proj (pix x0) x2 x3) (proj (pix x1) x4 x5) n i j) * proj (pix x1) x4 x5 n j f := by
  refine (val_main_v17_apply x0 x1 x2 x3 x4 x5 _).trans ?_
  refine Finset.sum_congr rfl fun k _ => ?_
  have el : lidx_main_v17 (ix3 n i f) k = ix3 n i k :=
    funext fun a => match a with | ⟨0, _⟩ => rfl | ⟨1, _⟩ => rfl | ⟨2, _⟩ => rfl
  have er : ridx_main_v17 (ix3 n i f) k = ix3 n k f :=
    funext fun a => match a with | ⟨0, _⟩ => rfl | ⟨1, _⟩ => rfl | ⟨2, _⟩ => rfl
  rw [el, er, v16_ix, v9_ix]

/-- Pixel (h, w) of the image is row 64·h + w of the [4,4096,128] reading. -/
theorem idx18_ix (n : Fin 4) (h w : Fin 64) (f : Fin 128) :
    idx_main_v18 (ix4 n h w f) = ix3 n ⟨64 * h.val + w.val, by have := h.isLt; have := w.isLt; omega⟩ f :=
  funext fun a => Fin.ext (by
    have hn := n.isLt; have hh := h.isLt; have hw := w.isLt; have hf := f.isLt
    match a with
    | ⟨0, _⟩ => show (((n.val * 64 + h.val) * 64 + w.val) * 128 + f.val) / 524288 = n.val; omega
    | ⟨1, _⟩ => show (((n.val * 64 + h.val) * 64 + w.val) * 128 + f.val) / 128 % 4096 = 64 * h.val + w.val; omega
    | ⟨2, _⟩ => show (((n.val * 64 + h.val) * 64 + w.val) * 128 + f.val) % 128 = f.val; omega)

/-- THE REFERENCE IS THE SPECIFICATION: the composed term of the reference's run is the specification's result. -/
theorem ref_eq_spec :
    val_main_v19 (F := Ideal) x0 x1 x2 x3 x4 x5 = result x0 x1 x2 x3 x4 x5 := by
  funext i
  obtain ⟨n, h, w, f, rfl⟩ : ∃ (n : Fin 4) (h w : Fin 64) (f : Fin 128), i = ix4 n h w f := ⟨i 0, i 1, i 2, i 3, eq_ix4 i⟩
  have hp : 64 * h.val + w.val < 4096 := by have := h.isLt; have := w.isLt; omega
  refine (val_main_v19_apply (F := Ideal) x0 x1 x2 x3 x4 x5 _).trans ?_
  show _ + _ = attn (proj (pix x0) x2 x3) (proj (pix x1) x4 x5) n ⟨64 * h.val + w.val, hp⟩ f
  unfold attn
  refine congrArg₂ (· + ·) ?_ ?_
  · refine (val_main_v18_apply (F := Ideal) x0 x1 x2 x3 x4 x5 _).trans ?_
    rw [idx18_ix]
    exact v17_ix x0 x1 x2 x3 x4 x5 n _ f
  · refine Eq.trans ?_ (v8_ix x0 x2 x3 n ⟨64 * h.val + w.val, hp⟩ f)
    refine ((val_main_v8_apply (F := Ideal) x0 x2 x3 _).trans ?_).symm
    refine congrArg (val_main_v3 (F := Ideal) x0 x2 x3) ?_
    rw [idx8_ix]
    funext a
    refine Fin.ext ?_
    have hh := h.isLt; have hw := w.isLt
    match a with
    | ⟨0, _⟩ => rfl
    | ⟨1, _⟩ => show (64 * h.val + w.val) / 64 = h.val; omega
    | ⟨2, _⟩ => show (64 * h.val + w.val) % 64 = w.val; omega
    | ⟨3, _⟩ => rfl

end

end Cert.ReferenceIdeal.RefSpec

end
-- ==== Proof.lean ====
/-
  The certificate's claims, assembled.

  Both programs compute, on the extended reals, the sigmoid cross-attention `Cert.Spec.result` of the six argument
  arrays (Proof/Spec.lean): the per-pixel projections xq = x·W1 + b1 and yk = y·W2 + b2, then for each query pixel
  i the sum over all key pixels j of logistic(yk_i · xq_j) · yk_j, plus xq_i.  The kernel forms the projections in one
  launch, 1024 pixels at a time, and the attention in a second launch that accumulates the key pixels in four blocks
  of 1024 into a scratch accumulator; the reference forms each as one contraction.  The two agree because a finite
  sum over 4096 keys is the fold of its four block sums (addition on the extended reals is commutative and
  associative, so no finiteness of the inputs is needed), a matrix unit's product into a zero accumulator and the
  host's contraction are the same finite sum, the rounding steps are the identity on the extended reals, and the
  kernel's logistic is the reference's 1 / (1 + exp(-s)).

  The frames of the two printed kernel programs come from one run theorem (Proof/KI/Run.lean, Proof/K/Run.lean):
  the program is host reshapes, launch 0, launch 1, a host reshape; each launch is entered from the buffer contents the
  segment before it left and leaves its output arrays at what its write-backs made of them; no segment writes an
  argument array.  The reference is host operations only; its run is read back operation by operation.
-/
import proofs.«140727_j37993280700496_1_alg».proof.Defs
import proofs.«140727_j37993280700496_1_alg».proof.Proof.Gen.Kernel
import proofs.«140727_j37993280700496_1_alg».proof.Proof.Gen.KernelIdeal
import proofs.«140727_j37993280700496_1_alg».proof.Proof.Gen.ReferenceIdeal
import proofs.«140727_j37993280700496_1_alg».proof.Proof.Gen.Pre_finite_inputs
import proofs.«140727_j37993280700496_1_alg».proof.Proof.Gen.ReferenceIdeal.Run
import proofs.«140727_j37993280700496_1_alg».proof.Proof.Gen.ReferenceIdeal.Read
import proofs.«140727_j37993280700496_1_alg».proof.Proof.K.Run
import proofs.«140727_j37993280700496_1_alg».proof.Proof.K.R0
import proofs.«140727_j37993280700496_1_alg».proof.Proof.K.R1
import proofs.«140727_j37993280700496_1_alg».proof.Proof.K.Args
import proofs.«140727_j37993280700496_1_alg».proof.Proof.KI.Run
import proofs.«140727_j37993280700496_1_alg».proof.Proof.KI.R0
import proofs.«140727_j37993280700496_1_alg».proof.Proof.KI.R1
import proofs.«140727_j37993280700496_1_alg».proof.Proof.KI.Args
import proofs.«140727_j37993280700496_1_alg».proof.Proof.KI.Final
import proofs.«140727_j37993280700496_1_alg».proof.Proof.KI.RefSpec
import Idealize.ShloMosaic.Adequacy
import Idealize.ShloMosaic.Init

noncomputable section

namespace Cert.Proof

open Idealize.ShloMosaic Idealize.ShloMosaic.TcCoe Idealize.SL.Sem

/-- The word-level program's launches meet their obligations at any launch memory. -/
theorem oblK (m : (ℓ : Loc Cert.Kernel.nD Cert.Kernel.τ Cert.Kernel.sig) → Buf (Elt Bits) ℓ) : Cert.Kernel.Hand.Obl (F := Bits) m :=
  ⟨fun c => Cert.Kernel.Hand.body_obligation0 _ c, fun c => Cert.Kernel.Hand.body_obligation1 _ c,
    fun c => Cert.Kernel.Hand.hin1 _ c, fun c => Cert.Kernel.Hand.hout1 _ c⟩

/-- The idealized program's launches meet their obligations at any launch memory. -/
theorem oblKI (m : (ℓ : Loc Cert.KernelIdeal.nD Cert.KernelIdeal.τ Cert.KernelIdeal.sig) → Buf (Elt Ideal) ℓ) : Cert.KernelIdeal.Hand.Obl (F := Ideal) m :=
  ⟨fun c => Cert.KernelIdeal.Hand.body_obligation0 _ c, fun c => Cert.KernelIdeal.Hand.body_obligation1 _ c,
    fun c => Cert.KernelIdeal.Hand.hin1 _ c, fun c => Cert.KernelIdeal.Hand.hout1 _ c⟩

/-- The word-level program runs and leaves its argument arrays as launched. -/
theorem frame_k : Cert.frame_Kernel := fun m ρ _ =>
  (θ_run Cert.Kernel.defs _ _).mono (fun r h c => by
    open Cert.Kernel Cert.Kernel.Hand in
    exact ⟨(h c _ (mem_uc main_arg0 (by decide))).trans (W4_main_arg0 m c), (h c _ (mem_uc main_arg1 (by decide))).trans (W4_main_arg1 m c),
      (h c _ (mem_uc main_arg2 (by decide))).trans (W4_main_arg2 m c), (h c _ (mem_uc main_arg3 (by decide))).trans (W4_main_arg3 m c),
      (h c _ (mem_uc main_arg4 (by decide))).trans (W4_main_arg4 m c), (h c _ (mem_uc main_arg5 (by decide))).trans (W4_main_arg5 m c)⟩)
    (Cert.Kernel.Hand.run_all m ρ (oblK m))

/-- The idealized program runs and leaves its argument arrays as launched. -/
theorem frame_ki : Cert.frame_KernelIdeal := fun m ρ _ =>
  (θ_run Cert.KernelIdeal.defs _ _).mono (fun r h c => by
    open Cert.KernelIdeal Cert.KernelIdeal.Hand in
    exact ⟨(h c _ (mem_uc main_arg0 (by decide))).trans (W4_main_arg0 m c), (h c _ (mem_uc main_arg1 (by decide))).trans (W4_main_arg1 m c),
      (h c _ (mem_uc main_arg2 (by decide))).trans (W4_main_arg2 m c), (h c _ (mem_uc main_arg3 (by decide))).trans (W4_main_arg3 m c),
      (h c _ (mem_uc main_arg4 (by decide))).trans (W4_main_arg4 m c), (h c _ (mem_uc main_arg5 (by decide))).trans (W4_main_arg5 m c)⟩)
    (Cert.KernelIdeal.Hand.run_all m ρ (oblKI m))

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- On the extended reals both programs end with `Cert.Spec.result` of the argument arrays. -/
theorem algebraic : Cert.algebraic_KernelIdeal_ReferenceIdeal := by
  intro m ρ m' ρ' _ hagree
  open Cert.KernelIdeal Cert.KernelIdeal.Hand in
  refine ⟨fun c => Cert.Spec.result (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)), ?_, ?_⟩
  · refine (θ_run Cert.KernelIdeal.defs _ _).mono (fun r h c => ?_) (run_all m ρ (oblKI m))
    exact ⟨(h c _ (mem_uc main_v6 (by decide))).trans (result_value m c),
      (h c _ (mem_uc main_arg0 (by decide))).trans (W4_main_arg0 m c), (h c _ (mem_uc main_arg1 (by decide))).trans (W4_main_arg1 m c),
      (h c _ (mem_uc main_arg2 (by decide))).trans (W4_main_arg2 m c), (h c _ (mem_uc main_arg3 (by decide))).trans (W4_main_arg3 m c),
      (h c _ (mem_uc main_arg4 (by decide))).trans (W4_main_arg4 m c), (h c _ (mem_uc main_arg5 (by decide))).trans (W4_main_arg5 m c)⟩
  · refine (θ_run Cert.ReferenceIdeal.defs _ _).mono (fun r h c => ⟨?_, (h c).2⟩) (Cert.ReferenceIdeal.Value.run (F := Ideal) m' ρ')
    rw [(h c).1, Cert.ReferenceIdeal.Read.val_main_v19_eq, Cert.ReferenceIdeal.RefSpec.ref_eq_spec, (hagree c).1, (hagree c).2.1, (hagree c).2.2.1,
      (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
